-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x64 : Shape := ⟨2, ![100000, 64]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S2x1000000 : Shape := ⟨2, ![2, 1000000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S128 .f32) (main_arg8 : FVec F S128x1 .f32) (main_arg9 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg8
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S128x64 .f32) (main_arg5 : FVec F S64 .f32) (main_arg6 : FVec F S64x128 .f32) (main_arg7 : FVec F S128 .f32) (main_arg8 : FVec F S128x1 .f32) (main_arg9 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg6
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x128 .f32) (main_arg1 : FVec F S100000x64 .f32) (main_arg2 : FVec F S128x64 .f32) (main_arg3 : FVec F S64 .f32) (main_arg4 : FVec F S128x64 .f32) (main_arg5 : FVec F S64 .f32) (main_arg6 : FVec F S64x128 .f32) (main_arg7 : FVec F S128 .f32) (main_arg8 : FVec F S128x1 .f32) (main_arg9 : FVec F S1 .f32) (main_arg10 : IVec S2x1000000 32) (main_arg11 : IVec S2x1000000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S100000x128 : Shape := ⟨2, ![100000, 128]⟩
abbrev S100000x64 : Shape := ⟨2, ![100000, 64]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S2x1000000 : Shape := ⟨2, ![2, 1000000]⟩
abbrev S100000x1 : Shape := ⟨2, ![100000, 1]⟩
abbrev S5000x128 : Shape := ⟨2, ![5000, 128]⟩
abbrev S5000x64 : Shape := ⟨2, ![5000, 64]⟩
abbrev S5000x1 : Shape := ⟨2, ![5000, 1]⟩
abbrev S1x64 : Shape := ⟨2, ![1, 64]⟩
abbrev S5000 : Shape := ⟨1, ![5000]⟩
abbrev S_ : Shape := ⟨0, ![]⟩
abbrev S1x1000000 : Shape := ⟨2, ![1, 1000000]⟩
abbrev S1000000 : Shape := ⟨1, ![1000000]⟩
abbrev S2000000 : Shape := ⟨1, ![2000000]⟩
abbrev S2000000x1 : Shape := ⟨2, ![2000000, 1]⟩
abbrev S2000000x64 : Shape := ⟨2, ![2000000, 64]⟩
abbrev S8000x64 : Shape := ⟨2, ![8000, 64]⟩
abbrev S8000x1 : Shape := ⟨2, ![8000, 1]⟩
abbrev S8000x128 : Shape := ⟨2, ![8000, 128]⟩
abbrev S1x128 : Shape := ⟨2, ![1, 128]⟩
abbrev S1x1 : Shape := ⟨2, ![1, 1]⟩

abbrev nBuf : Space → Nat
  | .hbm => 60
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S100000x64, .f32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S2x1000000, .i32⟩
  | .hbm, ⟨11, _⟩ => ⟨S2x1000000, .i32⟩
  | .hbm, ⟨12, _⟩ => ⟨S100000x64, .f32⟩
  | .hbm, ⟨13, _⟩ => ⟨S100000x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x1000000, .i32⟩
  | .hbm, ⟨19, _⟩ => ⟨S1000000, .i32⟩
  | .hbm, ⟨20, _⟩ => ⟨S1x1000000, .i32⟩
  | .hbm, ⟨21, _⟩ => ⟨S1000000, .i32⟩
  | .hbm, ⟨22, _⟩ => ⟨S2000000, .i32⟩
  | .hbm, ⟨23, _⟩ => ⟨S1x1000000, .i32⟩
  | .hbm, ⟨24, _⟩ => ⟨S1000000, .i32⟩
  | .hbm, ⟨25, _⟩ => ⟨S1x1000000, .i32⟩
  | .hbm, ⟨26, _⟩ => ⟨S1000000, .i32⟩
  | .hbm, ⟨27, _⟩ => ⟨S2000000, .i32⟩
  | .hbm, ⟨28, _⟩ => ⟨S_, .f32⟩
  | .hbm, ⟨29, _⟩ => ⟨S1000000, .f32⟩
  | .hbm, ⟨30, _⟩ => ⟨S_, .f32⟩
  | .hbm, ⟨31, _⟩ => ⟨S1000000, .f32⟩
  | .hbm, ⟨32, _⟩ => ⟨S1000000, .f32⟩
  | .hbm, ⟨33, _⟩ => ⟨S2000000, .f32⟩
  | .hbm, ⟨34, _⟩ => ⟨S2000000x1, .f32⟩
  | .hbm, ⟨35, _⟩ => ⟨S_, .i32⟩
  | .hbm, ⟨36, _⟩ => ⟨S2000000, .i32⟩
  | .hbm, ⟨37, _⟩ => ⟨S2000000, .i1⟩
  | .hbm, ⟨38, _⟩ => ⟨S_, .i32⟩
  | .hbm, ⟨39, _⟩ => ⟨S2000000, .i32⟩
  | .hbm, ⟨40, _⟩ => ⟨S2000000, .i32⟩
  | .hbm, ⟨41, _⟩ => ⟨S2000000, .i32⟩
  | .hbm, ⟨42, _⟩ => ⟨S2000000x1, .i32⟩
  | .hbm, ⟨43, _⟩ => ⟨S2000000x64, .f32⟩
  | .hbm, ⟨44, _⟩ => ⟨S_, .i32⟩
  | .hbm, ⟨45, _⟩ => ⟨S2000000, .i32⟩
  | .hbm, ⟨46, _⟩ => ⟨S2000000, .i1⟩
  | .hbm, ⟨47, _⟩ => ⟨S_, .i32⟩
  | .hbm, ⟨48, _⟩ => ⟨S2000000, .i32⟩
  | .hbm, ⟨49, _⟩ => ⟨S2000000, .i32⟩
  | .hbm, ⟨50, _⟩ => ⟨S2000000, .i32⟩
  | .hbm, ⟨51, _⟩ => ⟨S2000000x1, .i32⟩
  | .hbm, ⟨52, _⟩ => ⟨S2000000x64, .f32⟩
  | .hbm, ⟨53, _⟩ => ⟨S2000000x1, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .local _ .vmem, ⟨0, _⟩ => ⟨S5000x128, .f32⟩
  | .local _ .vmem, ⟨1, _⟩ => ⟨S5000x128, .f32⟩
  | .local _ .vmem, ⟨2, _⟩ => ⟨S5000x64, .f32⟩
  | .local _ .vmem, ⟨3, _⟩ => ⟨S5000x64, .f32⟩
  | .local _ .vmem, ⟨4, _⟩ => ⟨S128x64, .f32⟩
  | .local _ .vmem, ⟨5, _⟩ => ⟨S64, .f32⟩
  | .local _ .vmem, ⟨6, _⟩ => ⟨S128x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | .local _ .vmem, ⟨10, _⟩ => ⟨S5000x1, .f32⟩
  | .local _ .vmem, ⟨11, _⟩ => ⟨S5000x1, .f32⟩
  | .local _ .vmem, ⟨12, _⟩ => ⟨S8000x64, .f32⟩
  | .local _ .vmem, ⟨13, _⟩ => ⟨S8000x64, .f32⟩
  | .local _ .vmem, ⟨14, _⟩ => ⟨S8000x64, .f32⟩
  | .local _ .vmem, ⟨15, _⟩ => ⟨S8000x64, .f32⟩
  | .local _ .vmem, ⟨16, _⟩ => ⟨S8000x1, .f32⟩
  | .local _ .vmem, ⟨17, _⟩ => ⟨S8000x1, .f32⟩
  | .local _ .vmem, ⟨18, _⟩ => ⟨S64x128, .f32⟩
  | .local _ .vmem, ⟨19, _⟩ => ⟨S128, .f32⟩
  | .local _ .vmem, ⟨20, _⟩ => ⟨S128x1, .f32⟩
  | .local _ .vmem, ⟨21, _⟩ => ⟨S1, .f32⟩
  | .local _ .vmem, ⟨22, _⟩ => ⟨S8000x1, .f32⟩
  | .local _ .vmem, ⟨23, _⟩ => ⟨S8000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_cst : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  reduces_S5000x64_S5000 : S5000x64.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  reducesTo_S100000x1_S_d0_1 : S100000x1.ReducesTo [0, 1] S_
  h_S_ : 0 < S_.numel
  slices_S2x1000000_S1x1000000_0_0 : S2x1000000.Slices ![0, 0] S1x1000000
  shapeCasts_S1x1000000_S1000000 : S1x1000000.ShapeCasts S1000000
  concatenates_S1000000_S1000000_S2000000_d0 : Shape.Concatenates [S1000000, S1000000] S2000000 0
  slices_S2x1000000_S1x1000000_1_0 : S2x1000000.Slices ![1, 0] S1x1000000
  bcast_S_S1000000 : S_.BroadcastsInDim S1000000 (![] : Fin 0 → Fin S1000000.rank)
  bcast_S2000000_S2000000x1_0 : S2000000.BroadcastsInDim S2000000x1 (![0] : Fin 1 → Fin S2000000x1.rank)
  bcast_S_S2000000 : S_.BroadcastsInDim S2000000 (![] : Fin 0 → Fin S2000000.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  reducesTo_S2000000x1_S_d0_1 : S2000000x1.ReducesTo [0, 1] S_
  dot_S5000x128_S128x64_S5000x64_1_0_0_1_n_n_wf : DotDims.WF S5000x128 S128x64 S5000x64 [1] [0] [0] [1] [] []
  gather_S100000x64_S2000000x1_S2000000x64_1_0_n_n_0_1_164_wf : GatherDims.WF S100000x64 S2000000x1 S2000000x64 [1] [0] [] [0] [] 1 ![1, 64]
  dot_S8000x64_S64x128_S8000x128_1_0_0_1_n_n_wf : DotDims.WF S8000x64 S64x128 S8000x128 [1] [0] [0] [1] [] []
  dot_S8000x128_S128x1_S8000x1_1_0_0_1_n_n_wf : DotDims.WF S8000x128 S128x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x1.size a ≤ S100000x1.size a
  hwx0_7 : ∀ i : grid0.Coords, EltTy.bits .f32 = 32 ∨ (Rect.block (s := S100000x1) S5000x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S2000000x64.size a
  hwx1_0 : ∀ i : grid1.Coords, EltTy.bits .f32 = 32 ∨ (Rect.block (s := S2000000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S2000000x64.size a
  hwx1_1 : ∀ i : grid1.Coords, EltTy.bits .f32 = 32 ∨ (Rect.block (s := S2000000x64) S8000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x1.size a ≤ S2000000x1.size a
  hwx1_2 : ∀ i : grid1.Coords, EltTy.bits .f32 = 32 ∨ (Rect.block (s := S2000000x1) S8000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x1.size a ≤ S128x1.size a
  hwx1_5 : ∀ i : grid1.Coords, EltTy.bits .f32 = 32 ∨ (Rect.block (s := S128x1) S128x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1.size a ≤ S1.size a
  hwx1_6 : ∀ i : grid1.Coords, EltTy.bits .f32 = 32 ∨ (Rect.block (s := S1) S1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8000x1.size a ≤ S2000000x1.size a
  hwx1_7 : ∀ i : grid1.Coords, EltTy.bits .f32 = 32 ∨ (Rect.block (s := S2000000x1) S8000x1.size (cc1_transform_7 i) (hinb1_7 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S5000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S5000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v24) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S8000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v32) S8000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S100000x64 : Shape := ⟨2, ![100000, 64]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S2x1000000 : Shape := ⟨2, ![2, 1000000]⟩
abbrev S1x64 : Shape := ⟨2, ![1, 64]⟩
abbrev S_ : Shape := ⟨0, ![]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩
abbrev S1000000x128 : Shape := ⟨2, ![1000000, 128]⟩
abbrev S1x128 : Shape := ⟨2, ![1, 128]⟩
abbrev S1x1 : Shape := ⟨2, ![1, 1]⟩
abbrev S2000000 : Shape := ⟨1, ![2000000]⟩
abbrev S100000 : Shape := ⟨1, ![100000]⟩

abbrev nBuf : Space → Nat
  | .hbm => 152
  | .vmem => 0
  | .smem => 0
  | _ => 0

abbrev hbmTy0_0 (i : Nat) : BufTy := match i % 128 with
  | 0 => ⟨S100000x128, .f32⟩
  | 1 => ⟨S100000x64, .f32⟩
  | 2 => ⟨S128x64, .f32⟩
  | 3 => ⟨S64, .f32⟩
  | 4 => ⟨S128x64, .f32⟩
  | 5 => ⟨S64, .f32⟩
  | 6 => ⟨S64x128, .f32⟩
  | 7 => ⟨S128, .f32⟩
  | 8 => ⟨S128x1, .f32⟩
  | 9 => ⟨S1, .f32⟩
  | 10 => ⟨S2x1000000, .i32⟩
  | 11 => ⟨S2x1000000, .i32⟩
  | 12 => ⟨S100000x64, .f32⟩
  | 13 => ⟨S1x64, .f32⟩
  | 14 => ⟨S100000x64, .f32⟩
  | 15 => ⟨S100000x64, .f32⟩
  | 16 => ⟨S100000x64, .f32⟩
  | 17 => ⟨S1x64, .f32⟩
  | 18 => ⟨S100000x64, .f32⟩
  | 19 => ⟨S100000x64, .f32⟩
  | 20 => ⟨S_, .f32⟩
  | 21 => ⟨S100000x64, .f32⟩
  | 22 => ⟨S100000x64, .f32⟩
  | 23 => ⟨S100000x64, .f32⟩
  | 24 => ⟨S100000x64, .f32⟩
  | 25 => ⟨S100000x64, .f32⟩
  | 26 => ⟨S1x1000000, .i32⟩
  | 27 => ⟨S1000000, .i32⟩
  | 28 => ⟨S_, .i32⟩
  | 29 => ⟨S1000000, .i32⟩
  | 30 => ⟨S1000000, .i1⟩
  | 31 => ⟨S_, .i32⟩
  | 32 => ⟨S1000000, .i32⟩
  | 33 => ⟨S1000000, .i32⟩
  | 34 => ⟨S1000000, .i32⟩
  | 35 => ⟨S1000000x1, .i32⟩
  | 36 => ⟨S1000000x64, .f32⟩
  | 37 => ⟨S1x1000000, .i32⟩
  | 38 => ⟨S1000000, .i32⟩
  | 39 => ⟨S_, .i32⟩
  | 40 => ⟨S1000000, .i32⟩
  | 41 => ⟨S1000000, .i1⟩
  | 42 => ⟨S_, .i32⟩
  | 43 => ⟨S1000000, .i32⟩
  | 44 => ⟨S1000000, .i32⟩
  | 45 => ⟨S1000000, .i32⟩
  | 46 => ⟨S1000000x1, .i32⟩
  | 47 => ⟨S1000000x64, .f32⟩
  | 48 => ⟨S1000000x64, .f32⟩
  | 49 => ⟨S1000000x128, .f32⟩
  | 50 => ⟨S1x128, .f32⟩
  | 51 => ⟨S1000000x128, .f32⟩
  | 52 => ⟨S1000000x128, .f32⟩
  | 53 => ⟨S_, .f32⟩
  | 54 => ⟨S1000000x128, .f32⟩
  | 55 => ⟨S1000000x128, .f32⟩
  | 56 => ⟨S1000000x1, .f32⟩
  | 57 => ⟨S1x1, .f32⟩
  | 58 => ⟨S1000000x1, .f32⟩
  | 59 => ⟨S1000000x1, .f32⟩
  | 60 => ⟨S1000000, .f32⟩
  | 61 => ⟨S1000000, .f32⟩
  | 62 => ⟨S_, .f32⟩
  | 63 => ⟨S1000000, .f32⟩
  | 64 => ⟨S1000000, .f32⟩
  | 65 => ⟨S1000000, .f32⟩
  | 66 => ⟨S1000000, .f32⟩
  | 67 => ⟨S1000000, .i1⟩
  | 68 => ⟨S1000000, .f32⟩
  | 69 => ⟨S1000000, .f32⟩
  | 70 => ⟨S1000000, .f32⟩
  | 71 => ⟨S1000000, .f32⟩
  | 72 => ⟨S1000000, .f32⟩
  | 73 => ⟨S1000000, .f32⟩
  | 74 => ⟨S1000000, .f32⟩
  | 75 => ⟨S1000000, .f32⟩
  | 76 => ⟨S1000000, .f32⟩
  | 77 => ⟨S1x1000000, .i32⟩
  | 78 => ⟨S1000000, .i32⟩
  | 79 => ⟨S_, .i32⟩
  | 80 => ⟨S1000000, .i32⟩
  | 81 => ⟨S1000000, .i1⟩
  | 82 => ⟨S_, .i32⟩
  | 83 => ⟨S1000000, .i32⟩
  | 84 => ⟨S1000000, .i32⟩
  | 85 => ⟨S1000000, .i32⟩
  | 86 => ⟨S1000000x1, .i32⟩
  | 87 => ⟨S1000000x64, .f32⟩
  | 88 => ⟨S1x1000000, .i32⟩
  | 89 => ⟨S1000000, .i32⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S1000000x1, .i32⟩
  | 98 => ⟨S1000000x64, .f32⟩
  | 99 => ⟨S1000000x64, .f32⟩
  | 100 => ⟨S1000000x128, .f32⟩
  | 101 => ⟨S1x128, .f32⟩
  | 102 => ⟨S1000000x128, .f32⟩
  | 103 => ⟨S1000000x128, .f32⟩
  | 104 => ⟨S_, .f32⟩
  | 105 => ⟨S1000000x128, .f32⟩
  | 106 => ⟨S1000000x128, .f32⟩
  | 107 => ⟨S1000000x1, .f32⟩
  | 108 => ⟨S1x1, .f32⟩
  | 109 => ⟨S1000000x1, .f32⟩
  | 110 => ⟨S1000000x1, .f32⟩
  | 111 => ⟨S1000000, .f32⟩
  | 112 => ⟨S1000000, .f32⟩
  | 113 => ⟨S1000000, .f32⟩
  | 114 => ⟨S_, .f32⟩
  | 115 => ⟨S1000000, .f32⟩
  | 116 => ⟨S1000000, .f32⟩
  | 117 => ⟨S1000000, .f32⟩
  | 118 => ⟨S1000000, .f32⟩
  | 119 => ⟨S1000000, .i1⟩
  | 120 => ⟨S1000000, .f32⟩
  | 121 => ⟨S1000000, .f32⟩
  | 122 => ⟨S1000000, .f32⟩
  | 123 => ⟨S1000000, .f32⟩
  | 124 => ⟨S1000000, .f32⟩
  | 125 => ⟨S1000000, .f32⟩
  | 126 => ⟨S1000000, .f32⟩
  | 127 => ⟨S1000000, .f32⟩
  | _ => ⟨S100000x128, .f32⟩

abbrev hbmTy0_1 (i : Nat) : BufTy := match i % 128 with
  | 0 => ⟨S1000000, .f32⟩
  | 1 => ⟨S2000000, .f32⟩
  | 2 => ⟨S_, .f32⟩
  | 3 => ⟨S_, .f32⟩
  | 4 => ⟨S_, .f32⟩
  | 5 => ⟨S_, .f32⟩
  | 6 => ⟨S100000x64, .f32⟩
  | 7 => ⟨S100000x64, .f32⟩
  | 8 => ⟨S100000x64, .f32⟩
  | 9 => ⟨S_, .f32⟩
  | 10 => ⟨S100000x64, .f32⟩
  | 11 => ⟨S100000x64, .f32⟩
  | 12 => ⟨S100000x64, .f32⟩
  | 13 => ⟨S_, .f32⟩
  | 14 => ⟨S100000, .f32⟩
  | 15 => ⟨S_, .f32⟩
  | 16 => ⟨S100000, .f32⟩
  | 17 => ⟨S100000, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_1 : Ref sig .tc := ⟨.hbm, 39, rfl⟩
abbrev main_v24 : Ref sig .tc := ⟨.hbm, 40, rfl⟩
abbrev main_v25 : Ref sig .tc := ⟨.hbm, 41, rfl⟩
abbrev main_c_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call0_cst : Ref sig .tc := ⟨.hbm, 53, rfl⟩
abbrev main_call0_v0 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call1_v0 : Ref sig .tc := ⟨.hbm, 61, rfl⟩
abbrev main_call1_call0_cst : Ref sig .tc := ⟨.hbm, 62, rfl⟩
abbrev main_call1_call0_v0 : Ref sig .tc := ⟨.hbm, 63, rfl⟩
abbrev main_call1_call0_v1 : Ref sig .tc := ⟨.hbm, 64, rfl⟩
abbrev main_call1_call0_v2 : Ref sig .tc := ⟨.hbm, 65, rfl⟩
abbrev main_call1_call0_v3 : Ref sig .tc := ⟨.hbm, 66, rfl⟩
abbrev main_call1_call0_v4 : Ref sig .tc := ⟨.hbm, 67, rfl⟩
abbrev main_call1_call0_v5 : Ref sig .tc := ⟨.hbm, 68, rfl⟩
abbrev main_call1_call0_v6 : Ref sig .tc := ⟨.hbm, 69, rfl⟩
abbrev main_call1_call0_v7 : Ref sig .tc := ⟨.hbm, 70, rfl⟩
abbrev main_call1_call0_v8 : Ref sig .tc := ⟨.hbm, 71, rfl⟩
abbrev main_call1_call0_v9 : Ref sig .tc := ⟨.hbm, 72, rfl⟩
abbrev main_call1_call0_v10 : Ref sig .tc := ⟨.hbm, 73, rfl⟩
abbrev main_call1_call0_v11 : Ref sig .tc := ⟨.hbm, 74, rfl⟩
abbrev main_call1_v1 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_c_3 : Ref sig .tc := ⟨.hbm, 79, rfl⟩
abbrev main_v45 : Ref sig .tc := ⟨.hbm, 80, rfl⟩
abbrev main_v46 : Ref sig .tc := ⟨.hbm, 81, rfl⟩
abbrev main_c_4 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_c_5 : Ref sig .tc := ⟨.hbm, 90, rfl⟩
abbrev main_v54 : Ref sig .tc := ⟨.hbm, 91, rfl⟩
abbrev main_v55 : Ref sig .tc := ⟨.hbm, 92, rfl⟩
abbrev main_c_6 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_call2_cst : Ref sig .tc := ⟨.hbm, 104, rfl⟩
abbrev main_call2_v0 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_call3_v0 : Ref sig .tc := ⟨.hbm, 113, rfl⟩
abbrev main_call3_call0_cst : Ref sig .tc := ⟨.hbm, 114, rfl⟩
abbrev main_call3_call0_v0 : Ref sig .tc := ⟨.hbm, 115, rfl⟩
abbrev main_call3_call0_v1 : Ref sig .tc := ⟨.hbm, 116, rfl⟩
abbrev main_call3_call0_v2 : Ref sig .tc := ⟨.hbm, 117, rfl⟩
abbrev main_call3_call0_v3 : Ref sig .tc := ⟨.hbm, 118, rfl⟩
abbrev main_call3_call0_v4 : Ref sig .tc := ⟨.hbm, 119, rfl⟩
abbrev main_call3_call0_v5 : Ref sig .tc := ⟨.hbm, 120, rfl⟩
abbrev main_call3_call0_v6 : Ref sig .tc := ⟨.hbm, 121, rfl⟩
abbrev main_call3_call0_v7 : Ref sig .tc := ⟨.hbm, 122, rfl⟩
abbrev main_call3_call0_v8 : Ref sig .tc := ⟨.hbm, 123, rfl⟩
abbrev main_call3_call0_v9 : Ref sig .tc := ⟨.hbm, 124, rfl⟩
abbrev main_call3_call0_v10 : Ref sig .tc := ⟨.hbm, 125, rfl⟩
abbrev main_call3_call0_v11 : Ref sig .tc := ⟨.hbm, 126, rfl⟩
abbrev main_call3_v1 : Ref sig .tc := ⟨.hbm, 127, rfl⟩
abbrev main_v73 : Ref sig .tc := ⟨.hbm, 128, rfl⟩
abbrev main_v74 : Ref sig .tc := ⟨.hbm, 129, rfl⟩
abbrev main_cst_7 : Ref sig .tc := ⟨.hbm, 130, rfl⟩
abbrev main_v75 : Ref sig .tc := ⟨.hbm, 131, rfl⟩
abbrev main_cst_8 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_cst_9 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_cst_10 : Ref sig .tc := ⟨.hbm, 141, rfl⟩
abbrev main_v83 : Ref sig .tc := ⟨.hbm, 142, rfl⟩
abbrev main_cst_11 : Ref sig .tc := ⟨.hbm, 143, rfl⟩
abbrev main_v84 : Ref sig .tc := ⟨.hbm, 144, rfl⟩
abbrev main_v85 : Ref sig .tc := ⟨.hbm, 145, rfl⟩
abbrev main_cst_12 : Ref sig .tc := ⟨.hbm, 146, rfl⟩
abbrev main_v86 : Ref sig .tc := ⟨.hbm, 147, rfl⟩
abbrev main_cst_13 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1000000 : S1000000x1.ShapeCasts S1000000
  concatenates_S1000000_S1000000_S2000000_d0 : Shape.Concatenates [S1000000, S1000000] S2000000 0
  reducesTo_S2000000_S_d0 : S2000000.ReducesTo [0] S_
  h_S_ : 0 < S_.numel
  reducesTo_S100000x64_S100000_d1 : S100000x64.ReducesTo [1] S100000
  bcast_S_S100000 : S_.BroadcastsInDim S100000 (![] : Fin 0 → Fin S100000.rank)
  reducesTo_S100000_S_d0 : S100000.ReducesTo [0] S_
  dot_S100000x128_S128x64_S100000x64_1_0_0_1_n_n_wf : DotDims.WF S100000x128 S128x64 S100000x64 [1] [0] [0] [1] [] []
  gather_S100000x64_S1000000x1_S1000000x64_1_0_n_n_0_1_164_wf : GatherDims.WF S100000x64 S1000000x1 S1000000x64 [1] [0] [] [0] [] 1 ![1, 64]
  dot_S1000000x64_S64x128_S1000000x128_1_0_0_1_n_n_wf : DotDims.WF S1000000x64 S64x128 S1000000x128 [1] [0] [0] [1] [] []
  dot_S1000000x128_S128x1_S1000000x1_1_0_0_1_n_n_wf : DotDims.WF S1000000x128 S128x1 S1000000x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x64_S64x128_S1000000x128_1_0_0_1_n_n : DotDims S1000000x64 S64x128 S1000000x128 where
  lhsContracting := [1]
  rhsContracting := [0]
  lhsNonContracting := [0]
  rhsNonContracting := [1]
  lhsBatch := []
  rhsBatch := []
  wf := dot_S1000000x64_S64x128_S1000000x128_1_0_0_1_n_n_wf
def dot_S1000000x128_S128x1_S1000000x1_1_0_0_1_n_n : DotDims S1000000x128 S128x1 S1000000x1 where
  lhsContracting := [1]
  rhsContracting := [0]
  lhsNonContracting := [0]
  rhsNonContracting := [1]
  lhsBatch := []
  rhsBatch := []
  wf := dot_S1000000x128_S128x1_S1000000x1_1_0_0_1_n_n_wf

class Facts : Prop extends Facts₀ where

variable [Facts]
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.LibAffineRows.lean ====
/-
  An affine map of the rows of a matrix, as a vector program spells it, read at an entry on the extended reals,
  for any extents: the operands cast to a narrower float format (the identity on the extended reals), their
  product taken into a zero accumulator, and a bias vector [n] laid out as one row [1, n] and repeated down the
  [m, n] result. Entry (p, q) is the k-term sum of products plus the bias's entry q.
-/
import Idealize.ShloMosaic.Lib.ValueLayout
import Idealize.ShloMosaic.Lib.Pipeline.Value
import proofs.«123637_j43757126812205_1_alg».proof.Proof.LibMatmulPlain

noncomputable section

namespace Cert.LibAffineRows

open Idealize.ShloMosaic Idealize.ShloMosaic.ValueIdx Cert.LibMatmulPlain

variable {m k n : Nat}

/-- A bias vector laid out as a row and repeated down `m` rows reads, at (p, q), its entry q. -/
theorem biasRows_apply (b : FVec Ideal ⟨1, ![n]⟩ .f32) (hc : (⟨1, ![n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ b hc) hb (ix2 p q) = b (ix1 q) :=
  (broadcastTo_1b_ab_apply (shapeCast ⟨2, ![1, n]⟩ b hc) hb p q).trans (shapeCast_a_1a_apply b hc 0 q)

/-- Entry (p, q) of `u · w + bias`, the operands cast to a narrower format first: the k-term sum of products plus
    the bias's entry q. -/
theorem affine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    addf (matmul (plainDims m k n wf) none (truncf ψ u hψ) (truncf ψ w hψ) (constant ⟨2, ![m, n]⟩ .f32 0x00000000#32))
        (broadcastTo ⟨2, ![m, n]⟩ (shapeCast ⟨2, ![1, n]⟩ b hc) hb) (ix2 p q)
      = (∑ j : Fin k, u (ix2 p j) * w (ix2 j q)) + b (ix1 q) := by
  show FloatOps.matmul (plainDims m k n wf) none (truncf ψ u hψ) (truncf ψ w hψ) (constant ⟨2, ![m, n]⟩ .f32 0x00000000#32) (ix2 p q)
      + broadcastTo ⟨2, ![m, n]⟩ (shapeCast ⟨2, ![1, n]⟩ b hc) hb (ix2 p q) = _
  rw [matmul_zero_apply wf none (truncf ψ u hψ) (truncf ψ w hψ) p q, biasRows_apply b hc hb p q]
  rfl

/-- The same followed by a rectifier — the maximum with the all-zero f32 word repeated over the result: entry (p, q) is
    the maximum of the affine entry and that word's value. -/
theorem rectAffine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    maximumf (addf (matmul (plainDims m k n wf) none (truncf ψ u hψ) (truncf ψ w hψ) (constant ⟨2, ![m, n]⟩ .f32 0x00000000#32))
          (broadcastTo ⟨2, ![m, n]⟩ (shapeCast ⟨2, ![1, n]⟩ b hc) hb))
        (broadcast ⟨2, ![m, n]⟩ (Scalar.ofBits (F := Ideal) .f32 0x00000000#32)) (ix2 p q)
      = max ((∑ j : Fin k, u (ix2 p j) * w (ix2 j q)) + b (ix1 q)) (Ideal.ofBits .f32 0x00000000#32) :=
  congrArg (max · (Ideal.ofBits .f32 0x00000000#32)) (affine_apply wf u w b hψ hc hb p q)

end Cert.LibAffineRows

end
-- ==== Proof.LibDenseLayers.lean ====
/-
  The vocabulary of a stack of dense layers on the extended reals, for any extents, and the spellings that denote it.

  For a matrix a [m, k], a weight w [k, n] and a bias b [n]:  mm a w  has entry (p, q) the k-term sum of a(p, j) * w(j, q);
  bias m b  repeats b down m rows;  rect a  is, entry by entry, the maximum with the value of the all-zero f32 word.
  A product taken on the matrix unit into a zero accumulator (its weight first cast to a narrower float format, the
  identity on the extended reals) and a general product on the host are both mm; a bias vector laid out as one row and
  repeated down the rows, either way it is spelt, is bias; the maximum with a zero repeated over the shape is rect.

  The one law of arithmetic used: a sum over k1 + k2 + k3 terms is the sum of its first k1, next k2 and last k3 terms
  (addition on the extended reals is commutative and associative; nothing here needs a finite entry). So the product of
  three matrices joined side by side with a weight is the sum of the three products with the weight's matching row slabs.
-/
import Idealize.ShloMosaic.Lib.ValueLayout
import Idealize.ShloMosaic.Lib.Pipeline.Value
import Idealize.ShloMosaic.PureOps.Ideal.Laws
import proofs.«123637_j43757126812205_1_alg».proof.Proof.LibMatmulPlain
import proofs.«123637_j43757126812205_1_alg».proof.Proof.LibAffineRows

noncomputable section

namespace Cert.Layers

open Idealize.ShloMosaic Idealize.ShloMosaic.ValueIdx Cert.LibMatmulPlain Cert.LibAffineRows

variable {m k n : Nat}

/-- An [m, n] matrix of extended reals. -/
abbrev Mat (m n : Nat) : Type := (⟨2, ![m, n]⟩ : Shape).Idx → EReal
/-- An [n] vector of extended reals. -/
abbrev Row (n : Nat) : Type := (⟨1, ![n]⟩ : Shape).Idx → EReal

/-- Rows of a against columns of w. -/
def mm (a : Mat m k) (w : Mat k n) : Mat m n := fun i => ∑ j : Fin k, a (ix2 (i 0) j) * w (ix2 j (i 1))

/-- The vector b repeated down m rows. -/
def bias (m : Nat) (b : Row n) : Mat m n := fun i => b (ix1 (i 1))

/-- Entry by entry the maximum with the value of the all-zero f32 word. -/
def rect {s : Shape} (a : s.Idx → EReal) : s.Idx → EReal := fun i => max (a i) (Ideal.ofBits .f32 0x00000000#32)

/-- One dense layer: a · w + b. -/
def dense (a : Mat m k) (w : Mat k n) (b : Row n) : Mat m n := fun i => mm a w i + bias m b i

theorem mm_apply (a : Mat m k) (w : Mat k n) (p : Fin m) (q : Fin n) :
    mm a w (ix2 p q) = ∑ j : Fin k, a (ix2 p j) * w (ix2 j q) := rfl

/-! ## The matrix unit's spellings -/

/-- A product on the matrix unit into a zero accumulator, the weight cast to a narrower format first. -/
theorem tileMm_eq {φ₁ ψ : FTy} (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ φ₁) (w : FVec Ideal ⟨2, ![k, n]⟩ .f32) (hψ : ψ.bits < FTy.f32.bits) :
    matmul d none a (truncf ψ w hψ) (constant ⟨2, ![m, n]⟩ .f32 0x00000000#32) = mm a w := by
  subst hd
  funext i
  obtain ⟨p, q, rfl⟩ : ∃ (p : Fin m) (q : Fin n), i = ix2 p q := ⟨i 0, i 1, eq_ix2 i⟩
  exact matmul_zero_apply wf none a (truncf ψ w hψ) p q

/-- A bias vector laid out as one row and repeated down the rows. -/
theorem tileBias_eq (b : FVec Ideal ⟨1, ![n]⟩ .f32) (hc : (⟨1, ![n]⟩ : Shape).ShapeCasts ⟨2, ![1, n]⟩)
    (hb : (⟨2, ![1, n]⟩ : Shape).Broadcasts ⟨2, ![m, n]⟩) :
    broadcastTo ⟨2, ![m, n]⟩ (shapeCast ⟨2, ![1, n]⟩ b hc) hb = bias m b := by
  funext i
  obtain ⟨p, q, rfl⟩ : ∃ (p : Fin m) (q : Fin n), i = ix2 p q := ⟨i 0, i 1, eq_ix2 i⟩
  exact biasRows_apply b hc hb p q

/-- The maximum with the zero word repeated over the shape. -/
theorem tileRect_eq {s : Shape} (a : FVec Ideal s .f32) :
    maximumf a (broadcast s (Scalar.ofBits (F := Ideal) .f32 0x00000000#32)) = rect a := rfl

/-! ## The host's spellings -/

/-- A general product contracting the left matrix's columns with the right one's rows. -/
theorem hostMm_eq (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ .f32) (w : FVec Ideal ⟨2, ![k, n]⟩ .f32) :
    Host.dotGeneral d none a w = mm a w := by
  subst hd
  funext i
  obtain ⟨p, q, rfl⟩ : ∃ (p : Fin m) (q : Fin n), i = ix2 p q := ⟨i 0, i 1, eq_ix2 i⟩
  rw [mm_apply]
  simp only [Host.dotGeneral]
  rw [Ideal.dotGeneral_apply, ← Equiv.sum_comp (contrEquiv1 (plainDims m k n wf) k rfl rfl).symm]
  refine Finset.sum_congr rfl fun j _ => ?_
  rw [lhsIdx_eq wf p q j, rhsIdx_eq wf p q j]

/-- A bias vector broadcast first to one row and then down the rows. -/
theorem hostBias_eq (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) :
    broadcastInDim ⟨2, ![m, n]⟩ ![0, 1] h2 (broadcastInDim ⟨2, ![1, n]⟩ ![1] h1 b) = bias m b := by
  funext i
  obtain ⟨p, q, rfl⟩ : ∃ (p : Fin m) (q : Fin n), i = ix2 p q := ⟨i 0, i 1, eq_ix2 i⟩
  refine (broadcastInDim_apply _ h2 _ (ix2 p q) (ix2 (0 : Fin 1) q) fun ax => ?_).trans
    (broadcastInDim_apply _ h1 b (ix2 (0 : Fin 1) q) (ix1 q) fun ax => ?_)
  · match ax with
    | ⟨0, _⟩ => show (0 : Nat) = if (1 : Nat) = 1 then 0 else p.val; rw [if_pos rfl]
    | ⟨1, _⟩ => show q.val = if n = 1 then 0 else q.val; split_ifs with h <;> omega
  · match ax with
    | ⟨0, _⟩ => show q.val = if n = 1 then 0 else q.val; split_ifs with h <;> omega

/-- The maximum with the zero word as a scalar constant broadcast over the shape. -/
theorem hostRect_eq {s : Shape} (a : FVec Ideal s .f32) (h : (⟨0, ![]⟩ : Shape).BroadcastsInDim s ![]) :
    maximumf a (broadcastInDim s ![] h (constant (F := Ideal) ⟨0, ![]⟩ .f32 0x00000000#32)) = rect a := by
  funext i
  show max (a i) (broadcastInDim s ![] h (constant (F := Ideal) ⟨0, ![]⟩ .f32 0x00000000#32) i) = _
  rw [broadcastInDim_apply _ h _ i ix0 fun ax => ax.elim0]
  rfl

/-! ## Splitting a sum -/

/-- A sum over k1 + k2 + k3 terms is the sum of its first k1, next k2 and last k3 terms. -/
theorem sum_three {M : Type} [AddCommMonoid M] (k1 k2 k3 : Nat) (f : Fin (k1 + k2 + k3) → M) :
    ∑ j, f j = (∑ j : Fin k1, f ⟨j.val, by omega⟩ + ∑ j : Fin k2, f ⟨k1 + j.val, by omega⟩)
      + ∑ j : Fin k3, f ⟨k1 + k2 + j.val, by omega⟩ := by
  rw [Fin.sum_univ_add, Fin.sum_univ_add]
  rfl

/-- A sum over k1 + k2 terms is the sum of its first k1 and last k2 terms. -/
theorem sum_two {M : Type} [AddCommMonoid M] (k1 k2 : Nat) (f : Fin (k1 + k2) → M) :
    ∑ j, f j = ∑ j : Fin k1, f ⟨j.val, by omega⟩ + ∑ j : Fin k2, f ⟨k1 + j.val, by omega⟩ := by
  rw [Fin.sum_univ_add]
  rfl

end Cert.Layers

end
-- ==== Proof.LibGatherRows.lean ====
/-
  A row gather read at an index.

  `x[idx]` for a matrix `x : [N, C]` and indices `idx : [E]` (as `[E, 1]`): row `e` of the result is the row of `x`
  at the index `idx e`, read as a signed integer and clamped into `[0, N − 1]`; columns go to columns.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- The dimension numbers of a row gather. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an index word selects: read signed, clamped into `[0, N − 1]`. -/
def clampRow (N : Nat) (hN : 0 < N) {w : Nat} (v : BitVec w) : Fin N := ⟨min v.toInt.toNat (N - 1), by omega⟩

/-- THE GATHER READ AT `(e, q)`: entry `q` of the row of `x` that index `e` selects. -/
theorem rows_gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowsDims N E C wf) x idx (ix2 e q) = x (ix2 (clampRow N hN (idx (ix2 e 0))) q) := by
  unfold Host.gather
  congr 1
  funext a
  refine Fin.ext ?_
  match a with
  | ⟨0, _⟩ =>
    show (rowsDims N E C wf).start (ix2 e q) idx 0 + (rowsDims N E C wf).batchCoord (ix2 e q) 0
      + (rowsDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e q) ⟨List.idxOf (0 : Fin 2) (rowsDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N E C wf).start (ix2 e q) idx 1 + (rowsDims N E C wf).batchCoord (ix2 e q) 1
      + (rowsDims N E C wf).offCoord (ix2 e q) 1 = q.val
    rw [GatherDims.batchCoord_eq_zero _ _ _ List.not_mem_nil]
    have hs : (rowsDims N E C wf).start (ix2 e q) idx 1 = 0 := by
      unfold GatherDims.start
      rw [dif_neg (fun h => by simp at h)]
    have ho : (rowsDims N E C wf).offCoord (ix2 e q) 1 = q.val := by
      unfold GatherDims.offCoord
      rw [dif_pos ((GatherDims.mem_sKept _ _).mpr ⟨by simp, List.not_mem_nil⟩)]
      rfl
    rw [hs, ho]
    omega

end Idealize.ShloMosaic.GatherRows

end
-- ==== Proof.Spec.lean ====
/-
  The function both programs compute, on the extended reals.

  A graph variational auto-encoder's loss. Each of 100000 nodes has a feature row x_p (128 entries) and a noise row
  eps_p (64 entries). Two dense layers give a mean and a log-variance, mu_p = x_p · W_mu + b_mu and
  lv_p = x_p · W_lv + b_lv; the sampled latent row is z_p = mu_p + eps_p ∘ exp(½ · lv_p), and the node's divergence
  from the standard normal is ½ · Σ_d (mu² + exp(lv) − 1 − lv). A pair of nodes (u, v) is scored by a two-layer
  perceptron on the entrywise product of their latent rows, logit = max((z_u ∘ z_v) · W1 + b1, 0) · W2 + b2. The first
  million pairs are edges and contribute log σ(logit); the second million are non-edges and contribute log σ(−logit),
  where log σ(l) = −softplus(−l) and softplus(y) = max(y, 0) + log(1 + exp(−|y − 0|)). The loss is
  −(mean over the two million pairs − mean over the nodes of the divergence).

  A node is named by a 32-bit word: read signed, a negative word has the table's extent added first, and the result
  is clamped into the table. Everything here is stated for a matrix of n rows so that one definition serves a
  whole array and one block of its rows; a row of the result depends on that row of the operands only.
-/
import Idealize.ShloMosaic.PureOps.Ideal
import Idealize.ShloMosaic.Lib.ValueIdx
import proofs.«123637_j43757126812205_1_alg».proof.Proof.LibDenseLayers
import proofs.«123637_j43757126812205_1_alg».proof.Proof.LibGatherRows

noncomputable section

namespace Cert.Vae

open Idealize.ShloMosaic Idealize.ShloMosaic.ValueIdx Cert.Layers Idealize.ShloMosaic.GatherRows

/-- The values of the five f32 words the programs spell: ½, 1, 0, the node count and the pair count. -/
abbrev half : EReal := Ideal.ofBits .f32 0x3F000000#32
abbrev oneW : EReal := Ideal.ofBits .f32 0x3F800000#32
abbrev zeroW : EReal := Ideal.ofBits .f32 0x00000000#32
abbrev nodesW : EReal := Ideal.ofBits .f32 0x47C35000#32
abbrev pairsW : EReal := Ideal.ofBits .f32 0x49F42400#32

variable {n : Nat}

/-! ## The encoder -/

/-- The sampled latent rows: mean + noise ∘ exp(½ · log-variance). -/
def latent (x : Mat n 128) (eps : Mat n 64) (wmu : Mat 128 64) (bmu : Row 64) (wlv : Mat 128 64) (blv : Row 64) :
    Mat n 64 :=
  fun i => dense x wmu bmu i + eps i * Ideal.exp (half * dense x wlv blv i)

/-- One entry's term of a node's divergence: mu² + exp(lv) − 1 − lv. -/
def klEntry (x : Mat n 128) (wmu : Mat 128 64) (bmu : Row 64) (wlv : Mat 128 64) (blv : Row 64) : Mat n 64 :=
  fun i => ((dense x wmu bmu i * dense x wmu bmu i + Ideal.exp (dense x wlv blv i)) - oneW) - dense x wlv blv i

/-- A node's divergence: half the sum of its 64 terms. -/
def klNode (x : Mat n 128) (wmu : Mat 128 64) (bmu : Row 64) (wlv : Mat 128 64) (blv : Row 64) (p : Fin n) : EReal :=
  half * ∑ d : Fin 64, klEntry x wmu bmu wlv blv (ix2 p d)

/-! ## The decoder -/

/-- softplus with its branch on a not-a-number argument gone (the extended reals have none). -/
def softplus (y : EReal) : EReal :=
  max y zeroW + Ideal.log1p (Ideal.exp (-(max (y - zeroW) (-(y - zeroW)))))

/-- log σ(l) = −softplus(−l). -/
def logSigmoid (l : EReal) : EReal := -(softplus (-l))

/-- The perceptron's score of each row pair: max((zu ∘ zv) · W1 + b1, 0) · W2 + b2. -/
def pairLogit (zu zv : Mat n 64) (w1 : Mat 64 128) (b1 : Row 128) (w2 : Mat 128 1) (b2 : Row 1) : Mat n 1 :=
  dense (rect (dense (fun i => zu i * zv i) w1 b1)) w2 b2

/-! ## Naming a node by a word -/

/-- A negative word has the table's extent added (numpy's indexing from the end). -/
def wrapWord (v : BitVec 32) : BitVec 32 :=
  Scalar.select (IntOp.cmpi .slt v 0#32) (IntOp.addi v 100000#32) v

/-- The node a word names: wrapped, then clamped into the table. -/
def nodeOf (v : BitVec 32) : Fin 100000 := clampRow 100000 (by decide) (wrapWord v)

/-- The rows of a table of 100000 nodes that E words name. -/
def rowsAt {E : Nat} (z : Mat 100000 64) (idx : Fin E → BitVec 32) : Mat E 64 :=
  fun i => z (ix2 (nodeOf (idx (i 0))) (i 1))

/-! ## The loss -/

/-- Pair e's log-probability: an edge's log σ(logit) for the first million, a non-edge's log σ(−logit) after. -/
def pairLp (z : Mat 100000 64) (w1 : Mat 64 128) (b1 : Row 128) (w2 : Mat 128 1) (b2 : Row 1)
    (e0 e1 n0 n1 : Fin 1000000 → BitVec 32) (e : Fin 2000000) : EReal :=
  if h : e.val < 1000000 then
    logSigmoid (pairLogit (rowsAt z e0) (rowsAt z e1) w1 b1 w2 b2 (ix2 (⟨e.val, h⟩ : Fin 1000000) (0 : Fin 1)))
  else
    logSigmoid (-(pairLogit (rowsAt z n0) (rowsAt z n1) w1 b1 w2 b2
      (ix2 (⟨e.val - 1000000, by omega⟩ : Fin 1000000) (0 : Fin 1))))

/-- The loss: −(mean pair log-probability − mean node divergence). -/
def loss (x : Mat 100000 128) (eps : Mat 100000 64) (wmu : Mat 128 64) (bmu : Row 64) (wlv : Mat 128 64) (blv : Row 64)
    (w1 : Mat 64 128) (b1 : Row 128) (w2 : Mat 128 1) (b2 : Row 1) (e0 e1 n0 n1 : Fin 1000000 → BitVec 32) : EReal :=
  -(Ideal.div (∑ e : Fin 2000000, pairLp (latent x eps wmu bmu wlv blv) w1 b1 w2 b2 e0 e1 n0 n1 e) pairsW
      - Ideal.div (∑ p : Fin 100000, klNode x wmu bmu wlv blv p) nodesW)

/-! ## A row of the result depends on that row of the operands -/

/-- A dense layer's row p is determined by the operand's row p. -/
theorem dense_row {n' k m : Nat} (a : Mat n k) (a' : Mat n' k) (w : Mat k m) (b : Row m) (p : Fin n) (p' : Fin n')
    (h : ∀ j : Fin k, a (ix2 p j) = a' (ix2 p' j)) (q : Fin m) :
    dense a w b (ix2 p q) = dense a' w b (ix2 p' q) := by
  show (∑ j : Fin k, a (ix2 p j) * w (ix2 j q)) + b (ix1 q) = (∑ j : Fin k, a' (ix2 p' j) * w (ix2 j q)) + b (ix1 q)
  exact congrArg (· + b (ix1 q)) (Finset.sum_congr rfl fun j _ => by rw [h j])

/-- A latent row is determined by that row of the features and of the noise. -/
theorem latent_row {n' : Nat} (x : Mat n 128) (x' : Mat n' 128) (eps : Mat n 64) (eps' : Mat n' 64)
    (wmu : Mat 128 64) (bmu : Row 64) (wlv : Mat 128 64) (blv : Row 64) (p : Fin n) (p' : Fin n')
    (hx : ∀ j : Fin 128, x (ix2 p j) = x' (ix2 p' j)) (d : Fin 64) (he : eps (ix2 p d) = eps' (ix2 p' d)) :
    latent x eps wmu bmu wlv blv (ix2 p d) = latent x' eps' wmu bmu wlv blv (ix2 p' d) := by
  unfold latent
  rw [dense_row x x' wmu bmu p p' hx d, dense_row x x' wlv blv p p' hx d, he]

/-- A node's divergence is determined by its feature row. -/
theorem klNode_row {n' : Nat} (x : Mat n 128) (x' : Mat n' 128) (wmu : Mat 128 64) (bmu : Row 64) (wlv : Mat 128 64)
    (blv : Row 64) (p : Fin n) (p' : Fin n') (hx : ∀ j : Fin 128, x (ix2 p j) = x' (ix2 p' j)) :
    klNode x wmu bmu wlv blv p = klNode x' wmu bmu wlv blv p' := by
  unfold klNode klEntry
  refine congrArg (half * ·) (Finset.sum_congr rfl fun d _ => ?_)
  rw [dense_row x x' wmu bmu p p' hx d, dense_row x x' wlv blv p p' hx d]

/-- A pair's score is determined by its two latent rows. -/
theorem pairLogit_row {n' : Nat} (zu zv : Mat n 64) (zu' zv' : Mat n' 64) (w1 : Mat 64 128) (b1 : Row 128)
    (w2 : Mat 128 1) (b2 : Row 1) (p : Fin n) (p' : Fin n')
    (hu : ∀ d : Fin 64, zu (ix2 p d) = zu' (ix2 p' d)) (hv : ∀ d : Fin 64, zv (ix2 p d) = zv' (ix2 p' d)) :
    pairLogit zu zv w1 b1 w2 b2 (ix2 p (0 : Fin 1)) = pairLogit zu' zv' w1 b1 w2 b2 (ix2 p' (0 : Fin 1)) := by
  unfold pairLogit
  refine dense_row _ _ w2 b2 p p' (fun j => ?_) (0 : Fin 1)
  show max (dense (fun i => zu i * zv i) w1 b1 (ix2 p j)) _ = max (dense (fun i => zu' i * zv' i) w1 b1 (ix2 p' j)) _
  rw [dense_row (fun i => zu i * zv i) (fun i => zu' i * zv' i) w1 b1 p p' (fun d => by
    show zu (ix2 p d) * zv (ix2 p d) = zu' (ix2 p' d) * zv' (ix2 p' d)
    rw [hu d, hv d]) j]

end Cert.Vae

end
-- ==== Proof.KernelFolds.lean ====
/-
  The host operations of the kernel program, read at the buffers that matter.

  Between the two kernel regions the host: takes the mean of the per-node divergences the encoder region wrote; cuts
  the two rows out of the edges' and the non-edges' [2, 1000000] word arrays and joins each pair of rows end to end
  into 2000000 words; wraps a negative word by the table's extent; gathers the latent rows those words name out of
  the array the encoder region wrote; and lays out the labels' signs, a million +1 then a million −1, as a column.
  After the decoder region it takes the mean of the log-probabilities, subtracts the first mean and negates.
  Each of these is stated here as one named term of the contents the stretch starts from.
-/
import proofs.«123637_j43757126812205_1_alg».proof.Proof.Gen.KernelIdeal.Frame
import Idealize.ShloMosaic.Lib.StableHlo.Run

set_option maxRecDepth 16384

noncomputable section

namespace Cert.KernelIdeal.Folds

open Cert.KernelIdeal Cert.KernelIdeal.Gen
open Idealize.ShloMosaic Idealize.ShloMosaic.TcCoe Idealize.ShloMosaic.StableHlo Idealize.SL.Sem

variable {F : FTy → Type} [FloatOps F]

/-! ## The terms -/

/-- Row 0 of a [2, 1000000] word array as a vector: slice, then flatten. -/
def wordsRow0 (idx : IVec S2x1000000 32) : IVec S1000000 32 :=
  shapeCast S1000000 (extractStridedSlice S1x1000000 ![0, 0] idx slices_S2x1000000_S1x1000000_0_0) shapeCasts_S1x1000000_S1000000

/-- Row 1 likewise. -/
def wordsRow1 (idx : IVec S2x1000000 32) : IVec S1000000 32 :=
  shapeCast S1000000 (extractStridedSlice S1x1000000 ![1, 0] idx slices_S2x1000000_S1x1000000_1_0) shapeCasts_S1x1000000_S1000000

/-- Two vectors of a million words end to end. -/
def joinWords (a b : IVec S1000000 32) : IVec S2000000 32 :=
  concatenate S2000000 0 [⟨S1000000, a⟩, ⟨S1000000, b⟩] concatenates_S1000000_S1000000_S2000000_d0

/-- A negative word has the table's extent added, entry by entry; then the vector is laid out as a column. -/
def wrapCol (u : IVec S2000000 32) : IVec S2000000x1 32 :=
  broadcastInDim S2000000x1 ![0] bcast_S2000000_S2000000x1_0
    (select (cmpi .slt u (broadcastInDim S2000000 ![] bcast_S_S2000000 (constantI S_ 32 0#32)))
      (addi u (broadcastInDim S2000000 ![] bcast_S_S2000000 (constantI S_ 32 100000#32))) u)

/-- The latent rows that 2000000 words name. -/
def gatherRows (z : FVec F S100000x64 .f32) (u : IVec S2000000 32) : FVec F S2000000x64 .f32 :=
  Host.gather gather_S100000x64_S2000000x1_S2000000x64_1_0_n_n_0_1_164 z (wrapCol u)

/-- The labels' signs as a column: a million +1, then a million −1. -/
def signCol : FVec F S2000000x1 .f32 :=
  broadcastInDim S2000000x1 ![0] bcast_S2000000_S2000000x1_0
    (concatenate S2000000 0
      [⟨S1000000, broadcastInDim S1000000 ![] bcast_S_S1000000 (constant (F := F) S_ .f32 0x3F800000#32)⟩,
        ⟨S1000000, Host.negf (broadcastInDim S1000000 ![] bcast_S_S1000000 (constant (F := F) S_ .f32 0x3F800000#32))⟩]
      concatenates_S1000000_S1000000_S2000000_d0)

/-- The mean of the per-node divergences: their sum from zero, over the node count's word. -/
def klMean (kl : FVec F S100000x1 .f32) : FVec F S_ .f32 :=
  Host.divf (Host.reduceAdd kl (constant (F := F) S_ .f32 0x00000000#32) reducesTo_S100000x1_S_d0_1 h_S_)
    (constant (F := F) S_ .f32 0x47C35000#32)

/-- The loss from the log-probabilities' column and the divergences' mean. -/
def lossOf (lp : FVec F S2000000x1 .f32) (klm : FVec F S_ .f32) : FVec F S_ .f32 :=
  Host.negf (subf
    (Host.divf (Host.reduceAdd lp (constant (F := F) S_ .f32 0x00000000#32) reducesTo_S2000000x1_S_d0_1 h_S_)
      (constant (F := F) S_ .f32 0x49F42400#32))
    klm)

/-! ## The stretch between the regions, from any contents W -/

theorem klMean_read (W : Valuation τ sig (Elt F)) :
    StableHlo.after hostOps1 W (Proc.devRef .tc main_v2) = klMean (W (Proc.devRef .tc main_v0_1)) := by
  after_results
  rfl

theorem signs_read (W : Valuation τ sig (Elt F)) :
    StableHlo.after hostOps1 W (Proc.devRef .tc main_v17) = signCol (F := F) := by
  after_results
  rfl

attribute [local irreducible] Host.gather in
set_option maxHeartbeats 4000000 in
theorem rowsU_read (W : Valuation τ sig (Elt F)) :
    StableHlo.after hostOps1 W (Proc.devRef .tc main_v24)
      = gatherRows (W (Proc.devRef .tc main_v0_0))
          (joinWords (wordsRow0 (W (Proc.devRef .tc main_arg10))) (wordsRow0 (W (Proc.devRef .tc main_arg11)))) := by
  after_results
  rfl

attribute [local irreducible] Host.gather in
set_option maxHeartbeats 4000000 in
theorem rowsV_read (W : Valuation τ sig (Elt F)) :
    StableHlo.after hostOps1 W (Proc.devRef .tc main_v31)
      = gatherRows (W (Proc.devRef .tc main_v0_0))
          (joinWords (wordsRow1 (W (Proc.devRef .tc main_arg10))) (wordsRow1 (W (Proc.devRef .tc main_arg11)))) := by
  after_results
  rfl

theorem arg6_read (W : Valuation τ sig (Elt F)) :
    StableHlo.after hostOps1 W (Proc.devRef .tc main_arg6) = W (Proc.devRef .tc main_arg6) := by after_results
theorem arg7_read (W : Valuation τ sig (Elt F)) :
    StableHlo.after hostOps1 W (Proc.devRef .tc main_arg7) = W (Proc.devRef .tc main_arg7) := by after_results
theorem arg8_read (W : Valuation τ sig (Elt F)) :
    StableHlo.after hostOps1 W (Proc.devRef .tc main_arg8) = W (Proc.devRef .tc main_arg8) := by after_results
theorem arg9_read (W : Valuation τ sig (Elt F)) :
    StableHlo.after hostOps1 W (Proc.devRef .tc main_arg9) = W (Proc.devRef .tc main_arg9) := by after_results

/-! ## The last stretch, from any contents W -/

theorem loss_read (W : Valuation τ sig (Elt F)) :
    StableHlo.after hostOps2 W (Proc.devRef .tc main_v36)
      = lossOf (W (Proc.devRef .tc main_v32)) (W (Proc.devRef .tc main_v2)) := by
  after_results
  rfl

end Cert.KernelIdeal.Folds

end
-- ==== Proof.LibBroadcastInDim.lean ====
/-
  A broadcast along named axes (stablehlo.broadcast_in_dim), read at an index, for the three layouts a row statistic
  meets on the host: a scalar repeated over any shape; a vector [a] laid out as a column [a, 1]; a column [a, 1]
  repeated across the b columns of an [a, b] matrix. For any extents and any element type.
-/
import Idealize.ShloMosaic.Lib.Pipeline.Value
import Idealize.ShloMosaic.Lib.ValueIdx

noncomputable section

namespace Cert.Lib.BroadcastInDim

open Idealize.ShloMosaic Idealize.ShloMosaic.ValueIdx

variable {α : Type}

/-- A scalar (a rank-0 array) broadcast to any shape: every element is the scalar. -/
theorem scalar_apply {t : Shape} (dims : Fin 0 → Fin t.rank) (h : (⟨0, ![]⟩ : Shape).BroadcastsInDim t dims)
    (x : (⟨0, ![]⟩ : Shape).Idx → α) (j : t.Idx) :
    broadcastInDim t dims h x j = x ix0 :=
  broadcastInDim_apply dims h x j ix0 (fun a => a.elim0)

/-- A vector laid out as a column, [a] → [a, 1] along axis 0: row p of the column is element p of the vector. -/
theorem vecAsCol_apply {a : Nat} (h : (⟨1, ![a]⟩ : Shape).BroadcastsInDim ⟨2, ![a, 1]⟩ (![0] : Fin 1 → Fin 2))
    (v : (⟨1, ![a]⟩ : Shape).Idx → α) (p : Fin a) :
    broadcastInDim ⟨2, ![a, 1]⟩ ![0] h v (ix2 p (0 : Fin 1)) = v (ix1 p) :=
  broadcastInDim_apply _ h v (ix2 p (0 : Fin 1)) (ix1 p) (fun d => match d with
    | ⟨0, _⟩ => by
        show p.val = if a = 1 then 0 else p.val
        split_ifs with ha
        · subst ha; have := p.isLt; omega
        · rfl)

/-- A column repeated across the columns of a matrix, [a, 1] → [a, b] along axes 0 and 1: entry (p, q) is the
    column's row p. -/
theorem colAcross_apply {a b : Nat}
    (h : (⟨2, ![a, 1]⟩ : Shape).BroadcastsInDim ⟨2, ![a, b]⟩ (![0, 1] : Fin 2 → Fin 2))
    (col : (⟨2, ![a, 1]⟩ : Shape).Idx → α) (p : Fin a) (q : Fin b) :
    broadcastInDim ⟨2, ![a, b]⟩ ![0, 1] h col (ix2 p q) = col (ix2 p (0 : Fin 1)) :=
  broadcastInDim_apply _ h col (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

end Cert.Lib.BroadcastInDim

end
-- ==== Proof.LibColumnTotal.lean ====
/-
  What a mean over a column needs, on the extended reals.

  A host sum over BOTH axes of an [n, 1] column, started from the all-zero word, is the sum of the column's n entries:
  every index reduces to the one scalar index, the zero word is the number zero, and an index of the column is a row
  paired with the one column.
-/
import Idealize.ShloMosaic.PureOps.Ideal.Laws
import Idealize.ShloMosaic.Lib.ValueIdx

open scoped BigOperators

noncomputable section

namespace Cert.Lib.ColumnTotal

open Idealize.ShloMosaic Idealize.ShloMosaic.ValueIdx

/-- The host's sum of an [n, 1] column over both axes, from a zero initial value, is the sum of its n entries, for
    any n. -/
theorem sumColumn_apply {n : Nat} (v : FVec Ideal ⟨2, ![n, 1]⟩ .f32)
    (h' : (⟨2, ![n, 1]⟩ : Shape).ReducesTo [0, 1] ⟨0, ![]⟩) (hu : 0 < (⟨0, ![]⟩ : Shape).numel)
    (j : (⟨0, ![]⟩ : Shape).Idx) :
    Host.reduceAdd v (constant (F := Ideal) ⟨0, ![]⟩ .f32 0x00000000#32) h' hu j = ∑ k : Fin n, v (ix2 k (0 : Fin 1)) := by
  show Ideal.hostReduceAdd h' v (Ideal.ofBits .f32 0x00000000#32) j = _
  rw [Ideal.hostReduceAdd_total h' (fun b => b.elim0), Ideal.ofBits_zero_f32, zero_add, sum_idx2]
  exact Finset.sum_congr rfl fun k _ => Fin.sum_univ_one _

end Cert.Lib.ColumnTotal

end
-- ==== Proof.KernelLoss.lean ====
/-
  The kernel program's result is the loss.

  The last fold at the result buffer is −(mean of the decoder region's output column − mean of the encoder region's
  divergence column). The encoder region's two output arrays are the latent rows and the per-node divergences; the
  decoder region's output at pair e is log σ(logit(e) · sign(e)), where the pair's two latent rows are gathered at
  the e-th of 2000000 words — the edges' million followed by the non-edges' million, each wrapped and clamped into
  the table — and sign(e) is +1 for an edge and −1 for a non-edge. Since x · 1 = x and x · (−1) = −x on the extended
  reals, that is the pair's log-probability; a sum over an [n, 1] column from zero is the sum of its n entries.
-/
import proofs.«123637_j43757126812205_1_alg».proof.Proof.Spec
import proofs.«123637_j43757126812205_1_alg».proof.Proof.KernelFolds
import proofs.«123637_j43757126812205_1_alg».proof.Proof.LibBroadcastInDim
import proofs.«123637_j43757126812205_1_alg».proof.Proof.LibColumnTotal
import Idealize.ShloMosaic.Lib.Pipeline.Value
import Idealize.ShloMosaic.Lib.IdealHost
import Idealize.ShloMosaic.PureOps.Ideal.Laws

set_option maxRecDepth 16384

open scoped BigOperators

noncomputable section

namespace Cert.KernelIdeal.Loss

open Cert.KernelIdeal Cert.KernelIdeal.Gen Cert.KernelIdeal.Folds
open Idealize.ShloMosaic Idealize.ShloMosaic.TcCoe Idealize.ShloMosaic.ValueIdx Idealize.SL.Sem
open Cert.Layers Cert.Vae Idealize.ShloMosaic.GatherRows Cert.Lib.BroadcastInDim Cert.Lib.ColumnTotal
/-! ## The words of the two million pairs -/

theorem wordsRow0_apply (idx : IVec S2x1000000 32) (e : Fin 1000000) :
    wordsRow0 idx (ix1 e) = idx (ix2 (0 : Fin 2) e) := by
  unfold wordsRow0
  refine (shapeCast_apply _ shapeCasts_S1x1000000_S1000000 (ix1 e) (ix2 (0 : Fin 1) e) ?_).trans ?_
  · rw [Shape.rowMajor_val_one, Shape.rowMajor_val_two]
    show (0 : Nat) * 1000000 + e.val = e.val
    omega
  · refine extractStridedSlice_apply _ idx slices_S2x1000000_S1x1000000_0_0 (ix2 (0 : Fin 1) e) (ix2 (0 : Fin 2) e) fun a => ?_
    match a with
    | ⟨0, _⟩ => show (0 : Nat) = 0 + 0; omega
    | ⟨1, _⟩ => show e.val = 0 + e.val; omega

theorem wordsRow1_apply (idx : IVec S2x1000000 32) (e : Fin 1000000) :
    wordsRow1 idx (ix1 e) = idx (ix2 (1 : Fin 2) e) := by
  unfold wordsRow1
  refine (shapeCast_apply _ shapeCasts_S1x1000000_S1000000 (ix1 e) (ix2 (0 : Fin 1) e) ?_).trans ?_
  · rw [Shape.rowMajor_val_one, Shape.rowMajor_val_two]
    show (0 : Nat) * 1000000 + e.val = e.val
    omega
  · refine extractStridedSlice_apply _ idx slices_S2x1000000_S1x1000000_1_0 (ix2 (0 : Fin 1) e) (ix2 (1 : Fin 2) e) fun a => ?_
    match a with
    | ⟨0, _⟩ => show (1 : Nat) = 1 + 0; omega
    | ⟨1, _⟩ => show e.val = 0 + e.val; omega

/-- Entry e of two million-entry vectors end to end: the first's entry e, or the second's entry e − 1000000. -/
theorem joined_apply {α : Type} (a b : S1000000.Idx → α) (P : Fin 2000000 → α)
    (hA : ∀ (e : Fin 2000000) (h : e.val < 1000000), a (ix1 (⟨e.val, h⟩ : Fin 1000000)) = P e)
    (hB : ∀ (e : Fin 2000000) (h : ¬e.val < 1000000),
      b (ix1 (⟨e.val - 1000000, by have := e.isLt; omega⟩ : Fin 1000000)) = P e) (e : Fin 2000000) :
    concatenate S2000000 0 [⟨S1000000, a⟩, ⟨S1000000, b⟩] concatenates_S1000000_S1000000_S2000000_d0 (ix1 e) = P e := by
  by_cases h : e.val < 1000000
  · refine (concatenate_pair_apply_left (0 : Fin 1) a b concatenates_S1000000_S1000000_S2000000_d0 (ix1 e) rfl
      (ix1 (⟨e.val, h⟩ : Fin 1000000)) fun d => ?_).trans (hA e h)
    match d with
    | ⟨0, _⟩ => rfl
  · refine (concatenate_pair_apply_right (0 : Fin 1) a b concatenates_S1000000_S1000000_S2000000_d0 (ix1 e) rfl rfl
      (ix1 (⟨e.val - 1000000, by have := e.isLt; omega⟩ : Fin 1000000)) (fun d hd => ?_) ?_).trans (hB e h)
    · match d with
      | ⟨0, _⟩ => exact absurd (Fin.ext rfl) hd
    · show (e.val - 1000000) + 1000000 = e.val
      omega

/-- The word of pair e when the edges' words e0 are followed by the non-edges' words n0. -/
def pairWord (e0 n0 : Fin 1000000 → BitVec 32) (e : Fin 2000000) : BitVec 32 :=
  if h : e.val < 1000000 then e0 ⟨e.val, h⟩ else n0 ⟨e.val - 1000000, by have := e.isLt; omega⟩

theorem joinWords_apply (a b : IVec S1000000 32) (e : Fin 2000000) :
    joinWords a b (ix1 e) = pairWord (fun k => a (ix1 k)) (fun k => b (ix1 k)) e := by
  unfold joinWords
  refine joined_apply a b _ (fun e h => ?_) (fun e h => ?_) e
  · unfold pairWord; rw [dif_pos h]
  · unfold pairWord; rw [dif_neg h]

theorem wrapCol_apply (u : IVec S2000000 32) (e : Fin 2000000) :
    wrapCol u (ix2 e (0 : Fin 1)) = wrapWord (u (ix1 e)) := by
  unfold wrapCol
  rw [vecAsCol_apply]
  show Scalar.select (IntOp.cmpi .slt (u (ix1 e)) (broadcastInDim S2000000 ![] bcast_S_S2000000 (constantI S_ 32 0#32) (ix1 e)))
    (IntOp.addi (u (ix1 e)) (broadcastInDim S2000000 ![] bcast_S_S2000000 (constantI S_ 32 100000#32) (ix1 e))) (u (ix1 e)) = _
  rw [scalar_apply, scalar_apply]
  rfl

/-- The gathered rows are the table's rows at the nodes the words name. -/
theorem gatherRows_eq (z : FVec Ideal S100000x64 .f32) (u : IVec S2000000 32) :
    gatherRows z u = rowsAt z (fun e => u (ix1 e)) := by
  funext i
  obtain ⟨e, q, rfl⟩ : ∃ (e : Fin 2000000) (q : Fin 64), i = ix2 e q := ⟨i 0, i 1, eq_ix2 i⟩
  unfold gatherRows
  have hg : gather_S100000x64_S2000000x1_S2000000x64_1_0_n_n_0_1_164
      = rowsDims 100000 2000000 64 gather_S100000x64_S2000000x1_S2000000x64_1_0_n_n_0_1_164_wf := rfl
  rw [hg]
  refine (rows_gather_apply (by decide) _ z _ e q).trans ?_
  rw [wrapCol_apply]
  rfl

/-! ## The signs -/

/-- The word 0x3F800000 is the number one. -/
theorem oneW_eq : (oneW : EReal) = 1 := Ideal.ofBits_one_f32

theorem signCol_apply (e : Fin 2000000) :
    signCol (F := Ideal) (ix2 e (0 : Fin 1)) = if e.val < 1000000 then (1 : EReal) else -1 := by
  unfold signCol
  rw [vecAsCol_apply]
  refine joined_apply _ _ (fun e => if e.val < 1000000 then (1 : EReal) else -1) (fun e h => ?_) (fun e h => ?_) e
  · rw [if_pos h, scalar_apply]
    exact oneW_eq
  · rw [if_neg h]
    show -(broadcastInDim S1000000 ![] bcast_S_S1000000 (constant (F := Ideal) S_ .f32 0x3F800000#32) _) = _
    rw [scalar_apply]
    exact congrArg (fun x : EReal => -x) oneW_eq

/-! ## A pair's log-probability -/

/-- The word of pair e among the edges' row r followed by the non-edges' row r. -/
theorem joinedRow0_apply (I10 I11 : IVec S2x1000000 32) (e : Fin 2000000) :
    joinWords (wordsRow0 I10) (wordsRow0 I11) (ix1 e)
      = pairWord (fun k => I10 (ix2 (0 : Fin 2) k)) (fun k => I11 (ix2 (0 : Fin 2) k)) e := by
  rw [joinWords_apply]
  exact congrArg₂ (fun a b => pairWord a b e) (funext fun k => wordsRow0_apply I10 k) (funext fun k => wordsRow0_apply I11 k)

theorem joinedRow1_apply (I10 I11 : IVec S2x1000000 32) (e : Fin 2000000) :
    joinWords (wordsRow1 I10) (wordsRow1 I11) (ix1 e)
      = pairWord (fun k => I10 (ix2 (1 : Fin 2) k)) (fun k => I11 (ix2 (1 : Fin 2) k)) e := by
  rw [joinWords_apply]
  exact congrArg₂ (fun a b => pairWord a b e) (funext fun k => wordsRow1_apply I10 k) (funext fun k => wordsRow1_apply I11 k)

/-- With the two latent rows gathered at the joined words and the sign +1 on the first million pairs, −1 on the
    second, log σ(logit · sign) is the pair's log-probability: x · 1 = x and x · (−1) = −x. -/
theorem pairLp_eq (z : Mat 100000 64) (w1 : Mat 64 128) (b1 : Row 128) (w2 : Mat 128 1) (b2 : Row 1)
    (e0 e1 n0 n1 : Fin 1000000 → BitVec 32) (e : Fin 2000000) :
    logSigmoid (pairLogit (rowsAt z (pairWord e0 n0)) (rowsAt z (pairWord e1 n1)) w1 b1 w2 b2 (ix2 e (0 : Fin 1))
        * (if e.val < 1000000 then (1 : EReal) else -1))
      = pairLp z w1 b1 w2 b2 e0 e1 n0 n1 e := by
  unfold pairLp
  by_cases h : e.val < 1000000
  · rw [if_pos h, dif_pos h, mul_one]
    refine congrArg logSigmoid (pairLogit_row _ _ _ _ w1 b1 w2 b2 e ⟨e.val, h⟩ (fun d => ?_) (fun d => ?_))
    · show z (ix2 (nodeOf (pairWord e0 n0 e)) d) = z (ix2 (nodeOf (e0 ⟨e.val, h⟩)) d)
      unfold pairWord; rw [dif_pos h]
    · show z (ix2 (nodeOf (pairWord e1 n1 e)) d) = z (ix2 (nodeOf (e1 ⟨e.val, h⟩)) d)
      unfold pairWord; rw [dif_pos h]
  · rw [if_neg h, dif_neg h, mul_neg_one]
    refine congrArg (fun x : EReal => logSigmoid (-x))
      (pairLogit_row _ _ _ _ w1 b1 w2 b2 e ⟨e.val - 1000000, by have := e.isLt; omega⟩ (fun d => ?_) (fun d => ?_))
    · show z (ix2 (nodeOf (pairWord e0 n0 e)) d) = z (ix2 (nodeOf (n0 ⟨e.val - 1000000, _⟩)) d)
      unfold pairWord; rw [dif_neg h]
    · show z (ix2 (nodeOf (pairWord e1 n1 e)) d) = z (ix2 (nodeOf (n1 ⟨e.val - 1000000, _⟩)) d)
      unfold pairWord; rw [dif_neg h]

/-! ## The loss from a column and a mean -/

/-- The last stretch's term at its one index: −(sum of the column's entries / pair count − the mean it is given),
    for a column whose entry e is P e and a mean that is K. -/
theorem lossOf_apply (lp : FVec Ideal S2000000x1 .f32) (klm : FVec Ideal S_ .f32) (P : Fin 2000000 → EReal) (K : EReal)
    (hlp : ∀ e : Fin 2000000, lp (ix2 e (0 : Fin 1)) = P e) (hk : ∀ j, klm j = K) (j : S_.Idx) :
    lossOf lp klm j = -(Ideal.div (∑ e : Fin 2000000, P e) pairsW - K) := by
  show -(Ideal.div (Host.reduceAdd lp (constant (F := Ideal) S_ .f32 0x00000000#32) reducesTo_S2000000x1_S_d0_1 h_S_ j)
      pairsW - klm j) = _
  rw [sumColumn_apply, hk j, Finset.sum_congr rfl fun e _ => hlp e]

end Cert.KernelIdeal.Loss

end
-- ==== Proof.LibKeepdims.lean ====
/-
  A row statistic kept as a column, read at an index.

  A reduction over the last axis of an [a, b] array with the reduced axis kept gives an [a] vector reshaped to
  an [a, 1] column. Such a column meets a rank-2 array in two ways: broadcast along the columns of an [a, b]
  array, where element (p, q) reads row p of the column; or turned into a [1, a] row and broadcast along the
  rows of a [b, a] array, where element (p, q) reads row q of the column. The lemmas read each step at an index
  given by its coordinates, for any extents and any element type; the last reads the row sums themselves, on the
  extended reals, as finite sums over the reduced coordinate.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A vector reshaped [a] → [a, 1]: row `p` of the column is element `p` of the vector. -/
theorem castCol_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column broadcast [a, 1] → [a, b] along the columns: element (p, q) is the column's row `p`. -/
theorem bcastCol_apply {a b : Nat} (col : (⟨2, ![a, 1]⟩ : Shape).Idx → α)
    (h : (⟨2, ![a, 1]⟩ : Shape).Broadcasts ⟨2, ![a, b]⟩) (p : Fin a) (q : Fin b) :
    broadcastTo ⟨2, ![a, b]⟩ col h (ix2 p q) = col (ix2 p (0 : Fin 1)) :=
  broadcastTo_apply col h (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

/-- A column turned into a row, [a, 1] → [1, a], and broadcast along the rows to [b, a]: element (p, q) is the
    column's row `q`. -/
theorem bcastColAsRow_apply {a b : Nat} (col : (⟨2, ![a, 1]⟩ : Shape).Idx → α)
    (ht : (⟨2, ![a, 1]⟩ : Shape).Transposes [1, 0] ⟨2, ![1, a]⟩)
    (h : (⟨2, ![1, a]⟩ : Shape).Broadcasts ⟨2, ![b, a]⟩) (p : Fin b) (q : Fin a) :
    broadcastTo ⟨2, ![b, a]⟩ (transpose ⟨2, ![1, a]⟩ [1, 0] col ht) h (ix2 p q) = col (ix2 q (0 : Fin 1)) := by
  refine (broadcastTo_apply _ h (ix2 p q) (ix2 (0 : Fin 1) q) (fun d => match d with
    | ⟨0, _⟩ => by show 0 = if (1 : Nat) = 1 then 0 else p.val; rw [if_pos rfl]
    | ⟨1, _⟩ => by
        show q.val = if a = 1 then 0 else q.val
        split_ifs with ha
        · subst ha; have := q.isLt; omega
        · rfl)).trans ?_
  exact transpose_apply [1, 0] col ht (ix2 (0 : Fin 1) q) (ix2 q (0 : Fin 1)) (fun d => match d with
    | ⟨0, _⟩ => rfl
    | ⟨1, _⟩ => rfl)

/-- The sums of an [a, b] array's rows, on the extended reals, kept as a column: row `p` of the column is the sum
    over the `b` coordinates of row `p`. -/
theorem sumCol_apply {a b : Nat} {φ : FTy} (v : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) :
    shapeCast ⟨2, ![a, 1]⟩ (multiReduction .add [1] ⟨1, ![a]⟩ v acc hr hφ hacc) hc (ix2 p (0 : Fin 1))
      = ∑ k : Fin b, v (ix2 p k) := by
  refine (castCol_apply _ hc p).trans ?_
  refine (Ideal.multiReduction_add_single v acc hr hφ hacc (ix1 p)).trans ?_
  refine Finset.sum_congr rfl fun k _ => ?_
  exact congrArg v (funext fun d => Fin.ext (by match d with | ⟨0, _⟩ => rfl | ⟨1, _⟩ => rfl))

end Cert.Lib.Keepdims

end
-- ==== Proof.Region0.lean ====
/-
  The encoder region's value on the extended reals.

  The encoder runs over 100000 nodes in 20 blocks of 5000 rows. At each block it reads the block's feature rows and
  noise rows and the whole of the two weights and the two biases, and leaves the block's latent rows
  z = mu + eps ∘ exp(½ · lv) and, in a column, each node's divergence ½ · Σ_d (mu² + exp(lv) − 1 − lv), where
  mu = x · W_mu + b_mu and lv = x · W_lv + b_lv.

  The body's two results on block-sized operands are the specification's latent rows and divergences of the block:
  a product into a zero accumulator with both operands cast to a narrower format is the plain product (a cast is the
  identity on the extended reals), a bias laid out as one row and repeated down the rows is the bias of a dense layer,
  and a row sum kept as a column is the finite sum over the row. Block t of a row-blocked array is its rows
  5000·t … 5000·t + 4999, and a whole window is its array. A row of either result depends on that row of the features
  and of the noise only, so what block t writes back is block t of the specification on the whole arrays. Row p lies in
  block p / 5000, so the blocks cover the two output arrays: after the region they hold the specification's latent
  rows and divergences of the six input arrays as the region found them.
-/
import proofs.«123637_j43757126812205_1_alg».proof.Proof.Spec
import proofs.«123637_j43757126812205_1_alg».proof.Proof.Gen.KernelIdeal.Frame
import proofs.«123637_j43757126812205_1_alg».proof.Proof.LibDenseLayers
import proofs.«123637_j43757126812205_1_alg».proof.Proof.LibKeepdims
import Idealize.ShloMosaic.Lib.Pipeline.Value
import Idealize.ShloMosaic.Lib.ValueIdx

noncomputable section

namespace Cert.KernelIdeal.Region0

open Cert.KernelIdeal Cert.KernelIdeal.Gen Idealize.ShloMosaic Idealize.ShloMosaic.TcCoe Idealize.ShloMosaic.ValueIdx Cert.Layers
open Idealize.SL.Sem
open Idealize.ShloMosaic.Pipeline (Dat)

/-! ## The body on block-sized operands -/

theorem hz2 : (![0, 0] : Fin 2 → Nat) = fun _ => 0 := funext fun a => by fin_cases a <;> rfl
theorem hz1 : (![0] : Fin 1 → Nat) = fun _ => 0 := funext fun a => by fin_cases a; rfl

/-- The mean's payload is the dense layer x · W_mu + b_mu. -/
theorem mean_eq (x0 : Vec Ideal S5000x128 .f32) (x2 : Vec Ideal S128x64 .f32) (x3 : Vec Ideal S64 .f32) :
    Gen.k0_pay2 (F := Ideal) x0 x2 x3 = dense (m := 5000) (k := 128) (n := 64) x0 x2 x3 := by
  unfold Gen.k0_pay2 Gen.k0_pay1
  refine (congrArg₂ (addf (F := Ideal))
    (tileMm_eq dot_S5000x128_S128x64_S5000x64_1_0_0_1_n_n dot_S5000x128_S128x64_S5000x64_1_0_0_1_n_n.wf rfl
      (truncf .bf16 x0 bitsLt_bf16_f32) x2 bitsLt_bf16_f32)
    (tileBias_eq (m := 5000) x3 shapeCasts_S64_S1x64 broadcasts_S1x64_S5000x64)).trans ?_
  rfl

/-- The log-variance's payload is the dense layer x · W_lv + b_lv. -/
theorem logvar_eq (x0 : Vec Ideal S5000x128 .f32) (x4 : Vec Ideal S128x64 .f32) (x5 : Vec Ideal S64 .f32) :
    Gen.k0_pay3 (F := Ideal) x0 x4 x5 = dense (m := 5000) (k := 128) (n := 64) x0 x4 x5 := by
  unfold Gen.k0_pay3 Gen.k0_pay1
  refine (congrArg₂ (addf (F := Ideal))
    (tileMm_eq dot_S5000x128_S128x64_S5000x64_1_0_0_1_n_n dot_S5000x128_S128x64_S5000x64_1_0_0_1_n_n.wf rfl
      (truncf .bf16 x0 bitsLt_bf16_f32) x4 bitsLt_bf16_f32)
    (tileBias_eq (m := 5000) x5 shapeCasts_S64_S1x64 broadcasts_S1x64_S5000x64)).trans ?_
  rfl

/-- What the body leaves in the latent block: the latent rows of the block's features and noise. -/
theorem latent_block (x0 : Vec Ideal S5000x128 .f32) (x1 : Vec Ideal S5000x64 .f32) (x2 : Vec Ideal S128x64 .f32)
    (x3 : Vec Ideal S64 .f32) (x4 : Vec Ideal S128x64 .f32) (x5 : Vec Ideal S64 .f32) :
    Gen.out0_6 (F := Ideal) x0 x1 x2 x3 x4 x5 = Cert.Vae.latent (n := 5000) x0 x1 x2 x3 x4 x5 := by
  unfold Gen.out0_6
  rw [View.canon_unit_zero hz2]
  simp only [View.ld_unit_zero (S := S5000x128) hz2, View.ld_unit_zero (S := S128x64) hz2,
    View.ld_unit_zero (S := S64) hz1, View.ld_unit_zero (S := S5000x64) hz2]
  unfold Gen.k0_pay4
  refine (congrArg₂ (fun a b => addf (F := Ideal) a (mulf x1 (exp (mulf (broadcast S5000x64 (Scalar.ofBits (F := Ideal) .f32 0x3F000000#32)) b))))
    (mean_eq x0 x2 x3) (logvar_eq x0 x4 x5)).trans ?_
  rfl

/-- What the body leaves in the divergence block: row r holds the divergence of the block's node r. -/
theorem kl_block (x0 : Vec Ideal S5000x128 .f32) (x1 : Vec Ideal S5000x64 .f32) (x2 : Vec Ideal S128x64 .f32)
    (x3 : Vec Ideal S64 .f32) (x4 : Vec Ideal S128x64 .f32) (x5 : Vec Ideal S64 .f32) (r : Fin 5000) :
    Gen.out0_7 (F := Ideal) x0 x1 x2 x3 x4 x5 (ix2 r (0 : Fin 1)) = Cert.Vae.klNode (n := 5000) x0 x2 x3 x4 x5 r := by
  unfold Gen.out0_7
  rw [View.canon_unit_zero hz2]
  simp only [View.ld_unit_zero (S := S5000x128) hz2, View.ld_unit_zero (S := S128x64) hz2,
    View.ld_unit_zero (S := S64) hz1]
  unfold Gen.k0_pay5
  rw [mean_eq, logvar_eq]
  refine (congrArg (Cert.Vae.half * ·) (Cert.Lib.Keepdims.sumCol_apply _ 0x00000000#32 reduces_S5000x64_S5000 (.inl rfl) rfl
    shapeCasts_S5000_S5000x1 r)).trans ?_
  rfl

/-! ## The windows' blocks as parts of their arrays -/

variable (V : (c : Dev nD) → (b : Ref sig .tc) → Buf (Elt Ideal) ((c : Thread nD τ).loc b))

/-- The block index of every window at every point: the row-blocked windows sit at (t, 0), the whole ones at 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row r of the feature block at point t is row 5000·t + r of the features. -/
theorem feat_block (c : Dev nD) (t : Fin cfg0.N) (r : Fin 5000) (j : Fin 128) (p : Fin 100000)
    (hp : p.val = 5000 * t.val + r.val) :
    (Gen.iblk0 (F := Ideal) V c 0 t : Vec Ideal S5000x128 .f32) (ix2 r j) = (V c main_arg0 : Mat 100000 128) (ix2 p j) := by
  obtain ⟨e0, e1, -⟩ := idx_facts t
  unfold Gen.iblk0
  rw [View.read_apply]
  show V c main_arg0 _ = V c main_arg0 _
  congr 1
  funext a
  apply Fin.ext
  match a with
  | ⟨0, _⟩ => show win0_0.index t (0 : Fin 2) * 5000 + 1 * r.val = p.val; rw [e0, hp]; omega
  | ⟨1, _⟩ => show win0_0.index t (1 : Fin 2) * 128 + 1 * j.val = j.val; rw [e1]; omega

/-- Row r of the noise block at point t is row 5000·t + r of the noise. -/
theorem noise_block (c : Dev nD) (t : Fin cfg0.N) (r : Fin 5000) (d : Fin 64) (p : Fin 100000)
    (hp : p.val = 5000 * t.val + r.val) :
    (Gen.iblk0 (F := Ideal) V c 1 t : Vec Ideal S5000x64 .f32) (ix2 r d) = (V c main_arg1 : Mat 100000 64) (ix2 p d) := by
  obtain ⟨-, -, e0, e1, -⟩ := idx_facts t
  unfold Gen.iblk0
  rw [View.read_apply]
  show V c main_arg1 _ = V c main_arg1 _
  congr 1
  funext a
  apply Fin.ext
  match a with
  | ⟨0, _⟩ => show win0_1.index t (0 : Fin 2) * 5000 + 1 * r.val = p.val; rw [e0, hp]; omega
  | ⟨1, _⟩ => show win0_1.index t (1 : Fin 2) * 64 + 1 * d.val = d.val; rw [e1]; omega

/-- The mean's weight window holds the whole weight at every point. -/
theorem wmu_block (c : Dev nD) (t : Fin cfg0.N) :
    (Gen.iblk0 (F := Ideal) V c 2 t : Vec Ideal S128x64 .f32) = (V c main_arg2 : Mat 128 64) := by
  obtain ⟨-, -, -, -, e0, e1, -⟩ := idx_facts t
  funext y
  unfold Gen.iblk0
  rw [View.read_apply]
  show V c main_arg2 _ = V c main_arg2 y
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 64 + 1 * (y 1).val = (y 1).val; rw [e1]; omega

/-- The mean's bias window holds the whole bias at every point. -/
theorem bmu_block (c : Dev nD) (t : Fin cfg0.N) :
    (Gen.iblk0 (F := Ideal) V c 3 t : Vec Ideal S64 .f32) = (V c main_arg3 : Row 64) := by
  obtain ⟨-, -, -, -, -, -, e0, -⟩ := idx_facts t
  funext y
  unfold Gen.iblk0
  rw [View.read_apply]
  show V c main_arg3 _ = V c main_arg3 y
  congr 1
  funext a
  apply Fin.ext
  match a with
  | ⟨0, _⟩ => show win0_3.index t (0 : Fin 1) * 64 + 1 * (y 0).val = (y 0).val; rw [e0]; omega

/-- The log-variance's weight window holds the whole weight at every point. -/
theorem wlv_block (c : Dev nD) (t : Fin cfg0.N) :
    (Gen.iblk0 (F := Ideal) V c 4 t : Vec Ideal S128x64 .f32) = (V c main_arg4 : Mat 128 64) := by
  obtain ⟨-, -, -, -, -, -, -, e0, e1, -⟩ := idx_facts t
  funext y
  unfold Gen.iblk0
  rw [View.read_apply]
  show V c main_arg4 _ = V c main_arg4 y
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 64 + 1 * (y 1).val = (y 1).val; rw [e1]; omega

/-- The log-variance's bias window holds the whole bias at every point. -/
theorem blv_block (c : Dev nD) (t : Fin cfg0.N) :
    (Gen.iblk0 (F := Ideal) V c 5 t : Vec Ideal S64 .f32) = (V c main_arg5 : Row 64) := by
  obtain ⟨-, -, -, -, -, -, -, -, -, e0, -⟩ := idx_facts t
  funext y
  unfold Gen.iblk0
  rw [View.read_apply]
  show V c main_arg5 _ = V c main_arg5 y
  congr 1
  funext a
  apply Fin.ext
  match a with
  | ⟨0, _⟩ => show win0_5.index t (0 : Fin 1) * 64 + 1 * (y 0).val = (y 0).val; rw [e0]; omega

/-- The latent rows of the blocks at point t, read at a block index, are the latent rows of the arrays at the
    array index 5000·t rows further down. -/
theorem latent_point (c : Dev nD) (t : Fin cfg0.N) (y : S5000x64.Idx) (i : S100000x64.Idx)
    (h0 : (i 0).val = 5000 * t.val + (y 0).val) (h1 : (i 1).val = (y 1).val) :
    Cert.Vae.latent (n := 5000) (Gen.iblk0 (F := Ideal) V c 0 t) (Gen.iblk0 (F := Ideal) V c 1 t) (Gen.iblk0 (F := Ideal) V c 2 t)
        (Gen.iblk0 (F := Ideal) V c 3 t) (Gen.iblk0 (F := Ideal) V c 4 t) (Gen.iblk0 (F := Ideal) V c 5 t) y
      = Cert.Vae.latent (n := 100000) (V c main_arg0) (V c main_arg1) (V c main_arg2) (V c main_arg3) (V c main_arg4)
        (V c main_arg5) i := by
  obtain ⟨r, d, rfl⟩ : ∃ (r : Fin 5000) (d : Fin 64), y = ix2 r d := ⟨y 0, y 1, eq_ix2 y⟩
  obtain ⟨p, d', rfl⟩ : ∃ (p : Fin 100000) (d' : Fin 64), i = ix2 p d' := ⟨i 0, i 1, eq_ix2 i⟩
  obtain rfl : d' = d := Fin.ext h1
  have hp : p.val = 5000 * t.val + r.val := h0
  rw [wmu_block V c t, bmu_block V c t, wlv_block V c t, blv_block V c t]
  exact Cert.Vae.latent_row _ _ _ _ _ _ _ _ r p (fun j => feat_block V c t r j p hp) d' (noise_block V c t r d' p hp)

/-- The divergence of the feature block's node r at point t is the divergence of node 5000·t + r. -/
theorem kl_point (c : Dev nD) (t : Fin cfg0.N) (r : Fin 5000) (p : Fin 100000) (hp : p.val = 5000 * t.val + r.val) :
    Cert.Vae.klNode (n := 5000) (Gen.iblk0 (F := Ideal) V c 0 t) (Gen.iblk0 (F := Ideal) V c 2 t)
        (Gen.iblk0 (F := Ideal) V c 3 t) (Gen.iblk0 (F := Ideal) V c 4 t) (Gen.iblk0 (F := Ideal) V c 5 t) r
      = Cert.Vae.klNode (n := 100000) (V c main_arg0) (V c main_arg2) (V c main_arg3) (V c main_arg4) (V c main_arg5) p := by
  rw [wmu_block V c t, bmu_block V c t, wlv_block V c t, blv_block V c t]
  exact Cert.Vae.klNode_row _ _ _ _ _ _ r p (fun j => feat_block V c t r j p hp)

/-! ## The latent array -/

/-- What point t writes back to the latent array is block t of the latent rows of the arrays. -/
theorem latent_flushed (c : Dev nD) (t : Fin cfg0.N) :
    (Gen.dat0 (F := Ideal) V c).flushed 6 t = ((cfg0.win 6).blk t).view.read (Elt Ideal) (Cert.Vae.latent (n := 100000) (V c main_arg0) (V c main_arg1) (V c main_arg2) (V c main_arg3) (V c main_arg4) (V c main_arg5)) := by
  obtain ⟨-, -, -, -, -, -, -, -, -, -, e0, e1, -⟩ := idx_facts t
  show (cfg0.win 6).cut (grid0.coords t) ((Gen.dat0 (F := Ideal) V c).after 6 t) = _
  rw [Gen.after0_6]
  funext j
  rw [View.read_apply]
  refine (congrFun (latent_block (Gen.iblk0 (F := Ideal) V c 0 t) (Gen.iblk0 (F := Ideal) V c 1 t) (Gen.iblk0 (F := Ideal) V c 2 t) (Gen.iblk0 (F := Ideal) V c 3 t) (Gen.iblk0 (F := Ideal) V c 4 t) (Gen.iblk0 (F := Ideal) V c 5 t)) _).trans ?_
  refine latent_point V c t _ _ ?_ ?_
  · show win0_6.index t (0 : Fin 2) * 5000 + 1 * (j 0).val = 5000 * t.val + (j 0).val
    rw [e0]; omega
  · show win0_6.index t (1 : Fin 2) * 64 + 1 * (j 1).val = (j 1).val
    rw [e1]; omega

/-- An index of the latent array is in point t's block iff each coordinate is in the block's range on its axis. -/
theorem latent_mem_blk (t : Fin cfg0.N) (i : S100000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v0_0).slice (win0_6.rect t)).set ↔ _
  rw [View.set_slice_whole, Rect.mem_set_unit]
  exact Iff.rfl

/-- Row p of the latent array is covered by point p / 5000. -/
theorem latent_cover (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 :=
    ⟨⟨(i 0).val / 5000, lt_of_lt_of_eq (by omega : (i 0).val / 5000 < 20) hN.symm⟩, rfl⟩
  obtain ⟨-, -, -, -, -, -, -, -, -, -, e0, e1, -⟩ := idx_facts t
  refine ⟨t, flush0_6 t, ?_⟩
  rw [latent_mem_blk]
  intro a
  match a with
  | ⟨0, _⟩ =>
    show win0_6.index t (0 : Fin 2) * 5000 ≤ (i 0).val ∧ (i 0).val < win0_6.index t (0 : Fin 2) * 5000 + 5000
    rw [e0, ht]; omega
  | ⟨1, _⟩ =>
    show win0_6.index t (1 : Fin 2) * 64 ≤ (i 1).val ∧ (i 1).val < win0_6.index t (1 : Fin 2) * 64 + 64
    rw [e1]; omega

/-- After the region the latent array holds the latent rows of the six input arrays as the region found them. -/
theorem latent_array_eq (c : Dev nD) :
    (Gen.dat0 (F := Ideal) V c).arrAt 6 cfg0.N = Cert.Vae.latent (n := 100000) (V c main_arg0) (V c main_arg1) (V c main_arg2) (V c main_arg3) (V c main_arg4) (V c main_arg5) :=
  (Gen.dat0 (F := Ideal) V c).arrAt_eq_of_cover 6 _ (fun t _ => latent_flushed V c t) latent_cover

theorem latent_array (c : Dev nD) (p : Fin 100000) (d : Fin 64) :
    (Gen.dat0 (F := Ideal) V c).arrAt 6 cfg0.N (ix2 p d) = Cert.Vae.latent (n := 100000) (V c main_arg0) (V c main_arg1) (V c main_arg2) (V c main_arg3) (V c main_arg4) (V c main_arg5) (ix2 p d) :=
  congrFun (latent_array_eq V c) (ix2 p d)

/-! ## The divergence column -/

/-- What the body leaves in the divergence block, at any index of the block: the divergence of the index's row. -/
theorem kl_block_at (x0 : Vec Ideal S5000x128 .f32) (x1 : Vec Ideal S5000x64 .f32) (x2 : Vec Ideal S128x64 .f32)
    (x3 : Vec Ideal S64 .f32) (x4 : Vec Ideal S128x64 .f32) (x5 : Vec Ideal S64 .f32) (y : S5000x1.Idx) :
    Gen.out0_7 (F := Ideal) x0 x1 x2 x3 x4 x5 y = Cert.Vae.klNode (n := 5000) x0 x2 x3 x4 x5 (y 0) := by
  obtain ⟨r, z, rfl⟩ : ∃ (r : Fin 5000) (z : Fin 1), y = ix2 r z := ⟨y 0, y 1, eq_ix2 y⟩
  obtain rfl : z = 0 := Subsingleton.elim _ _
  exact kl_block x0 x1 x2 x3 x4 x5 r

/-- What point t writes back to the divergence column is block t of the nodes' divergences. -/
theorem kl_flushed (c : Dev nD) (t : Fin cfg0.N) :
    (Gen.dat0 (F := Ideal) V c).flushed 7 t = ((cfg0.win 7).blk t).view.read (Elt Ideal)
      (fun i : S100000x1.Idx => Cert.Vae.klNode (n := 100000) (V c main_arg0) (V c main_arg2) (V c main_arg3) (V c main_arg4) (V c main_arg5) (i 0)) := by
  obtain ⟨-, -, -, -, -, -, -, -, -, -, -, -, e0, e1⟩ := idx_facts t
  show (cfg0.win 7).cut (grid0.coords t) ((Gen.dat0 (F := Ideal) V c).after 7 t) = _
  rw [Gen.after0_7]
  funext j
  rw [View.read_apply]
  refine (kl_block_at (Gen.iblk0 (F := Ideal) V c 0 t) (Gen.iblk0 (F := Ideal) V c 1 t) (Gen.iblk0 (F := Ideal) V c 2 t) (Gen.iblk0 (F := Ideal) V c 3 t) (Gen.iblk0 (F := Ideal) V c 4 t) (Gen.iblk0 (F := Ideal) V c 5 t) _).trans ?_
  refine kl_point V c t _ _ ?_
  show win0_7.index t (0 : Fin 2) * 5000 + 1 * (j 0).val = 5000 * t.val + (j 0).val
  rw [e0]; omega

/-- An index of the divergence column is in point t's block iff each coordinate is in the block's range on its axis. -/
theorem kl_mem_blk (t : Fin cfg0.N) (i : S100000x1.Idx) :
    i ∈ ((cfg0.win 7).blk t).view.set ↔ ∀ a : Fin 2, win0_7.index t a * S5000x1.size a ≤ (i a).val
      ∧ (i a).val < win0_7.index t a * S5000x1.size a + S5000x1.size a := by
  show i ∈ ((View.whole main_v0_1).slice (win0_7.rect t)).set ↔ _
  rw [View.set_slice_whole, Rect.mem_set_unit]
  exact Iff.rfl

/-- Row p of the divergence column is covered by point p / 5000. -/
theorem kl_cover (i : S100000x1.Idx) :
    ∃ t : Fin cfg0.N, (cfg0.win 7).flush t = true ∧ i ∈ ((cfg0.win 7).blk t).view.set := by
  have hi0 : (i 0).val < 100000 := (i 0).isLt
  have hi1 : (i 1).val < 1 := (i 1).isLt
  have hN : cfg0.N = 20 := N_0
  obtain ⟨t, ht⟩ : ∃ t : Fin cfg0.N, t.val = (i 0).val / 5000 :=
    ⟨⟨(i 0).val / 5000, lt_of_lt_of_eq (by omega : (i 0).val / 5000 < 20) hN.symm⟩, rfl⟩
  obtain ⟨-, -, -, -, -, -, -, -, -, -, -, -, e0, e1⟩ := idx_facts t
  refine ⟨t, flush0_7 t, ?_⟩
  rw [kl_mem_blk]
  intro a
  match a with
  | ⟨0, _⟩ =>
    show win0_7.index t (0 : Fin 2) * 5000 ≤ (i 0).val ∧ (i 0).val < win0_7.index t (0 : Fin 2) * 5000 + 5000
    rw [e0, ht]; omega
  | ⟨1, _⟩ =>
    show win0_7.index t (1 : Fin 2) * 1 ≤ (i 1).val ∧ (i 1).val < win0_7.index t (1 : Fin 2) * 1 + 1
    rw [e1]; omega

/-- After the region the divergence column holds, in row p, node p's divergence from the input arrays as the
    region found them. -/
theorem kl_array_eq (c : Dev nD) :
    (Gen.dat0 (F := Ideal) V c).arrAt 7 cfg0.N = fun i : S100000x1.Idx => Cert.Vae.klNode (n := 100000) (V c main_arg0) (V c main_arg2) (V c main_arg3) (V c main_arg4) (V c main_arg5) (i 0) :=
  (Gen.dat0 (F := Ideal) V c).arrAt_eq_of_cover 7 _ (fun t _ => kl_flushed V c t) kl_cover

theorem kl_array (c : Dev nD) (p : Fin 100000) :
    (Gen.dat0 (F := Ideal) V c).arrAt 7 cfg0.N (ix2 p (0 : Fin 1)) = Cert.Vae.klNode (n := 100000) (V c main_arg0) (V c main_arg2) (V c main_arg3) (V c main_arg4) (V c main_arg5) p :=
  congrFun (kl_array_eq V c) (ix2 p (0 : Fin 1))

end Cert.KernelIdeal.Region0

end
-- ==== Proof.Region1.lean ====
/-
  The decoder region's value. Each of its 250 points takes rows 8000 t … 8000 t + 7999 of the two gathered latent
  arrays and of the signs, and the four weights whole, and leaves in row r of its output block
  0 - (a unless a ≠ a, else max(a, 0) + log1p(exp(0 - |a - 0|))) with a = 0 - logit · sign, the logit being
  max((zu ∘ zv) · W1 + b1, 0) · W2 + b2 taken on the matrix unit. On the extended reals a value never differs from
  itself and 0 - x = -x, so this is log σ(logit · sign). The output blocks tile the array (row e is in the block of
  point e / 8000), so after the region the array holds log σ(logit_e · sign_e) at every pair e.
-/
import proofs.«123637_j43757126812205_1_alg».proof.Proof.Spec
import proofs.«123637_j43757126812205_1_alg».proof.Proof.Gen.KernelIdeal.Frame
import proofs.«123637_j43757126812205_1_alg».proof.Proof.LibDenseLayers
import Idealize.ShloMosaic.Lib.Pipeline.Value
import Idealize.ShloMosaic.Lib.ValueIdx

noncomputable section

namespace Cert.KernelIdeal.Region1

open Cert.KernelIdeal Cert.KernelIdeal.Gen Idealize.ShloMosaic Idealize.ShloMosaic.TcCoe Idealize.SL.Sem
open Idealize.ShloMosaic.ValueIdx Cert.Layers
open Idealize.ShloMosaic.Pipeline (Dat)

/-- The perceptron's score, as the body computes it. -/
theorem logit_eq (x0 x1 : Vec Ideal S8000x64 .f32) (x3 : Vec Ideal S64x128 .f32) (x4 : Vec Ideal S128 .f32)
    (x5 : Vec Ideal S128x1 .f32) (x6 : Vec Ideal S1 .f32) :
    addf (matmul dot_S8000x128_S128x1_S8000x1_1_0_0_1_n_n none
        (truncf .bf16 (maximumf (addf (matmul dot_S8000x64_S64x128_S8000x128_1_0_0_1_n_n none
              (truncf .bf16 (mulf (shapeCast S8000x64 x0 shapeCasts_S8000x64_S8000x64) (shapeCast S8000x64 x1 shapeCasts_S8000x64_S8000x64)) bitsLt_bf16_f32)
              (truncf .bf16 x3 bitsLt_bf16_f32) (constant S8000x128 .f32 0x00000000#32))
            (broadcastTo S8000x128 (shapeCast S1x128 x4 shapeCasts_S128_S1x128) broadcasts_S1x128_S8000x128))
          (broadcast S8000x128 (Scalar.ofBits (F := Ideal) .f32 0x00000000#32))) bitsLt_bf16_f32)
        (truncf .bf16 x5 bitsLt_bf16_f32) (constant S8000x1 .f32 0x00000000#32))
      (broadcastTo S8000x1 (shapeCast S1x1 x6 shapeCasts_S1_S1x1) broadcasts_S1x1_S8000x1)
    = Cert.Vae.pairLogit (n := 8000) x0 x1 x3 x4 x5 x6 := by
  rw [shapeCast_self, shapeCast_self,
    tileMm_eq dot_S8000x64_S64x128_S8000x128_1_0_0_1_n_n dot_S8000x64_S64x128_S8000x128_1_0_0_1_n_n.wf rfl,
    tileBias_eq, tileRect_eq,
    tileMm_eq dot_S8000x128_S128x1_S8000x1_1_0_0_1_n_n dot_S8000x128_S128x1_S8000x1_1_0_0_1_n_n.wf rfl,
    tileBias_eq]
  rfl

/-- The value the body negates: the zero word minus the score times the label's sign. -/
theorem pay2_eq (x0 x1 : Vec Ideal S8000x64 .f32) (x2 : Vec Ideal S8000x1 .f32) (x3 : Vec Ideal S64x128 .f32)
    (x4 : Vec Ideal S128 .f32) (x5 : Vec Ideal S128x1 .f32) (x6 : Vec Ideal S1 .f32) :
    k1_pay2 (F := Ideal) x0 x1 x3 x4 x5 x6 x2
      = fun i => Cert.Vae.zeroW - Cert.Vae.pairLogit (n := 8000) x0 x1 x3 x4 x5 x6 i * x2 i := by
  unfold k1_pay2
  dsimp only
  rw [logit_eq, shapeCast_self]
  rfl

/-- 0 - t = -t on the extended reals, the zero spelt as the all-zero f32 word. -/
theorem zeroW_sub (t : EReal) : Cert.Vae.zeroW - t = -t := by
  rw [show Cert.Vae.zeroW = 0 from Ideal.ofBits_zero_f32, zero_sub]

/-- A value is never different from itself. -/
theorem cmp_one_self (x : EReal) : Ideal.cmp .one x x = 0#1 := by
  unfold Ideal.cmp
  simp

/-- The body's spelling of log σ(l): 0 - (a unless a ≠ a, else max(a, 0) + log1p(exp(0 - |a - 0|))) with a = 0 - l. -/
theorem logSigmoid_spelt (l : EReal) :
    Cert.Vae.zeroW - Scalar.select (Ideal.cmp .one ((Cert.Vae.zeroW - l) - Cert.Vae.zeroW) ((Cert.Vae.zeroW - l) - Cert.Vae.zeroW))
        ((Cert.Vae.zeroW - l) + Cert.Vae.zeroW)
        (max (Cert.Vae.zeroW - l) Cert.Vae.zeroW
          + Ideal.log1p (Ideal.exp (Cert.Vae.zeroW - max ((Cert.Vae.zeroW - l) - Cert.Vae.zeroW) (-((Cert.Vae.zeroW - l) - Cert.Vae.zeroW)))))
      = Cert.Vae.logSigmoid l := by
  rw [cmp_one_self, select_zero, zeroW_sub, zeroW_sub l, zeroW_sub]
  rfl

theorem hz2 : (![0, 0] : Fin 2 → Nat) = fun _ => 0 := funext fun a => by fin_cases a <;> rfl
theorem hz1 : (![0] : Fin 1 → Nat) = fun _ => 0 := funext fun a => by fin_cases a; rfl

/-- What the body leaves in row r of its output block: log σ of the row's score times the row's sign. -/
theorem body_row (x0 x1 : Vec Ideal S8000x64 .f32) (x2 : Vec Ideal S8000x1 .f32) (x3 : Vec Ideal S64x128 .f32)
    (x4 : Vec Ideal S128 .f32) (x5 : Vec Ideal S128x1 .f32) (x6 : Vec Ideal S1 .f32) (r : Fin 8000) :
    Gen.out1_7 (F := Ideal) x0 x1 x2 x3 x4 x5 x6 (ix2 r (0 : Fin 1))
      = Cert.Vae.logSigmoid (Cert.Vae.pairLogit (n := 8000) x0 x1 x3 x4 x5 x6 (ix2 r (0 : Fin 1)) * x2 (ix2 r (0 : Fin 1))) := by
  unfold Gen.out1_7
  rw [View.canon_unit_zero hz2]
  simp only [View.ld_unit_zero (S := S8000x64) hz2, View.ld_unit_zero (S := S64x128) hz2, View.ld_unit_zero (S := S128) hz1,
    View.ld_unit_zero (S := S128x1) hz2, View.ld_unit_zero (S := S1) hz1, View.ld_unit_zero (S := S8000x1) hz2]
  unfold k1_pay1 k1_pay4 k1_pay5 k1_pay6 k1_pay3
  dsimp only
  rw [pay2_eq]
  exact logSigmoid_spelt _

variable (V : (c : Dev nD) → (b : Ref sig .tc) → Buf (Elt Ideal) ((c : Thread nD τ).loc b))

/-- The windows' index maps over the 250 points: the three row-blocked inputs and the output are at block (t, 0),
    the four weights at block 0. -/
theorem idx_facts : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = t.val ∧ win1_2.index t (1 : Fin 2) = 0
  ∧ win1_3.index t (0 : Fin 2) = 0 ∧ win1_3.index t (1 : Fin 2) = 0
  ∧ win1_4.index t (0 : Fin 1) = 0
  ∧ win1_5.index t (0 : Fin 2) = 0 ∧ win1_5.index t (1 : Fin 2) = 0
  ∧ win1_6.index t (0 : Fin 1) = 0
  ∧ win1_7.index t (0 : Fin 2) = t.val ∧ win1_7.index t (1 : Fin 2) = 0 :=
  (by decide +kernel : ∀ t : Fin grid1.N, _)

/-- Row r of the first latent block at point t is row 8000 t + r of the gathered rows. -/
theorem iblk0_apply (c : Dev nD) (t : Fin cfg1.N) (r : Fin 8000) (d : Fin 64) (e : Fin 2000000)
    (he : e.val = 8000 * t.val + r.val) :
    (iblk1 (F := Ideal) V c 0 t : Vec Ideal S8000x64 .f32) (ix2 r d) = (V c main_v24 : S2000000x64.Idx → EReal) (ix2 e d) := by
  obtain ⟨h00, h01, -⟩ := idx_facts t
  unfold iblk1
  rw [View.read_apply]
  show V c main_v24 _ = V c main_v24 _
  congr 1
  funext a
  apply Fin.ext
  match a with
  | ⟨0, _⟩ => show win1_0.index t 0 * 8000 + 1 * r.val = e.val; rw [h00, he]; omega
  | ⟨1, _⟩ => show win1_0.index t 1 * 64 + 1 * d.val = d.val; rw [h01]; omega

/-- Row r of the second latent block at point t is row 8000 t + r of the gathered rows. -/
theorem iblk1_apply (c : Dev nD) (t : Fin cfg1.N) (r : Fin 8000) (d : Fin 64) (e : Fin 2000000)
    (he : e.val = 8000 * t.val + r.val) :
    (iblk1 (F := Ideal) V c 1 t : Vec Ideal S8000x64 .f32) (ix2 r d) = (V c main_v31 : S2000000x64.Idx → EReal) (ix2 e d) := by
  obtain ⟨-, -, h10, h11, -⟩ := idx_facts t
  unfold iblk1
  rw [View.read_apply]
  show V c main_v31 _ = V c main_v31 _
  congr 1
  funext a
  apply Fin.ext
  match a with
  | ⟨0, _⟩ => show win1_1.index t 0 * 8000 + 1 * r.val = e.val; rw [h10, he]; omega
  | ⟨1, _⟩ => show win1_1.index t 1 * 64 + 1 * d.val = d.val; rw [h11]; omega

/-- Row r of the signs' block at point t is row 8000 t + r of the signs. -/
theorem iblk2_apply (c : Dev nD) (t : Fin cfg1.N) (r : Fin 8000) (e : Fin 2000000)
    (he : e.val = 8000 * t.val + r.val) :
    (iblk1 (F := Ideal) V c 2 t : Vec Ideal S8000x1 .f32) (ix2 r (0 : Fin 1)) = (V c main_v17 : S2000000x1.Idx → EReal) (ix2 e (0 : Fin 1)) := by
  obtain ⟨-, -, -, -, h20, h21, -⟩ := idx_facts t
  unfold iblk1
  rw [View.read_apply]
  show V c main_v17 _ = V c main_v17 _
  congr 1
  funext a
  apply Fin.ext
  match a with
  | ⟨0, _⟩ => show win1_2.index t 0 * 8000 + 1 * r.val = e.val; rw [h20, he]; omega
  | ⟨1, _⟩ => show win1_2.index t 1 * 1 + 1 * 0 = 0; rw [h21]

/-- The four weights' blocks are the whole arrays at every point. -/
theorem iblk3_eq (c : Dev nD) (t : Fin cfg1.N) :
    (iblk1 (F := Ideal) V c 3 t : Vec Ideal S64x128 .f32) = (V c main_arg6 : S64x128.Idx → EReal) := by
  obtain ⟨-, -, -, -, -, -, h30, h31, -⟩ := idx_facts t
  funext y
  unfold iblk1
  rw [View.read_apply]
  show V c main_arg6 _ = V c main_arg6 _
  congr 1
  funext a
  apply Fin.ext
  match a with
  | ⟨0, _⟩ => show win1_3.index t 0 * 64 + 1 * (y 0).val = (y 0).val; rw [h30]; omega
  | ⟨1, _⟩ => show win1_3.index t 1 * 128 + 1 * (y 1).val = (y 1).val; rw [h31]; omega

theorem iblk4_eq (c : Dev nD) (t : Fin cfg1.N) :
    (iblk1 (F := Ideal) V c 4 t : Vec Ideal S128 .f32) = (V c main_arg7 : S128.Idx → EReal) := by
  obtain ⟨-, -, -, -, -, -, -, -, h40, -⟩ := idx_facts t
  funext y
  unfold iblk1
  rw [View.read_apply]
  show V c main_arg7 _ = V c main_arg7 _
  congr 1
  funext a
  apply Fin.ext
  match a with
  | ⟨0, _⟩ => show win1_4.index t 0 * 128 + 1 * (y 0).val = (y 0).val; rw [h40]; omega

theorem iblk5_eq (c : Dev nD) (t : Fin cfg1.N) :
    (iblk1 (F := Ideal) V c 5 t : Vec Ideal S128x1 .f32) = (V c main_arg8 : S128x1.Idx → EReal) := by
  obtain ⟨-, -, -, -, -, -, -, -, -, h50, h51, -⟩ := idx_facts t
  funext y
  unfold iblk1
  rw [View.read_apply]
  show V c main_arg8 _ = V c main_arg8 _
  congr 1
  funext a
  apply Fin.ext
  match a with
  | ⟨0, _⟩ => show win1_5.index t 0 * 128 + 1 * (y 0).val = (y 0).val; rw [h50]; omega
  | ⟨1, _⟩ => show win1_5.index t 1 * 1 + 1 * (y 1).val = (y 1).val; rw [h51]; omega

theorem iblk6_eq (c : Dev nD) (t : Fin cfg1.N) :
    (iblk1 (F := Ideal) V c 6 t : Vec Ideal S1 .f32) = (V c main_arg9 : S1.Idx → EReal) := by
  obtain ⟨-, -, -, -, -, -, -, -, -, -, -, h60, -⟩ := idx_facts t
  funext y
  unfold iblk1
  rw [View.read_apply]
  show V c main_arg9 _ = V c main_arg9 _
  congr 1
  funext a
  apply Fin.ext
  match a with
  | ⟨0, _⟩ => show win1_6.index t 0 * 1 + 1 * (y 0).val = (y 0).val; rw [h60]; omega

/-- The log-probability of every pair: log σ of the pair's score times its sign. -/
def lpOf (c : Dev nD) : S2000000x1.Idx → EReal := fun i =>
  Cert.Vae.logSigmoid (Cert.Vae.pairLogit (n := 2000000) (V c main_v24) (V c main_v31) (V c main_arg6) (V c main_arg7)
    (V c main_arg8) (V c main_arg9) i * (V c main_v17 : S2000000x1.Idx → EReal) i)

/-- Row r of what point t's body leaves is pair 8000 t + r's log-probability. -/
theorem point_row (c : Dev nD) (t : Fin cfg1.N) (r : Fin 8000) (e : Fin 2000000) (he : e.val = 8000 * t.val + r.val) :
    out1_7 (F := Ideal) (iblk1 V c 0 t) (iblk1 V c 1 t) (iblk1 V c 2 t) (iblk1 V c 3 t) (iblk1 V c 4 t) (iblk1 V c 5 t)
        (iblk1 V c 6 t) (ix2 r (0 : Fin 1))
      = lpOf V c (ix2 e (0 : Fin 1)) := by
  refine (body_row (iblk1 V c 0 t) (iblk1 V c 1 t) (iblk1 V c 2 t) (iblk1 V c 3 t) (iblk1 V c 4 t) (iblk1 V c 5 t)
    (iblk1 V c 6 t) r).trans ?_
  unfold lpOf
  refine congrArg Cert.Vae.logSigmoid ?_
  refine congrArg₂ (· * ·) ?_ (iblk2_apply V c t r e he)
  rw [iblk3_eq V c t, iblk4_eq V c t, iblk5_eq V c t, iblk6_eq V c t]
  exact Cert.Vae.pairLogit_row _ _ _ _ _ _ _ _ r e (fun d => iblk0_apply V c t r d e he) (fun d => iblk1_apply V c t r d e he)

/-- What point t's body leaves at an index of its output block is the log-probability at the index's place in the array. -/
theorem flushed_at (c : Dev nD) (t : Fin cfg1.N) (j : S8000x1.Idx) :
    out1_7 (F := Ideal) (iblk1 V c 0 t) (iblk1 V c 1 t) (iblk1 V c 2 t) (iblk1 V c 3 t) (iblk1 V c 4 t) (iblk1 V c 5 t)
        (iblk1 V c 6 t) j
      = lpOf V c (((cfg1.win 7).blk t).view.emb j) := by
  obtain ⟨r, q, rfl⟩ : ∃ (r : Fin 8000) (q : Fin 1), j = ix2 r q := ⟨j 0, j 1, eq_ix2 j⟩
  obtain rfl : q = 0 := Subsingleton.elim _ _
  have ht : t.val < 250 := lt_of_lt_of_eq t.isLt N_1
  obtain ⟨-, -, -, -, -, -, -, -, -, -, -, -, h70, h71⟩ := idx_facts t
  refine (point_row V c t r ⟨8000 * t.val + r.val, by omega⟩ rfl).trans (congrArg (lpOf V c) ?_)
  funext a
  apply Fin.ext
  match a with
  | ⟨0, _⟩ => show 8000 * t.val + r.val = win1_7.index t 0 * 8000 + 1 * r.val; rw [h70]; omega
  | ⟨1, _⟩ => show 0 = win1_7.index t 1 * 1 + 1 * 0; rw [h71]

/-- What point t writes back is block t of the log-probabilities. -/
theorem flushed_eq (c : Dev nD) (t : Fin cfg1.N) :
    (dat1 (F := Ideal) V c).flushed 7 t = ((cfg1.win 7).blk t).view.read (Elt Ideal) (lpOf V c) := by
  show (cfg1.win 7).cut (grid1.coords t) ((dat1 V c).after 7 t) = _
  rw [after1_7]
  funext j
  exact flushed_at V c t j

/-- An index of the array is in point t's block iff each coordinate is in the block's range on its axis. -/
theorem mem_blk (t : Fin cfg1.N) (i : S2000000x1.Idx) :
    i ∈ ((cfg1.win 7).blk t).view.set ↔ ∀ a : Fin 2, win1_7.index t a * S8000x1.size a ≤ (i a).val
      ∧ (i a).val < win1_7.index t a * S8000x1.size a + S8000x1.size a := by
  show i ∈ ((View.whole main_v32).slice (win1_7.rect t)).set ↔ _
  rw [View.set_slice_whole, Rect.mem_set_unit]
  exact Iff.rfl

/-- Row e of the array is in the block of point e / 8000. -/
theorem cover (i : S2000000x1.Idx) :
    ∃ t : Fin cfg1.N, (cfg1.win 7).flush t = true ∧ i ∈ ((cfg1.win 7).blk t).view.set := by
  have hi0 : (i 0).val < 2000000 := (i 0).isLt
  have hi1 : (i 1).val < 1 := (i 1).isLt
  have hN : cfg1.N = 250 := N_1
  have hlt : (i 0).val / 8000 < cfg1.N := by rw [hN]; omega
  obtain ⟨-, -, -, -, -, -, -, -, -, -, -, -, h70, h71⟩ := idx_facts ⟨(i 0).val / 8000, hlt⟩
  refine ⟨⟨(i 0).val / 8000, hlt⟩, flush1_7 _, ?_⟩
  rw [mem_blk]
  intro a
  match a with
  | ⟨0, _⟩ =>
    show win1_7.index ⟨(i 0).val / 8000, hlt⟩ 0 * 8000 ≤ (i 0).val
      ∧ (i 0).val < win1_7.index ⟨(i 0).val / 8000, hlt⟩ 0 * 8000 + 8000
    rw [h70]
    show (i 0).val / 8000 * 8000 ≤ (i 0).val ∧ (i 0).val < (i 0).val / 8000 * 8000 + 8000
    omega
  | ⟨1, _⟩ =>
    show win1_7.index ⟨(i 0).val / 8000, hlt⟩ 1 * 1 ≤ (i 1).val ∧ (i 1).val < win1_7.index ⟨(i 0).val / 8000, hlt⟩ 1 * 1 + 1
    rw [h71]
    omega

/-- After the region the output array holds every pair's log-probability. -/
theorem lp_array (c : Dev nD) (e : Fin 2000000) :
    (Gen.dat1 (F := Ideal) V c).arrAt 7 cfg1.N (ix2 e (0 : Fin 1))
      = Cert.Vae.logSigmoid (Cert.Vae.pairLogit (V c main_v24) (V c main_v31) (V c main_arg6) (V c main_arg7)
          (V c main_arg8) (V c main_arg9) (ix2 e (0 : Fin 1)) * V c main_v17 (ix2 e (0 : Fin 1))) :=
  congrFun ((dat1 V c).arrAt_eq_of_cover 7 (lpOf V c) (fun t _ => flushed_eq V c t) cover) (ix2 e (0 : Fin 1))

end Cert.KernelIdeal.Region1
end
-- ==== Proof.KernelClaims.lean ====
/-
  The kernel program ends with the loss.

  Reading the last fold back: the result is −(sum of the decoder region's output column / pair count − sum of the
  encoder region's divergence column / node count). The encoder region's arrays are the latent rows and the per-node
  divergences of the launch arguments (no host operation comes before it). The decoder region reads the latent rows
  gathered at the joined, wrapped words, the sign column and the perceptron's weights as the host stretch between
  the regions leaves them, and its output at pair e is that pair's log-probability.
-/
import proofs.«123637_j43757126812205_1_alg».proof.Proof.KernelLoss
import proofs.«123637_j43757126812205_1_alg».proof.Proof.KernelRun
import proofs.«123637_j43757126812205_1_alg».proof.Proof.Region0
import proofs.«123637_j43757126812205_1_alg».proof.Proof.Region1

set_option maxRecDepth 16384

open scoped BigOperators

noncomputable section

namespace Cert.KernelIdeal.Claims

open Cert.KernelIdeal Cert.KernelIdeal.Gen Cert.KernelIdeal.Folds Cert.KernelIdeal.Loss
open Idealize.ShloMosaic Idealize.ShloMosaic.TcCoe Idealize.ShloMosaic.ValueIdx Idealize.SL.Sem
open Cert.Layers Cert.Vae Cert.Lib.ColumnTotal

variable (m : (ℓ : Loc nD τ sig) → Buf (Elt Ideal) ℓ) (ρ : Dev nD → PrngReg) (c : Dev nD)

/-! ## The buffers the folds pass through unchanged -/

theorem w1_arg (b : Ref sig .tc) (hb : ∀ w, Pipeline.arrRef spec0 w ≠ b) :
    W1 m ρ c (Proc.devRef .tc b) = m ((c.tc : Thread nD τ).loc b) :=
  W1_of_ne m ρ c b hb

/-- The latent array after the encoder region. -/
theorem latent_fold :
    W1 m ρ c (Proc.devRef .tc main_v0_0)
      = latent (n := 100000) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W1_arr m ρ c 6).trans ?_
  exact Region0.latent_array_eq (V0 m ρ) c

/-- The divergence column after the encoder region. -/
theorem kl_fold (p : Fin 100000) :
    W1 m ρ c (Proc.devRef .tc main_v0_1) (ix2 p (0 : Fin 1))
      = klNode (n := 100000) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) p := by
  refine (congrFun (W1_arr m ρ c 7) (ix2 p (0 : Fin 1))).trans ?_
  exact Region0.kl_array (V0 m ρ) c p

/-- The mean of the divergences, carried through the decoder region. -/
theorem klMean_fold (j : S_.Idx) :
    W3 m ρ c (Proc.devRef .tc main_v2) j
      = Ideal.div (∑ p : Fin 100000, klNode (n := 100000) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) p) nodesW := by
  refine (congrFun ((W3_of_ne m ρ c main_v2 (by decide)).trans (klMean_read (W1 m ρ c))) j).trans ?_
  show Ideal.div (Host.reduceAdd (W1 m ρ c (Proc.devRef .tc main_v0_1)) (constant (F := Ideal) S_ .f32 0x00000000#32)
    reducesTo_S100000x1_S_d0_1 h_S_ j) nodesW = _
  rw [sumColumn_apply]
  exact congrArg (fun s => Ideal.div s nodesW) (Finset.sum_congr rfl fun p _ => kl_fold m ρ c p)

/-! ## The decoder region's output -/

/-- Pair e's entry of the decoder region's output column is its log-probability. -/
theorem lp_fold (e : Fin 2000000) :
    W3 m ρ c (Proc.devRef .tc main_v32) (ix2 e (0 : Fin 1))
      = pairLp (latent (n := 100000) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
          (m ((c.tc : Thread nD τ).loc main_arg6)) (m ((c.tc : Thread nD τ).loc main_arg7)) (m ((c.tc : Thread nD τ).loc main_arg8)) (m ((c.tc : Thread nD τ).loc main_arg9))
          (fun k => (m ((c.tc : Thread nD τ).loc main_arg10)) (ix2 (0 : Fin 2) k)) (fun k => (m ((c.tc : Thread nD τ).loc main_arg10)) (ix2 (1 : Fin 2) k))
          (fun k => (m ((c.tc : Thread nD τ).loc main_arg11)) (ix2 (0 : Fin 2) k)) (fun k => (m ((c.tc : Thread nD τ).loc main_arg11)) (ix2 (1 : Fin 2) k)) e := by
  refine (congrFun (W3_arr m ρ c 7) (ix2 e (0 : Fin 1))).trans ?_
  refine (Region1.lp_array (V2 m ρ) c e).trans ?_
  have hu : V2 m ρ c main_v24 = rowsAt (latent (n := 100000) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      (pairWord (fun k => (m ((c.tc : Thread nD τ).loc main_arg10)) (ix2 (0 : Fin 2) k)) (fun k => (m ((c.tc : Thread nD τ).loc main_arg11)) (ix2 (0 : Fin 2) k))) := by
    refine (rowsU_read (W1 m ρ c)).trans ?_
    rw [latent_fold m ρ c, w1_arg m ρ c main_arg10 (by decide), w1_arg m ρ c main_arg11 (by decide), gatherRows_eq]
    exact congrArg (rowsAt _) (funext fun k => joinedRow0_apply _ _ k)
  have hv : V2 m ρ c main_v31 = rowsAt (latent (n := 100000) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      (pairWord (fun k => (m ((c.tc : Thread nD τ).loc main_arg10)) (ix2 (1 : Fin 2) k)) (fun k => (m ((c.tc : Thread nD τ).loc main_arg11)) (ix2 (1 : Fin 2) k))) := by
    refine (rowsV_read (W1 m ρ c)).trans ?_
    rw [latent_fold m ρ c, w1_arg m ρ c main_arg10 (by decide), w1_arg m ρ c main_arg11 (by decide), gatherRows_eq]
    exact congrArg (rowsAt _) (funext fun k => joinedRow1_apply _ _ k)
  have hs : V2 m ρ c main_v17 = signCol (F := Ideal) := signs_read (W1 m ρ c)
  have h6 : V2 m ρ c main_arg6 = (m ((c.tc : Thread nD τ).loc main_arg6)) := (arg6_read (W1 m ρ c)).trans (w1_arg m ρ c main_arg6 (by decide))
  have h7 : V2 m ρ c main_arg7 = (m ((c.tc : Thread nD τ).loc main_arg7)) := (arg7_read (W1 m ρ c)).trans (w1_arg m ρ c main_arg7 (by decide))
  have h8 : V2 m ρ c main_arg8 = (m ((c.tc : Thread nD τ).loc main_arg8)) := (arg8_read (W1 m ρ c)).trans (w1_arg m ρ c main_arg8 (by decide))
  have h9 : V2 m ρ c main_arg9 = (m ((c.tc : Thread nD τ).loc main_arg9)) := (arg9_read (W1 m ρ c)).trans (w1_arg m ρ c main_arg9 (by decide))
  rw [hu, hv, hs, h6, h7, h8, h9, signCol_apply]
  exact pairLp_eq _ _ _ _ _ _ _ _ _ e

/-! ## The result -/

/-- The last fold at the result buffer is the loss of the launch arguments. -/
theorem result_eq :
    W4 m ρ c (Proc.devRef .tc main_v36)
      = fun _ => loss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
        (fun e => (m ((c.tc : Thread nD τ).loc main_arg10)) (ix2 (0 : Fin 2) e)) (fun e => (m ((c.tc : Thread nD τ).loc main_arg10)) (ix2 (1 : Fin 2) e))
        (fun e => (m ((c.tc : Thread nD τ).loc main_arg11)) (ix2 (0 : Fin 2) e)) (fun e => (m ((c.tc : Thread nD τ).loc main_arg11)) (ix2 (1 : Fin 2) e)) := by
  funext j
  refine (congrFun (loss_read (W3 m ρ c)) j).trans ?_
  exact lossOf_apply _ _ _ _ (fun e => lp_fold m ρ c e) (fun j => klMean_fold m ρ c j) j

/-! ## The run -/

/-- Every weakly fair execution of the kernel program terminates with the loss in the result buffer and the
    arguments as launched. -/
theorem run_loss :
    θ_run (defs (F := Ideal)) (onTc (τ := τ) (main (F := Ideal))) ⟨m, fun _ => 0, ρ⟩ (fun r => ∀ c : Dev nD,
      r.2.mem ((c.tc : Thread nD τ).loc main_v36) = (fun _ => loss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
        (fun e => (m ((c.tc : Thread nD τ).loc main_arg10)) (ix2 (0 : Fin 2) e)) (fun e => (m ((c.tc : Thread nD τ).loc main_arg10)) (ix2 (1 : Fin 2) e))
        (fun e => (m ((c.tc : Thread nD τ).loc main_arg11)) (ix2 (0 : Fin 2) e)) (fun e => (m ((c.tc : Thread nD τ).loc main_arg11)) (ix2 (1 : Fin 2) e)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run (defs (F := Ideal)) _ _).mono (fun _ h c => ⟨(h c).1.trans (result_eq m ρ c), (h c).2⟩)
    (Run.run_result (F := Ideal) m ρ)

end Cert.KernelIdeal.Claims

end
-- ==== Proof.RefOps.lean ====
/- The reference program's @main as one straight line of host operations, in four consecutive stretches, each
   function call replaced by the callee's operations over the call's own buffers; with it: every operation touches
   only TensorCore references, each stretch leaves alone every buffer it does not write, and so the twelve argument
   buffers hold their launch contents at the end. -/
import proofs.«123637_j43757126812205_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The encoder, %0 … %12: the two dense layers (mean and log-variance) and the latent array `mean + eps * exp (½ · logvar)`, in `main_v12`. -/
abbrev opsEnc : List (HloOp τ sig (Elt F)) :=
  [ binary main_arg0 main_arg2 main_v0 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg3 main_v1 (broadcastInDim S1x64 ![1] bcast_S64_S1x64_1 : (⟨S64, .f32⟩ : BufTy).Contents (Elt F) → (⟨S1x64, .f32⟩ : BufTy).Contents (Elt F)),
    unary main_v1 main_v2 (broadcastInDim S100000x64 ![0, 1] bcast_S1x64_S100000x64_0_1 : (⟨S1x64, .f32⟩ : BufTy).Contents (Elt F) → (⟨S100000x64, .f32⟩ : BufTy).Contents (Elt F)),
    binary main_v0 main_v2 main_v3 (addf : (⟨S100000x64, .f32⟩ : BufTy).Contents (Elt F) → (⟨S100000x64, .f32⟩ : BufTy).Contents (Elt F) → (⟨S100000x64, .f32⟩ : BufTy).Contents (Elt F)),
    binary main_arg0 main_arg4 main_v4 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg5 main_v5 (broadcastInDim S1x64 ![1] bcast_S64_S1x64_1 : (⟨S64, .f32⟩ : BufTy).Contents (Elt F) → (⟨S1x64, .f32⟩ : BufTy).Contents (Elt F)),
    unary main_v5 main_v6 (broadcastInDim S100000x64 ![0, 1] bcast_S1x64_S100000x64_0_1 : (⟨S1x64, .f32⟩ : BufTy).Contents (Elt F) → (⟨S100000x64, .f32⟩ : BufTy).Contents (Elt F)),
    binary main_v4 main_v6 main_v7 (addf : (⟨S100000x64, .f32⟩ : BufTy).Contents (Elt F) → (⟨S100000x64, .f32⟩ : BufTy).Contents (Elt F) → (⟨S100000x64, .f32⟩ : BufTy).Contents (Elt F)),
    nullary main_cst (constant S_ .f32 0x3F000000#32),
    unary main_cst main_v8 (broadcastInDim S100000x64 ![] bcast_S_S100000x64 : (⟨S_, .f32⟩ : BufTy).Contents (Elt F) → (⟨S100000x64, .f32⟩ : BufTy).Contents (Elt F)),
    binary main_v8 main_v7 main_v9 (mulf : (⟨S100000x64, .f32⟩ : BufTy).Contents (Elt F) → (⟨S100000x64, .f32⟩ : BufTy).Contents (Elt F) → (⟨S100000x64, .f32⟩ : BufTy).Contents (Elt F)),
    unary main_v9 main_v10 (Host.exp : (⟨S100000x64, .f32⟩ : BufTy).Contents (Elt F) → (⟨S100000x64, .f32⟩ : BufTy).Contents (Elt F)),
    binary main_arg1 main_v10 main_v11 (mulf : (⟨S100000x64, .f32⟩ : BufTy).Contents (Elt F) → (⟨S100000x64, .f32⟩ : BufTy).Contents (Elt F) → (⟨S100000x64, .f32⟩ : BufTy).Contents (Elt F)),
    binary main_v3 main_v11 main_v12 (addf : (⟨S100000x64, .f32⟩ : BufTy).Contents (Elt F) → (⟨S100000x64, .f32⟩ : BufTy).Contents (Elt F) → (⟨S100000x64, .f32⟩ : BufTy).Contents (Elt F)) ]

/-- The edges' half, %13 … %42: the two rows of the edge index array wrapped into range, the two row gathers of the latent array, their entrywise product, the two decoder layers (the maximum with zero inlined over `main_call0`), the column read as a vector, and the log-sigmoid (a negation, the fourteen operations of the soft-plus over `main_call1.call0`, a negation), in `main_v42`. -/
abbrev opsPos : List (HloOp τ sig (Elt F)) :=
  [ unary main_arg10 main_v13 ((extractStridedSlice S1x1000000 ![0, 0] · slices_S2x1000000_S1x1000000_0_0) : (⟨S2x1000000, .i32⟩ : BufTy).Contents (Elt F) → (⟨S1x1000000, .i32⟩ : BufTy).Contents (Elt F)),
    reshape main_v13 main_v14 rfl shapeCasts_S1x1000000_S1000000,
    nullary main_c (constantI S_ 32 0#32),
    unary main_c main_v15 (broadcastInDim S1000000 ![] bcast_S_S1000000 : (⟨S_, .i32⟩ : BufTy).Contents (Elt F) → (⟨S1000000, .i32⟩ : BufTy).Contents (Elt F)),
    binary main_v14 main_v15 main_v16 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 100000#32),
    unary main_c_0 main_v17 (broadcastInDim S1000000 ![] bcast_S_S1000000 : (⟨S_, .i32⟩ : BufTy).Contents (Elt F) → (⟨S1000000, .i32⟩ : BufTy).Contents (Elt F)),
    binary main_v14 main_v17 main_v18 (addi : (⟨S1000000, .i32⟩ : BufTy).Contents (Elt F) → (⟨S1000000, .i32⟩ : BufTy).Contents (Elt F) → (⟨S1000000, .i32⟩ : BufTy).Contents (Elt F)),
    ternary main_v16 main_v18 main_v14 main_v19 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v19 main_v20 (broadcastInDim S1000000x1 ![0] bcast_S1000000_S1000000x1_0 : (⟨S1000000, .i32⟩ : BufTy).Contents (Elt F) → (⟨S1000000x1, .i32⟩ : BufTy).Contents (Elt F)),
    binary main_v12 main_v20 main_v21 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    unary main_arg10 main_v22 ((extractStridedSlice S1x1000000 ![1, 0] · slices_S2x1000000_S1x1000000_1_0) : (⟨S2x1000000, .i32⟩ : BufTy).Contents (Elt F) → (⟨S1x1000000, .i32⟩ : BufTy).Contents (Elt F)),
    reshape main_v22 main_v23 rfl shapeCasts_S1x1000000_S1000000,
    nullary main_c_1 (constantI S_ 32 0#32),
    unary main_c_1 main_v24 (broadcastInDim S1000000 ![] bcast_S_S1000000 : (⟨S_, .i32⟩ : BufTy).Contents (Elt F) → (⟨S1000000, .i32⟩ : BufTy).Contents (Elt F)),
    binary main_v23 main_v24 main_v25 (cmpi .slt : (⟨S1000000, .i32⟩ : BufTy).Contents (Elt F) → (⟨S1000000, .i32⟩ : BufTy).Contents (Elt F) → (⟨S1000000, .i1⟩ : BufTy).Contents (Elt F)),
    nullary main_c_2 (constantI S_ 32 100000#32),
    unary main_c_2 main_v26 (broadcastInDim S1000000 ![] bcast_S_S1000000 : (⟨S_, .i32⟩ : BufTy).Contents (Elt F) → (⟨S1000000, .i32⟩ : BufTy).Contents (Elt F)),
    binary main_v23 main_v26 main_v27 (addi : (⟨S1000000, .i32⟩ : BufTy).Contents (Elt F) → (⟨S1000000, .i32⟩ : BufTy).Contents (Elt F) → (⟨S1000000, .i32⟩ : BufTy).Contents (Elt F)),
    ternary main_v25 main_v27 main_v23 main_v28 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v28 main_v29 (broadcastInDim S1000000x1 ![0] bcast_S1000000_S1000000x1_0 : (⟨S1000000, .i32⟩ : BufTy).Contents (Elt F) → (⟨S1000000x1, .i32⟩ : BufTy).Contents (Elt F)),
    binary main_v12 main_v29 main_v30 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    binary main_v21 main_v30 main_v31 (mulf : (⟨S1000000x64, .f32⟩ : BufTy).Contents (Elt F) → (⟨S1000000x64, .f32⟩ : BufTy).Contents (Elt F) → (⟨S1000000x64, .f32⟩ : BufTy).Contents (Elt F)),
    binary main_v31 main_arg6 main_v32 ((fun l r => Host.dotGeneral dot_S1000000x64_S64x128_S1000000x128_1_0_0_1_n_n none l r) : (⟨S1000000x64, .f32⟩ : BufTy).Contents (Elt F) → (⟨S64x128, .f32⟩ : BufTy).Contents (Elt F) → (⟨S1000000x128, .f32⟩ : BufTy).Contents (Elt F)),
    unary main_arg7 main_v33 (broadcastInDim S1x128 ![1] bcast_S128_S1x128_1 : (⟨S128, .f32⟩ : BufTy).Contents (Elt F) → (⟨S1x128, .f32⟩ : BufTy).Contents (Elt F)),
    unary main_v33 main_v34 (broadcastInDim S1000000x128 ![0, 1] bcast_S1x128_S1000000x128_0_1 : (⟨S1x128, .f32⟩ : BufTy).Contents (Elt F) → (⟨S1000000x128, .f32⟩ : BufTy).Contents (Elt F)),
    binary main_v32 main_v34 main_v35 (addf : (⟨S1000000x128, .f32⟩ : BufTy).Contents (Elt F) → (⟨S1000000x128, .f32⟩ : BufTy).Contents (Elt F) → (⟨S1000000x128, .f32⟩ : BufTy).Contents (Elt F)),
    TRef.nullary main_call0.cst (constant S_ .f32 0x00000000#32),
    TRef.unary main_call0.cst main_call0.v0 (broadcastInDim S1000000x128 ![] bcast_S_S1000000x128),
    TRef.binary (.of main_v35 : TRef sig ⟨S1000000x128, .f32⟩) main_call0.v0 main_call0.v1 maximumf,
    binary main_v36 main_arg8 main_v37 ((fun l r => Host.dotGeneral dot_S1000000x128_S128x1_S1000000x1_1_0_0_1_n_n none l r) : (⟨S1000000x128, .f32⟩ : BufTy).Contents (Elt F) → (⟨S128x1, .f32⟩ : BufTy).Contents (Elt F) → (⟨S1000000x1, .f32⟩ : BufTy).Contents (Elt F)),
    unary main_arg9 main_v38 (broadcastInDim S1x1 ![1] bcast_S1_S1x1_1 : (⟨S1, .f32⟩ : BufTy).Contents (Elt F) → (⟨S1x1, .f32⟩ : BufTy).Contents (Elt F)),
    unary main_v38 main_v39 (broadcastInDim S1000000x1 ![0, 1] bcast_S1x1_S1000000x1_0_1 : (⟨S1x1, .f32⟩ : BufTy).Contents (Elt F) → (⟨S1000000x1, .f32⟩ : BufTy).Contents (Elt F)),
    binary main_v37 main_v39 main_v40 (addf : (⟨S1000000x1, .f32⟩ : BufTy).Contents (Elt F) → (⟨S1000000x1, .f32⟩ : BufTy).Contents (Elt F) → (⟨S1000000x1, .f32⟩ : BufTy).Contents (Elt F)),
    reshape main_v40 main_v41 rfl shapeCasts_S1000000x1_S1000000,
    TRef.unary (.of main_v41 : TRef sig ⟨S1000000, .f32⟩) main_call1.v0 Host.negf,
    TRef.nullary main_call1.call0.cst (constant S_ .f32 0x00000000#32),
    TRef.unary main_call1.call0.cst main_call1.call0.v0 (broadcastInDim S1000000 ![] bcast_S_S1000000),
    TRef.binary main_call1.v0 main_call1.call0.v0 main_call1.call0.v1 maximumf,
    TRef.unary main_call1.call0.cst main_call1.call0.v2 (broadcastInDim S1000000 ![] bcast_S_S1000000),
    TRef.binary main_call1.v0 main_call1.call0.v2 main_call1.call0.v3 subf,
    TRef.binary main_call1.call0.v3 main_call1.call0.v3 main_call1.call0.v4 (cmpf .une),
    TRef.unary main_call1.call0.cst main_call1.call0.v5 (broadcastInDim S1000000 ![] bcast_S_S1000000),
    TRef.binary main_call1.v0 main_call1.call0.v5 main_call1.call0.v6 addf,
    TRef.unary main_call1.call0.v3 main_call1.call0.v7 Host.absf,
    TRef.unary main_call1.call0.v7 main_call1.call0.v8 Host.negf,
    TRef.unary main_call1.call0.v8 main_call1.call0.v9 Host.exp,
    TRef.unary main_call1.call0.v9 main_call1.call0.v10 Host.log1p,
    TRef.binary main_call1.call0.v1 main_call1.call0.v10 main_call1.call0.v11 addf,
    TRef.ternary main_call1.call0.v4 main_call1.call0.v6 main_call1.call0.v11 main_call1.call0.v12 select,
    TRef.unary main_call1.call0.v12 main_call1.v2 Host.negf ]

/-- The non-edges' half, %43 … %73: the same operations over the second index array, with one more negation before the log-sigmoid (over `main_call2`, `main_call3`), in `main_v73`. -/
abbrev opsNeg : List (HloOp τ sig (Elt F)) :=
  [ unary main_arg11 main_v43 ((extractStridedSlice S1x1000000 ![0, 0] · slices_S2x1000000_S1x1000000_0_0) : (⟨S2x1000000, .i32⟩ : BufTy).Contents (Elt F) → (⟨S1x1000000, .i32⟩ : BufTy).Contents (Elt F)),
    reshape main_v43 main_v44 rfl shapeCasts_S1x1000000_S1000000,
    nullary main_c_3 (constantI S_ 32 0#32),
    unary main_c_3 main_v45 (broadcastInDim S1000000 ![] bcast_S_S1000000 : (⟨S_, .i32⟩ : BufTy).Contents (Elt F) → (⟨S1000000, .i32⟩ : BufTy).Contents (Elt F)),
    binary main_v44 main_v45 main_v46 (cmpi .slt : (⟨S1000000, .i32⟩ : BufTy).Contents (Elt F) → (⟨S1000000, .i32⟩ : BufTy).Contents (Elt F) → (⟨S1000000, .i1⟩ : BufTy).Contents (Elt F)),
    nullary main_c_4 (constantI S_ 32 100000#32),
    unary main_c_4 main_v47 (broadcastInDim S1000000 ![] bcast_S_S1000000 : (⟨S_, .i32⟩ : BufTy).Contents (Elt F) → (⟨S1000000, .i32⟩ : BufTy).Contents (Elt F)),
    binary main_v44 main_v47 main_v48 (addi : (⟨S1000000, .i32⟩ : BufTy).Contents (Elt F) → (⟨S1000000, .i32⟩ : BufTy).Contents (Elt F) → (⟨S1000000, .i32⟩ : BufTy).Contents (Elt F)),
    ternary main_v46 main_v48 main_v44 main_v49 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v49 main_v50 (broadcastInDim S1000000x1 ![0] bcast_S1000000_S1000000x1_0 : (⟨S1000000, .i32⟩ : BufTy).Contents (Elt F) → (⟨S1000000x1, .i32⟩ : BufTy).Contents (Elt F)),
    binary main_v12 main_v50 main_v51 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    unary main_arg11 main_v52 ((extractStridedSlice S1x1000000 ![1, 0] · slices_S2x1000000_S1x1000000_1_0) : (⟨S2x1000000, .i32⟩ : BufTy).Contents (Elt F) → (⟨S1x1000000, .i32⟩ : BufTy).Contents (Elt F)),
    reshape main_v52 main_v53 rfl shapeCasts_S1x1000000_S1000000,
    nullary main_c_5 (constantI S_ 32 0#32),
    unary main_c_5 main_v54 (broadcastInDim S1000000 ![] bcast_S_S1000000 : (⟨S_, .i32⟩ : BufTy).Contents (Elt F) → (⟨S1000000, .i32⟩ : BufTy).Contents (Elt F)),
    binary main_v53 main_v54 main_v55 (cmpi .slt : (⟨S1000000, .i32⟩ : BufTy).Contents (Elt F) → (⟨S1000000, .i32⟩ : BufTy).Contents (Elt F) → (⟨S1000000, .i1⟩ : BufTy).Contents (Elt F)),
    nullary main_c_6 (constantI S_ 32 100000#32),
    unary main_c_6 main_v56 (broadcastInDim S1000000 ![] bcast_S_S1000000 : (⟨S_, .i32⟩ : BufTy).Contents (Elt F) → (⟨S1000000, .i32⟩ : BufTy).Contents (Elt F)),
    binary main_v53 main_v56 main_v57 (addi : (⟨S1000000, .i32⟩ : BufTy).Contents (Elt F) → (⟨S1000000, .i32⟩ : BufTy).Contents (Elt F) → (⟨S1000000, .i32⟩ : BufTy).Contents (Elt F)),
    ternary main_v55 main_v57 main_v53 main_v58 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v58 main_v59 (broadcastInDim S1000000x1 ![0] bcast_S1000000_S1000000x1_0 : (⟨S1000000, .i32⟩ : BufTy).Contents (Elt F) → (⟨S1000000x1, .i32⟩ : BufTy).Contents (Elt F)),
    binary main_v12 main_v59 main_v60 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    binary main_v51 main_v60 main_v61 (mulf : (⟨S1000000x64, .f32⟩ : BufTy).Contents (Elt F) → (⟨S1000000x64, .f32⟩ : BufTy).Contents (Elt F) → (⟨S1000000x64, .f32⟩ : BufTy).Contents (Elt F)),
    binary main_v61 main_arg6 main_v62 ((fun l r => Host.dotGeneral dot_S1000000x64_S64x128_S1000000x128_1_0_0_1_n_n none l r) : (⟨S1000000x64, .f32⟩ : BufTy).Contents (Elt F) → (⟨S64x128, .f32⟩ : BufTy).Contents (Elt F) → (⟨S1000000x128, .f32⟩ : BufTy).Contents (Elt F)),
    unary main_arg7 main_v63 (broadcastInDim S1x128 ![1] bcast_S128_S1x128_1 : (⟨S128, .f32⟩ : BufTy).Contents (Elt F) → (⟨S1x128, .f32⟩ : BufTy).Contents (Elt F)),
    unary main_v63 main_v64 (broadcastInDim S1000000x128 ![0, 1] bcast_S1x128_S1000000x128_0_1 : (⟨S1x128, .f32⟩ : BufTy).Contents (Elt F) → (⟨S1000000x128, .f32⟩ : BufTy).Contents (Elt F)),
    binary main_v62 main_v64 main_v65 (addf : (⟨S1000000x128, .f32⟩ : BufTy).Contents (Elt F) → (⟨S1000000x128, .f32⟩ : BufTy).Contents (Elt F) → (⟨S1000000x128, .f32⟩ : BufTy).Contents (Elt F)),
    TRef.nullary main_call2.cst (constant S_ .f32 0x00000000#32),
    TRef.unary main_call2.cst main_call2.v0 (broadcastInDim S1000000x128 ![] bcast_S_S1000000x128),
    TRef.binary (.of main_v65 : TRef sig ⟨S1000000x128, .f32⟩) main_call2.v0 main_call2.v1 maximumf,
    binary main_v66 main_arg8 main_v67 ((fun l r => Host.dotGeneral dot_S1000000x128_S128x1_S1000000x1_1_0_0_1_n_n none l r) : (⟨S1000000x128, .f32⟩ : BufTy).Contents (Elt F) → (⟨S128x1, .f32⟩ : BufTy).Contents (Elt F) → (⟨S1000000x1, .f32⟩ : BufTy).Contents (Elt F)),
    unary main_arg9 main_v68 (broadcastInDim S1x1 ![1] bcast_S1_S1x1_1 : (⟨S1, .f32⟩ : BufTy).Contents (Elt F) → (⟨S1x1, .f32⟩ : BufTy).Contents (Elt F)),
    unary main_v68 main_v69 (broadcastInDim S1000000x1 ![0, 1] bcast_S1x1_S1000000x1_0_1 : (⟨S1x1, .f32⟩ : BufTy).Contents (Elt F) → (⟨S1000000x1, .f32⟩ : BufTy).Contents (Elt F)),
    binary main_v67 main_v69 main_v70 (addf : (⟨S1000000x1, .f32⟩ : BufTy).Contents (Elt F) → (⟨S1000000x1, .f32⟩ : BufTy).Contents (Elt F) → (⟨S1000000x1, .f32⟩ : BufTy).Contents (Elt F)),
    reshape main_v70 main_v71 rfl shapeCasts_S1000000x1_S1000000,
    unary main_v71 main_v72 (Host.negf : (⟨S1000000, .f32⟩ : BufTy).Contents (Elt F) → (⟨S1000000, .f32⟩ : BufTy).Contents (Elt F)),
    TRef.unary (.of main_v72 : TRef sig ⟨S1000000, .f32⟩) main_call3.v0 Host.negf,
    TRef.nullary main_call3.call0.cst (constant S_ .f32 0x00000000#32),
    TRef.unary main_call3.call0.cst main_call3.call0.v0 (broadcastInDim S1000000 ![] bcast_S_S1000000),
    TRef.binary main_call3.v0 main_call3.call0.v0 main_call3.call0.v1 maximumf,
    TRef.unary main_call3.call0.cst main_call3.call0.v2 (broadcastInDim S1000000 ![] bcast_S_S1000000),
    TRef.binary main_call3.v0 main_call3.call0.v2 main_call3.call0.v3 subf,
    TRef.binary main_call3.call0.v3 main_call3.call0.v3 main_call3.call0.v4 (cmpf .une),
    TRef.unary main_call3.call0.cst main_call3.call0.v5 (broadcastInDim S1000000 ![] bcast_S_S1000000),
    TRef.binary main_call3.v0 main_call3.call0.v5 main_call3.call0.v6 addf,
    TRef.unary main_call3.call0.v3 main_call3.call0.v7 Host.absf,
    TRef.unary main_call3.call0.v7 main_call3.call0.v8 Host.negf,
    TRef.unary main_call3.call0.v8 main_call3.call0.v9 Host.exp,
    TRef.unary main_call3.call0.v9 main_call3.call0.v10 Host.log1p,
    TRef.binary main_call3.call0.v1 main_call3.call0.v10 main_call3.call0.v11 addf,
    TRef.ternary main_call3.call0.v4 main_call3.call0.v6 main_call3.call0.v11 main_call3.call0.v12 select,
    TRef.unary main_call3.call0.v12 main_call3.v2 Host.negf ]

/-- The tail, %74 … %89: the two halves concatenated and averaged; the Kullback–Leibler term per node, its row sum times ½, averaged; their difference, negated, in `main_v89`. -/
abbrev opsTail : List (HloOp τ sig (Elt F)) :=
  [ binary main_v42 main_v73 main_v74 ((fun a b => concatenate S2000000 0 [⟨S1000000, a⟩, ⟨S1000000, b⟩] concatenates_S1000000_S1000000_S2000000_d0) : (⟨S1000000, .f32⟩ : BufTy).Contents (Elt F) → (⟨S1000000, .f32⟩ : BufTy).Contents (Elt F) → (⟨S2000000, .f32⟩ : BufTy).Contents (Elt F)),
    nullary main_cst_7 (constant S_ .f32 0x00000000#32),
    binary main_v74 main_cst_7 main_v75 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
    nullary main_cst_8 (constant S_ .f32 0x49F42400#32),
    binary main_v75 main_cst_8 main_v76 (Host.divf : (⟨S_, .f32⟩ : BufTy).Contents (Elt F) → (⟨S_, .f32⟩ : BufTy).Contents (Elt F) → (⟨S_, .f32⟩ : BufTy).Contents (Elt F)),
    binary main_v3 main_v3 main_v77 (mulf : (⟨S100000x64, .f32⟩ : BufTy).Contents (Elt F) → (⟨S100000x64, .f32⟩ : BufTy).Contents (Elt F) → (⟨S100000x64, .f32⟩ : BufTy).Contents (Elt F)),
    unary main_v7 main_v78 (Host.exp : (⟨S100000x64, .f32⟩ : BufTy).Contents (Elt F) → (⟨S100000x64, .f32⟩ : BufTy).Contents (Elt F)),
    binary main_v77 main_v78 main_v79 (addf : (⟨S100000x64, .f32⟩ : BufTy).Contents (Elt F) → (⟨S100000x64, .f32⟩ : BufTy).Contents (Elt F) → (⟨S100000x64, .f32⟩ : BufTy).Contents (Elt F)),
    nullary main_cst_9 (constant S_ .f32 0x3F800000#32),
    unary main_cst_9 main_v80 (broadcastInDim S100000x64 ![] bcast_S_S100000x64 : (⟨S_, .f32⟩ : BufTy).Contents (Elt F) → (⟨S100000x64, .f32⟩ : BufTy).Contents (Elt F)),
    binary main_v79 main_v80 main_v81 (subf : (⟨S100000x64, .f32⟩ : BufTy).Contents (Elt F) → (⟨S100000x64, .f32⟩ : BufTy).Contents (Elt F) → (⟨S100000x64, .f32⟩ : BufTy).Contents (Elt F)),
    binary main_v81 main_v7 main_v82 (subf : (⟨S100000x64, .f32⟩ : BufTy).Contents (Elt F) → (⟨S100000x64, .f32⟩ : BufTy).Contents (Elt F) → (⟨S100000x64, .f32⟩ : BufTy).Contents (Elt F)),
    nullary main_cst_10 (constant S_ .f32 0x00000000#32),
    binary main_v82 main_cst_10 main_v83 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    nullary main_cst_11 (constant S_ .f32 0x3F000000#32),
    unary main_cst_11 main_v84 (broadcastInDim S100000 ![] bcast_S_S100000 : (⟨S_, .f32⟩ : BufTy).Contents (Elt F) → (⟨S100000, .f32⟩ : BufTy).Contents (Elt F)),
    binary main_v84 main_v83 main_v85 (mulf : (⟨S100000, .f32⟩ : BufTy).Contents (Elt F) → (⟨S100000, .f32⟩ : BufTy).Contents (Elt F) → (⟨S100000, .f32⟩ : BufTy).Contents (Elt F)),
    nullary main_cst_12 (constant S_ .f32 0x00000000#32),
    binary main_v85 main_cst_12 main_v86 ((fun x v => Host.reduceAdd x v reducesTo_S100000_S_d0 h_S_) : (⟨S100000, .f32⟩ : BufTy).Contents (Elt F) → (⟨S_, .f32⟩ : BufTy).Contents (Elt F) → (⟨S_, .f32⟩ : BufTy).Contents (Elt F)),
    nullary main_cst_13 (constant S_ .f32 0x47C35000#32),
    binary main_v86 main_cst_13 main_v87 (Host.divf : (⟨S_, .f32⟩ : BufTy).Contents (Elt F) → (⟨S_, .f32⟩ : BufTy).Contents (Elt F) → (⟨S_, .f32⟩ : BufTy).Contents (Elt F)),
    binary main_v76 main_v87 main_v88 (subf : (⟨S_, .f32⟩ : BufTy).Contents (Elt F) → (⟨S_, .f32⟩ : BufTy).Contents (Elt F) → (⟨S_, .f32⟩ : BufTy).Contents (Elt F)),
    unary main_v88 main_v89 (Host.negf : (⟨S_, .f32⟩ : BufTy).Contents (Elt F) → (⟨S_, .f32⟩ : BufTy).Contents (Elt F)) ]

/-- @main's 140 operations, in order. -/
abbrev ops : List (HloOp τ sig (Elt F)) := opsEnc ++ opsPos ++ opsNeg ++ opsTail

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ## Every operation touches TensorCore references only -/

theorem opsEnc_sub : (opsEnc : List (HloOp τ sig (Elt F))).Forall fun op => op.bufs ⊆ tcRefs τ sig :=
  ⟨binary_bufs_sub .., unary_bufs_sub .., unary_bufs_sub .., binary_bufs_sub .., binary_bufs_sub .., unary_bufs_sub ..,
    unary_bufs_sub .., binary_bufs_sub .., nullary_bufs_sub .., unary_bufs_sub .., binary_bufs_sub .., unary_bufs_sub ..,
    binary_bufs_sub .., binary_bufs_sub ..⟩

theorem opsPos_sub : (opsPos : List (HloOp τ sig (Elt F))).Forall fun op => op.bufs ⊆ tcRefs τ sig :=
  ⟨unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., reshape_bufs_sub .., unary_bufs_sub ..,
    nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub .., unary_bufs_sub ..⟩

theorem opsNeg_sub : (opsNeg : List (HloOp τ sig (Elt F))).Forall fun op => op.bufs ⊆ tcRefs τ sig :=
  ⟨unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., reshape_bufs_sub .., unary_bufs_sub ..,
    unary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub ..,
    unary_bufs_sub .., binary_bufs_sub .., ternary_bufs_sub .., unary_bufs_sub ..⟩

theorem opsTail_sub : (opsTail : List (HloOp τ sig (Elt F))).Forall fun op => op.bufs ⊆ tcRefs τ sig :=
  ⟨binary_bufs_sub .., nullary_bufs_sub .., binary_bufs_sub .., nullary_bufs_sub .., binary_bufs_sub .., binary_bufs_sub ..,
    unary_bufs_sub .., binary_bufs_sub .., nullary_bufs_sub .., unary_bufs_sub .., binary_bufs_sub .., binary_bufs_sub ..,
    nullary_bufs_sub .., binary_bufs_sub .., nullary_bufs_sub .., unary_bufs_sub .., binary_bufs_sub .., nullary_bufs_sub ..,
    binary_bufs_sub .., nullary_bufs_sub .., binary_bufs_sub .., binary_bufs_sub .., unary_bufs_sub ..⟩

theorem ops_sub : (ops : List (HloOp τ sig (Elt F))).Forall fun op => op.bufs ⊆ tcRefs τ sig :=
  List.forall_append.mpr ⟨List.forall_append.mpr ⟨List.forall_append.mpr ⟨opsEnc_sub, opsPos_sub⟩, opsNeg_sub⟩, opsTail_sub⟩

/-! ## What each stretch writes, and that it leaves every other buffer alone -/

/-- The references `opsEnc`'s operations write, in order. -/
abbrev opsEnc_W : List (Ref sig .tc) :=
  [main_v0, main_v1, main_v2, main_v3, main_v4, main_v5, main_v6, main_v7, main_cst, main_v8,
   main_v9, main_v10, main_v11, main_v12]

theorem opsEnc_writes : (opsEnc : List (HloOp τ sig (Elt F))).Forall fun op => op.writes ⊆ (opsEnc_W.map (Proc.devRef (τ := τ) .tc)).toFinset := by
  simp only [List.Forall]
  refine ⟨?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))

/-- A buffer `opsEnc` does not write keeps its contents through it. -/
theorem opsEnc_keep (V : Valuation τ sig (Elt F)) (r : Ref sig .tc) (h : r ∉ opsEnc_W) :
    after opsEnc V (Proc.devRef .tc r) = V (Proc.devRef .tc r) :=
  after_of_writes_sub opsEnc V opsEnc_writes h

/-- The references `opsPos`'s operations write, in order. -/
abbrev opsPos_W : List (Ref sig .tc) :=
  [main_v13, main_v14, main_c, main_v15, main_v16, main_c_0, main_v17, main_v18, main_v19, main_v20,
   main_v21, main_v22, main_v23, main_c_1, main_v24, main_v25, main_c_2, main_v26, main_v27, main_v28,
   main_v29, main_v30, main_v31, main_v32, main_v33, main_v34, main_v35, main_call0_cst, main_call0_v0, main_v36,
   main_v37, main_v38, main_v39, main_v40, main_v41, main_call1_v0, main_call1_call0_cst, main_call1_call0_v0, main_call1_call0_v1, main_call1_call0_v2,
   main_call1_call0_v3, main_call1_call0_v4, main_call1_call0_v5, main_call1_call0_v6, main_call1_call0_v7, main_call1_call0_v8, main_call1_call0_v9, main_call1_call0_v10, main_call1_call0_v11, main_call1_v1,
   main_v42]

theorem opsPos_writes : (opsPos : List (HloOp τ sig (Elt F))).Forall fun op => op.writes ⊆ (opsPos_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))

/-- A buffer `opsPos` does not write keeps its contents through it. -/
theorem opsPos_keep (V : Valuation τ sig (Elt F)) (r : Ref sig .tc) (h : r ∉ opsPos_W) :
    after opsPos V (Proc.devRef .tc r) = V (Proc.devRef .tc r) :=
  after_of_writes_sub opsPos V opsPos_writes h

/-- The references `opsNeg`'s operations write, in order. -/
abbrev opsNeg_W : List (Ref sig .tc) :=
  [main_v43, main_v44, main_c_3, main_v45, main_v46, main_c_4, main_v47, main_v48, main_v49, main_v50,
   main_v51, main_v52, main_v53, main_c_5, main_v54, main_v55, main_c_6, main_v56, main_v57, main_v58,
   main_v59, main_v60, main_v61, main_v62, main_v63, main_v64, main_v65, main_call2_cst, main_call2_v0, main_v66,
   main_v67, main_v68, main_v69, main_v70, main_v71, main_v72, main_call3_v0, main_call3_call0_cst, main_call3_call0_v0, main_call3_call0_v1,
   main_call3_call0_v2, main_call3_call0_v3, main_call3_call0_v4, main_call3_call0_v5, main_call3_call0_v6, main_call3_call0_v7, main_call3_call0_v8, main_call3_call0_v9, main_call3_call0_v10, main_call3_call0_v11,
   main_call3_v1, main_v73]

theorem opsNeg_writes : (opsNeg : List (HloOp τ sig (Elt F))).Forall fun op => op.writes ⊆ (opsNeg_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))

/-- A buffer `opsNeg` does not write keeps its contents through it. -/
theorem opsNeg_keep (V : Valuation τ sig (Elt F)) (r : Ref sig .tc) (h : r ∉ opsNeg_W) :
    after opsNeg V (Proc.devRef .tc r) = V (Proc.devRef .tc r) :=
  after_of_writes_sub opsNeg V opsNeg_writes h

/-- The references `opsTail`'s operations write, in order. -/
abbrev opsTail_W : List (Ref sig .tc) :=
  [main_v74, main_cst_7, main_v75, main_cst_8, main_v76, main_v77, main_v78, main_v79, main_cst_9, main_v80,
   main_v81, main_v82, main_cst_10, main_v83, main_cst_11, main_v84, main_v85, main_cst_12, main_v86, main_cst_13,
   main_v87, main_v88, main_v89]

theorem opsTail_writes : (opsTail : List (HloOp τ sig (Elt F))).Forall fun op => op.writes ⊆ (opsTail_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))

/-- A buffer `opsTail` does not write keeps its contents through it. -/
theorem opsTail_keep (V : Valuation τ sig (Elt F)) (r : Ref sig .tc) (h : r ∉ opsTail_W) :
    after opsTail V (Proc.devRef .tc r) = V (Proc.devRef .tc r) :=
  after_of_writes_sub opsTail V opsTail_writes h

/-- A buffer none of the four stretches writes holds its launch contents at the end. -/
theorem ops_keep (V : Valuation τ sig (Elt F)) (r : Ref sig .tc)
    (h₁ : r ∉ opsEnc_W) (h₂ : r ∉ opsPos_W) (h₃ : r ∉ opsNeg_W) (h₄ : r ∉ opsTail_W) :
    after ops V (Proc.devRef .tc r) = V (Proc.devRef .tc r) := by
  rw [show (ops : List (HloOp τ sig (Elt F))) = opsEnc ++ opsPos ++ opsNeg ++ opsTail from rfl,
    after_append, after_append, after_append, opsTail_keep _ r h₄, opsNeg_keep _ r h₃, opsPos_keep _ r h₂, opsEnc_keep _ r h₁]

/-! ## No operation writes an argument -/

theorem arg0_kept (V : Valuation τ sig (Elt F)) :
    after ops V (main_arg0 : DevRef τ sig) = V (main_arg0 : DevRef τ sig) :=
  ops_keep V main_arg0 (by decide) (by decide) (by decide) (by decide)
theorem arg1_kept (V : Valuation τ sig (Elt F)) :
    after ops V (main_arg1 : DevRef τ sig) = V (main_arg1 : DevRef τ sig) :=
  ops_keep V main_arg1 (by decide) (by decide) (by decide) (by decide)
theorem arg2_kept (V : Valuation τ sig (Elt F)) :
    after ops V (main_arg2 : DevRef τ sig) = V (main_arg2 : DevRef τ sig) :=
  ops_keep V main_arg2 (by decide) (by decide) (by decide) (by decide)
theorem arg3_kept (V : Valuation τ sig (Elt F)) :
    after ops V (main_arg3 : DevRef τ sig) = V (main_arg3 : DevRef τ sig) :=
  ops_keep V main_arg3 (by decide) (by decide) (by decide) (by decide)
theorem arg4_kept (V : Valuation τ sig (Elt F)) :
    after ops V (main_arg4 : DevRef τ sig) = V (main_arg4 : DevRef τ sig) :=
  ops_keep V main_arg4 (by decide) (by decide) (by decide) (by decide)
theorem arg5_kept (V : Valuation τ sig (Elt F)) :
    after ops V (main_arg5 : DevRef τ sig) = V (main_arg5 : DevRef τ sig) :=
  ops_keep V main_arg5 (by decide) (by decide) (by decide) (by decide)
theorem arg6_kept (V : Valuation τ sig (Elt F)) :
    after ops V (main_arg6 : DevRef τ sig) = V (main_arg6 : DevRef τ sig) :=
  ops_keep V main_arg6 (by decide) (by decide) (by decide) (by decide)
theorem arg7_kept (V : Valuation τ sig (Elt F)) :
    after ops V (main_arg7 : DevRef τ sig) = V (main_arg7 : DevRef τ sig) :=
  ops_keep V main_arg7 (by decide) (by decide) (by decide) (by decide)
theorem arg8_kept (V : Valuation τ sig (Elt F)) :
    after ops V (main_arg8 : DevRef τ sig) = V (main_arg8 : DevRef τ sig) :=
  ops_keep V main_arg8 (by decide) (by decide) (by decide) (by decide)
theorem arg9_kept (V : Valuation τ sig (Elt F)) :
    after ops V (main_arg9 : DevRef τ sig) = V (main_arg9 : DevRef τ sig) :=
  ops_keep V main_arg9 (by decide) (by decide) (by decide) (by decide)
theorem arg10_kept (V : Valuation τ sig (Elt F)) :
    after ops V (main_arg10 : DevRef τ sig) = V (main_arg10 : DevRef τ sig) :=
  ops_keep V main_arg10 (by decide) (by decide) (by decide) (by decide)
theorem arg11_kept (V : Valuation τ sig (Elt F)) :
    after ops V (main_arg11 : DevRef τ sig) = V (main_arg11 : DevRef τ sig) :=
  ops_keep V main_arg11 (by decide) (by decide) (by decide) (by decide)

end Cert.ReferenceIdeal.RefOps

end
-- ==== Proof.RefRun.lean ====
/- The reference program's run: @main is the straight line `RefOps.ops`, so from any memory with zero counters every
   weakly fair execution terminates with each TensorCore buffer at the fold of the operations' results over its
   launch contents. -/
import proofs.«123637_j43757126812205_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one hundred and forty binds re-associated: the rewrite under the chain recurses a few times per statement
set_option maxRecDepth 16384 in
/-- @main is that straight line: the two windows in order, the functions' definitions unfolded at their calls and the
    records at their fields; both sides are one chain of `hlo` steps once sequencing is reassociated. -/
theorem main_eq (c : Dev nD) : main (F := F) c = seq (RefOps.ops (F := F)) := by
  rw [show (RefOps.ops : List (HloOp τ sig (Elt F))) = RefOps.opsEnc ++ RefOps.opsPos ++ RefOps.opsNeg ++ RefOps.opsTail from rfl,
    seq_append, seq_append, seq_append]
  simp only [main, main_part0, main_part1, fn_relu.body, fn_log_sigmoid.body, fn_softplus.body, seq, bind_assoc, pure_bind]

/-- No TensorCore reference of the signature is scoped. -/
theorem scopedRefs_eq : (Finset.univ.filter fun b : Ref sig .tc => b.isScoped) = ∅ := by decide
/-- No semaphore of the signature is scoped on the TensorCore. -/
theorem scopedSems_eq : (Finset.univ.filter fun sm : SemLoc sig => sm.isScoped .tc) = ∅ := by decide

/-- At the compiled mesh, for any float values, from any memory with zero counters: every weakly fair execution of
    @main on the TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after RefOps.ops (launchContents m c) (b : DevRef τ sig) :=
  run_seq scopedRefs_eq scopedSems_eq defs main (fun _ => RefOps.ops) main_eq (fun _ => RefOps.ops_sub) m ρ

end Cert.ReferenceIdeal.RefRun

end
-- ==== Proof.LibColumns.lean ====
/-
  Columns of a matrix, read at an index.

  A matrix [a, b] is cut into columns [a, 1] by unit-width slices, a column is flattened to a vector [a], and
  columns are joined side by side into a matrix again; one axis up, slabs [a, 1, c] are stacked along the middle
  axis into [a, b, c]. Each lemma reads one of these steps at an index given by its coordinates, for any extents
  and any element type: flattening a column keeps its rows, a unit-width slice at offset o is column o, and the
  piece of a side-by-side join of unit-width pieces that holds coordinate q of the joined axis is piece q.
-/
import Idealize.ShloMosaic.Lib.Pipeline.Value
import Idealize.ShloMosaic.Lib.ValueIdx

noncomputable section

namespace Cert.Lib.Columns

open Idealize.ShloMosaic Idealize.ShloMosaic.ValueIdx

variable {α : Type}

/-- A column flattened [a, 1] → [a]: element p of the vector is row p of the column. -/
theorem colAsVec_apply {a : Nat} (col : (⟨2, ![a, 1]⟩ : Shape).Idx → α)
    (h : (⟨2, ![a, 1]⟩ : Shape).ShapeCasts ⟨1, ![a]⟩) (p : Fin a) :
    shapeCast ⟨1, ![a]⟩ col h (ix1 p) = col (ix2 p (0 : Fin 1)) := by
  refine shapeCast_apply col h (ix1 p) (ix2 p (0 : Fin 1)) ?_
  rw [Shape.rowMajor_val_one, Shape.rowMajor_val_two]
  show p.val * 1 + 0 = p.val
  omega

/-- The unit-width slice of a matrix [a, b] at column offset o: row p of it is entry (p, o) of the matrix. -/
theorem sliceCol_apply {a b : Nat} (o : Nat) (X : (⟨2, ![a, b]⟩ : Shape).Idx → α)
    (h : (⟨2, ![a, b]⟩ : Shape).Slices ![0, o] ⟨2, ![a, 1]⟩) (p : Fin a) (q : Fin b) (hq : q.val = o) :
    extractStridedSlice ⟨2, ![a, 1]⟩ ![0, o] X h (ix2 p (0 : Fin 1)) = X (ix2 p q) :=
  extractStridedSlice_apply _ _ _ _ _ (fun ax => by
    match ax with
    | ⟨0, _⟩ => exact (Nat.zero_add _).symm
    | ⟨1, _⟩ => show q.val = o + 0; omega)

/-- Column o of a matrix as a vector: element p is entry (p, o). -/
theorem colVec_apply {a b : Nat} (o : Nat) (X : (⟨2, ![a, b]⟩ : Shape).Idx → α)
    (h : (⟨2, ![a, b]⟩ : Shape).Slices ![0, o] ⟨2, ![a, 1]⟩)
    (hc : (⟨2, ![a, 1]⟩ : Shape).ShapeCasts ⟨1, ![a]⟩) (p : Fin a) (q : Fin b) (hq : q.val = o) :
    shapeCast ⟨1, ![a]⟩ (extractStridedSlice ⟨2, ![a, 1]⟩ ![0, o] X h) hc (ix1 p) = X (ix2 p q) :=
  (colAsVec_apply _ hc p).trans (sliceCol_apply o X h p q hq)

/-- Columns joined side by side into a matrix [a, b]: entry (p, q) is row p of the piece at position q, when every
    piece before it has width one (the widths before position q sum to q). -/
theorem joinCols_apply {a b : Nat} (xs : List ((s : Shape) × (s.Idx → α)))
    (h : Shape.Concatenates (xs.map (·.1)) ⟨2, ![a, b]⟩ (1 : Fin 2)) (p : Fin a) (q : Fin b)
    (hk : q.val < xs.length) (col : (⟨2, ![a, 1]⟩ : Shape).Idx → α) (hxk : xs[q.val] = ⟨⟨2, ![a, 1]⟩, col⟩)
    (hpre : (((xs.take q.val).map (·.1)).map fun s =>
      if h : s.rank = (⟨2, ![a, b]⟩ : Shape).rank then s.size ((1 : Fin 2).cast h.symm) else 0).sum = q.val) :
    concatenate ⟨2, ![a, b]⟩ (1 : Fin 2) xs h (ix2 p q) = col (ix2 p (0 : Fin 1)) :=
  concatenate_apply_piece (1 : Fin 2) xs h (ix2 p q) q.val hk ⟨2, ![a, 1]⟩ col hxk rfl q.val hpre (ix2 p (0 : Fin 1))
    (fun d hd => match d with
      | ⟨0, _⟩ => rfl
      | ⟨1, _⟩ => absurd (Fin.ext rfl) hd)
    (by show q.val + 0 = q.val; omega)

/-- Slabs [a, 1, c] stacked along the middle axis into [a, b, c]: entry (p, q, r) is entry (p, 0, r) of the piece at
    position q, when every piece before it has thickness one. -/
theorem joinSlabs_apply {a b c : Nat} (xs : List ((s : Shape) × (s.Idx → α)))
    (h : Shape.Concatenates (xs.map (·.1)) ⟨3, ![a, b, c]⟩ (1 : Fin 3)) (p : Fin a) (q : Fin b) (r : Fin c)
    (hk : q.val < xs.length) (slab : (⟨3, ![a, 1, c]⟩ : Shape).Idx → α) (hxk : xs[q.val] = ⟨⟨3, ![a, 1, c]⟩, slab⟩)
    (hpre : (((xs.take q.val).map (·.1)).map fun s =>
      if h : s.rank = (⟨3, ![a, b, c]⟩ : Shape).rank then s.size ((1 : Fin 3).cast h.symm) else 0).sum = q.val) :
    concatenate ⟨3, ![a, b, c]⟩ (1 : Fin 3) xs h (ix3 p q r) = slab (ix3 p (0 : Fin 1) r) :=
  concatenate_apply_piece (1 : Fin 3) xs h (ix3 p q r) q.val hk ⟨3, ![a, 1, c]⟩ slab hxk rfl q.val hpre
    (ix3 p (0 : Fin 1) r)
    (fun d hd => match d with
      | ⟨0, _⟩ => rfl
      | ⟨1, _⟩ => absurd (Fin.ext rfl) hd
      | ⟨2, _⟩ => rfl)
    (by show q.val + 0 = q.val; omega)

end Cert.Lib.Columns

end
-- ==== Proof.RefStages.lean ====
/-
  The reference program's stages as functions of their operands, and what each is on the extended reals.

  The reference computes the loss in four stretches: the encoder (two dense layers and the sampled latent rows), the
  edges' half and the non-edges' half of the decoder (name two nodes per pair, take their latent rows, score the pair,
  take log σ of the score or of its negation), and the two means. Each stretch is written here once, in the host's own
  spelling, as a function of the arrays it reads, and is shown equal, entry by entry, to the corresponding function of
  the common specification.
-/
import proofs.«123637_j43757126812205_1_alg».proof.Proof.Spec
import proofs.«123637_j43757126812205_1_alg».proof.Proof.Gen.ReferenceIdeal
import proofs.«123637_j43757126812205_1_alg».proof.Proof.LibBroadcastInDim
import proofs.«123637_j43757126812205_1_alg».proof.Proof.LibColumns
import Idealize.ShloMosaic.Lib.Pipeline.Value
import Idealize.ShloMosaic.PureOps.Ideal.Laws

noncomputable section

open scoped BigOperators

namespace Cert.ReferenceIdeal.RefStages

open Idealize.ShloMosaic Idealize.ShloMosaic.ValueIdx Cert.Layers Cert.Vae Idealize.ShloMosaic.GatherRows
open Cert.LibMatmulPlain Cert.Lib.BroadcastInDim Cert.Lib.Columns
open Cert.ReferenceIdeal.Facts₀

variable [Facts]

/-! ## A dense layer as the host spells it -/

/-- A general product plus a bias vector broadcast first to one row and then down the rows is the dense layer. -/
theorem hostDense_eq {m k n : Nat} (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ .f32) (w : FVec Ideal ⟨2, ![k, n]⟩ .f32) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) :
    addf (Host.dotGeneral (F := Ideal) d none a w)
        (broadcastInDim ⟨2, ![m, n]⟩ ![0, 1] h2 (broadcastInDim ⟨2, ![1, n]⟩ ![1] h1 b)) = dense a w b := by
  rw [hostMm_eq d wf hd a w, hostBias_eq b h1 h2]
  rfl

/-! ## The encoder -/

/-- The mean layer (and, on the other weights, the log-variance layer) as the host spells it. -/
def encDense (x : FVec Ideal S100000x128 .f32) (w : FVec Ideal S128x64 .f32) (b : FVec Ideal S64 .f32) :
    FVec Ideal S100000x64 .f32 :=
  addf (Host.dotGeneral (F := Ideal) dot_S100000x128_S128x64_S100000x64_1_0_0_1_n_n none x w)
    (broadcastInDim S100000x64 ![0, 1] bcast_S1x64_S100000x64_0_1 (broadcastInDim S1x64 ![1] bcast_S64_S1x64_1 b))

theorem encDense_eq (x : FVec Ideal S100000x128 .f32) (w : FVec Ideal S128x64 .f32) (b : FVec Ideal S64 .f32) :
    encDense x w b = dense x w b :=
  hostDense_eq dot_S100000x128_S128x64_S100000x64_1_0_0_1_n_n dot_S100000x128_S128x64_S100000x64_1_0_0_1_n_n_wf rfl
    x w b bcast_S64_S1x64_1 bcast_S1x64_S100000x64_0_1

/-- The sampled latent rows as the host spells them, from the two layers' results. -/
def encLatent (mu lv eps : FVec Ideal S100000x64 .f32) : FVec Ideal S100000x64 .f32 :=
  addf mu (mulf eps (Host.exp (mulf
    (broadcastInDim S100000x64 ![] bcast_S_S100000x64 (constant (F := Ideal) S_ .f32 0x3F000000#32)) lv)))

theorem encLatent_eq (x : FVec Ideal S100000x128 .f32) (eps : FVec Ideal S100000x64 .f32)
    (wmu : FVec Ideal S128x64 .f32) (bmu : FVec Ideal S64 .f32) (wlv : FVec Ideal S128x64 .f32)
    (blv : FVec Ideal S64 .f32) :
    encLatent (encDense x wmu bmu) (encDense x wlv blv) eps = latent x eps wmu bmu wlv blv := by
  rw [encDense_eq, encDense_eq]
  funext i
  show dense x wmu bmu i + eps i * Ideal.exp
    (broadcastInDim S100000x64 ![] bcast_S_S100000x64 (constant (F := Ideal) S_ .f32 0x3F000000#32) i
      * dense x wlv blv i) = _
  rw [scalar_apply]
  rfl

/-! ## Naming the nodes of a half's pairs -/

/-- Row r of a [2, 1000000] word array as a vector: slice, then flatten. -/
def wordsRow (r : Nat) (hs : S2x1000000.Slices ![r, 0] S1x1000000) (idx : IVec S2x1000000 32) : IVec S1000000 32 :=
  shapeCast S1000000 (extractStridedSlice S1x1000000 ![r, 0] idx hs) shapeCasts_S1x1000000_S1000000

theorem wordsRow_apply (r : Fin 2) (hs : S2x1000000.Slices ![r.val, 0] S1x1000000) (idx : IVec S2x1000000 32)
    (e : Fin 1000000) : wordsRow r.val hs idx (ix1 e) = idx (ix2 r e) := by
  unfold wordsRow
  refine (shapeCast_apply _ shapeCasts_S1x1000000_S1000000 (ix1 e) (ix2 (0 : Fin 1) e) ?_).trans ?_
  · rw [Shape.rowMajor_val_one, Shape.rowMajor_val_two]
    show (0 : Nat) * 1000000 + e.val = e.val
    omega
  · refine extractStridedSlice_apply _ idx hs (ix2 (0 : Fin 1) e) (ix2 r e) fun a => ?_
    match a with
    | ⟨0, _⟩ => show r.val = r.val + 0; omega
    | ⟨1, _⟩ => show e.val = 0 + e.val; omega

/-- A negative word has the table's extent added, entry by entry, as the host spells it. -/
def wrapWords (v : IVec S1000000 32) : IVec S1000000 32 :=
  select (cmpi .slt v (broadcastInDim S1000000 ![] bcast_S_S1000000 (constantI S_ 32 0#32)))
    (addi v (broadcastInDim S1000000 ![] bcast_S_S1000000 (constantI S_ 32 100000#32))) v

theorem wrapWords_apply (v : IVec S1000000 32) (i : S1000000.Idx) : wrapWords v i = wrapWord (v i) := by
  show Scalar.select (IntOp.cmpi .slt (v i) (broadcastInDim S1000000 ![] bcast_S_S1000000 (constantI S_ 32 0#32) i))
    (IntOp.addi (v i) (broadcastInDim S1000000 ![] bcast_S_S1000000 (constantI S_ 32 100000#32) i)) (v i) = _
  rw [scalar_apply, scalar_apply]
  rfl

/-- The latent rows the words name, as the host gathers them. -/
def gatherRows (z : FVec Ideal S100000x64 .f32) (v : IVec S1000000 32) : FVec Ideal S1000000x64 .f32 :=
  Host.gather gather_S100000x64_S1000000x1_S1000000x64_1_0_n_n_0_1_164 z
    (broadcastInDim S1000000x1 ![0] bcast_S1000000_S1000000x1_0 v)

theorem gatherRows_wrap_eq (z : FVec Ideal S100000x64 .f32) (v : IVec S1000000 32) :
    gatherRows z (wrapWords v) = rowsAt z (fun e => v (ix1 e)) := by
  funext i
  obtain ⟨e, q, rfl⟩ : ∃ (e : Fin 1000000) (q : Fin 64), i = ix2 e q := ⟨i 0, i 1, eq_ix2 i⟩
  unfold gatherRows
  have hg : gather_S100000x64_S1000000x1_S1000000x64_1_0_n_n_0_1_164
      = rowsDims 100000 1000000 64 gather_S100000x64_S1000000x1_S1000000x64_1_0_n_n_0_1_164_wf := rfl
  rw [hg]
  refine (rows_gather_apply (by decide) _ z _ e q).trans ?_
  rw [vecAsCol_apply, wrapWords_apply]
  rfl

/-! ## Scoring the pairs -/

/-- The perceptron's score of each row pair as the host spells it, flattened to a vector. -/
def pairScore (zu zv : FVec Ideal S1000000x64 .f32) (w1 : FVec Ideal S64x128 .f32) (b1 : FVec Ideal S128 .f32)
    (w2 : FVec Ideal S128x1 .f32) (b2 : FVec Ideal S1 .f32) : FVec Ideal S1000000 .f32 :=
  shapeCast S1000000
    (addf
      (Host.dotGeneral (F := Ideal) dot_S1000000x128_S128x1_S1000000x1_1_0_0_1_n_n none
        (maximumf
          (addf
            (Host.dotGeneral (F := Ideal) dot_S1000000x64_S64x128_S1000000x128_1_0_0_1_n_n none (mulf zu zv) w1)
            (broadcastInDim S1000000x128 ![0, 1] bcast_S1x128_S1000000x128_0_1
              (broadcastInDim S1x128 ![1] bcast_S128_S1x128_1 b1)))
          (broadcastInDim S1000000x128 ![] bcast_S_S1000000x128 (constant (F := Ideal) S_ .f32 0x00000000#32)))
        w2)
      (broadcastInDim S1000000x1 ![0, 1] bcast_S1x1_S1000000x1_0_1 (broadcastInDim S1x1 ![1] bcast_S1_S1x1_1 b2)))
    shapeCasts_S1000000x1_S1000000

theorem pairScore_apply (zu zv : FVec Ideal S1000000x64 .f32) (w1 : FVec Ideal S64x128 .f32)
    (b1 : FVec Ideal S128 .f32) (w2 : FVec Ideal S128x1 .f32) (b2 : FVec Ideal S1 .f32) (e : Fin 1000000) :
    pairScore zu zv w1 b1 w2 b2 (ix1 e) = pairLogit zu zv w1 b1 w2 b2 (ix2 e (0 : Fin 1)) := by
  unfold pairScore
  rw [colAsVec_apply,
    hostDense_eq dot_S1000000x64_S64x128_S1000000x128_1_0_0_1_n_n
      dot_S1000000x64_S64x128_S1000000x128_1_0_0_1_n_n_wf rfl (mulf zu zv) w1 b1 bcast_S128_S1x128_1
      bcast_S1x128_S1000000x128_0_1,
    hostRect_eq,
    hostDense_eq dot_S1000000x128_S128x1_S1000000x1_1_0_0_1_n_n
      dot_S1000000x128_S128x1_S1000000x1_1_0_0_1_n_n_wf rfl _ w2 b2 bcast_S1_S1x1_1 bcast_S1x1_S1000000x1_0_1]
  rfl

/-! ## log σ of a vector of scores -/

/-- The zero word repeated over a vector of a million entries. -/
def zeroVec : FVec Ideal S1000000 .f32 :=
  broadcastInDim S1000000 ![] bcast_S_S1000000 (constant (F := Ideal) S_ .f32 0x00000000#32)

theorem zeroVec_apply (i : S1000000.Idx) : zeroVec i = zeroW := by
  unfold zeroVec
  rw [scalar_apply]
  rfl

/-- An extended real is not different from itself: the comparison's bit is 0. -/
theorem cmp_une_self (a : EReal) : Ideal.cmp .une a a = 0#1 := by
  show BitVec.ofBool (decide (a ≠ a)) = 0#1
  rw [decide_eq_false (fun h => h rfl)]
  rfl

/-- softplus as the host spells it, its branch on an argument different from itself included. -/
def softplusVec (y : FVec Ideal S1000000 .f32) : FVec Ideal S1000000 .f32 :=
  select (cmpf .une (subf y zeroVec) (subf y zeroVec)) (addf y zeroVec)
    (addf (maximumf y zeroVec) (Host.log1p (Host.exp (Host.negf (Host.absf (subf y zeroVec))))))

theorem softplusVec_apply (y : FVec Ideal S1000000 .f32) (i : S1000000.Idx) : softplusVec y i = softplus (y i) := by
  show Scalar.select (Ideal.cmp .une (y i - zeroVec i) (y i - zeroVec i)) (y i + zeroVec i)
    (max (y i) (zeroVec i) + Ideal.log1p (Ideal.exp (-(max (y i - zeroVec i) (-(y i - zeroVec i)))))) = _
  rw [cmp_une_self, select_zero, zeroVec_apply]
  rfl

/-- log σ as the host spells it: negate, softplus, negate. -/
def logSigmoidVec (y : FVec Ideal S1000000 .f32) : FVec Ideal S1000000 .f32 :=
  Host.negf (softplusVec (Host.negf y))

theorem logSigmoidVec_apply (y : FVec Ideal S1000000 .f32) (i : S1000000.Idx) :
    logSigmoidVec y i = logSigmoid (y i) := by
  show -(softplusVec (Host.negf y) i) = _
  rw [softplusVec_apply]
  rfl

/-! ## A half of the decoder -/

/-- The scores of the pairs a [2, 1000000] word array names, as the host computes them from the latent rows. -/
def halfScore (z : FVec Ideal S100000x64 .f32) (idx : IVec S2x1000000 32) (w1 : FVec Ideal S64x128 .f32)
    (b1 : FVec Ideal S128 .f32) (w2 : FVec Ideal S128x1 .f32) (b2 : FVec Ideal S1 .f32) : FVec Ideal S1000000 .f32 :=
  pairScore (gatherRows z (wrapWords (wordsRow 0 slices_S2x1000000_S1x1000000_0_0 idx)))
    (gatherRows z (wrapWords (wordsRow 1 slices_S2x1000000_S1x1000000_1_0 idx))) w1 b1 w2 b2

theorem halfScore_apply (z : FVec Ideal S100000x64 .f32) (idx : IVec S2x1000000 32) (w1 : FVec Ideal S64x128 .f32)
    (b1 : FVec Ideal S128 .f32) (w2 : FVec Ideal S128x1 .f32) (b2 : FVec Ideal S1 .f32) (e : Fin 1000000) :
    halfScore z idx w1 b1 w2 b2 (ix1 e)
      = pairLogit (rowsAt z (fun e => idx (ix2 (0 : Fin 2) e))) (rowsAt z (fun e => idx (ix2 (1 : Fin 2) e)))
          w1 b1 w2 b2 (ix2 e (0 : Fin 1)) := by
  unfold halfScore
  rw [pairScore_apply, gatherRows_wrap_eq, gatherRows_wrap_eq]
  have h0 : (fun e : Fin 1000000 => wordsRow 0 slices_S2x1000000_S1x1000000_0_0 idx (ix1 e))
      = fun e => idx (ix2 (0 : Fin 2) e) := funext fun e => wordsRow_apply (0 : Fin 2) _ idx e
  have h1 : (fun e : Fin 1000000 => wordsRow 1 slices_S2x1000000_S1x1000000_1_0 idx (ix1 e))
      = fun e => idx (ix2 (1 : Fin 2) e) := funext fun e => wordsRow_apply (1 : Fin 2) _ idx e
  rw [h0, h1]

/-- The edges' half: log σ of the scores. -/
def edgeLp (z : FVec Ideal S100000x64 .f32) (idx : IVec S2x1000000 32) (w1 : FVec Ideal S64x128 .f32)
    (b1 : FVec Ideal S128 .f32) (w2 : FVec Ideal S128x1 .f32) (b2 : FVec Ideal S1 .f32) : FVec Ideal S1000000 .f32 :=
  logSigmoidVec (halfScore z idx w1 b1 w2 b2)

/-- The non-edges' half: log σ of the negated scores. -/
def nonEdgeLp (z : FVec Ideal S100000x64 .f32) (idx : IVec S2x1000000 32) (w1 : FVec Ideal S64x128 .f32)
    (b1 : FVec Ideal S128 .f32) (w2 : FVec Ideal S128x1 .f32) (b2 : FVec Ideal S1 .f32) : FVec Ideal S1000000 .f32 :=
  logSigmoidVec (Host.negf (halfScore z idx w1 b1 w2 b2))

theorem edgeLp_apply (z : FVec Ideal S100000x64 .f32) (idx : IVec S2x1000000 32) (w1 : FVec Ideal S64x128 .f32)
    (b1 : FVec Ideal S128 .f32) (w2 : FVec Ideal S128x1 .f32) (b2 : FVec Ideal S1 .f32) (e : Fin 1000000) :
    edgeLp z idx w1 b1 w2 b2 (ix1 e)
      = logSigmoid (pairLogit (rowsAt z (fun e => idx (ix2 (0 : Fin 2) e)))
          (rowsAt z (fun e => idx (ix2 (1 : Fin 2) e))) w1 b1 w2 b2 (ix2 e (0 : Fin 1))) := by
  unfold edgeLp
  rw [logSigmoidVec_apply, halfScore_apply]

theorem nonEdgeLp_apply (z : FVec Ideal S100000x64 .f32) (idx : IVec S2x1000000 32) (w1 : FVec Ideal S64x128 .f32)
    (b1 : FVec Ideal S128 .f32) (w2 : FVec Ideal S128x1 .f32) (b2 : FVec Ideal S1 .f32) (e : Fin 1000000) :
    nonEdgeLp z idx w1 b1 w2 b2 (ix1 e)
      = logSigmoid (-(pairLogit (rowsAt z (fun e => idx (ix2 (0 : Fin 2) e)))
          (rowsAt z (fun e => idx (ix2 (1 : Fin 2) e))) w1 b1 w2 b2 (ix2 e (0 : Fin 1)))) := by
  unfold nonEdgeLp
  rw [logSigmoidVec_apply]
  show logSigmoid (-(halfScore z idx w1 b1 w2 b2 (ix1 e))) = _
  rw [halfScore_apply]

/-! ## The two means -/

/-- The edges' and the non-edges' log-probabilities joined end to end, read at pair e. -/
theorem joined_apply (lpE lpN : FVec Ideal S1000000 .f32) (P : Fin 2000000 → EReal)
    (hE : ∀ (e : Fin 2000000) (h : e.val < 1000000), lpE (ix1 (⟨e.val, h⟩ : Fin 1000000)) = P e)
    (hN : ∀ (e : Fin 2000000) (h : ¬e.val < 1000000),
      lpN (ix1 (⟨e.val - 1000000, by have := e.isLt; omega⟩ : Fin 1000000)) = P e) (e : Fin 2000000) :
    concatenate S2000000 0 [⟨S1000000, lpE⟩, ⟨S1000000, lpN⟩] concatenates_S1000000_S1000000_S2000000_d0 (ix1 e)
      = P e := by
  by_cases h : e.val < 1000000
  · refine (concatenate_pair_apply_left (0 : Fin 1) lpE lpN concatenates_S1000000_S1000000_S2000000_d0 (ix1 e) rfl
      (ix1 (⟨e.val, h⟩ : Fin 1000000)) fun b => ?_).trans (hE e h)
    match b with
    | ⟨0, _⟩ => rfl
  · refine (concatenate_pair_apply_right (0 : Fin 1) lpE lpN concatenates_S1000000_S1000000_S2000000_d0 (ix1 e) rfl rfl
      (ix1 (⟨e.val - 1000000, by have := e.isLt; omega⟩ : Fin 1000000)) (fun b hb => ?_) ?_).trans (hN e h)
    · match b with
      | ⟨0, _⟩ => exact absurd (Fin.ext rfl) hb
    · show (e.val - 1000000) + 1000000 = e.val
      omega

/-- A node's terms of the divergence as the host spells them, from the two layers' results. -/
def klTerms (mu lv : FVec Ideal S100000x64 .f32) : FVec Ideal S100000x64 .f32 :=
  subf (subf (addf (mulf mu mu) (Host.exp lv))
    (broadcastInDim S100000x64 ![] bcast_S_S100000x64 (constant (F := Ideal) S_ .f32 0x3F800000#32))) lv

theorem klTerms_eq (x : FVec Ideal S100000x128 .f32) (wmu : FVec Ideal S128x64 .f32) (bmu : FVec Ideal S64 .f32)
    (wlv : FVec Ideal S128x64 .f32) (blv : FVec Ideal S64 .f32) :
    klTerms (dense x wmu bmu) (dense x wlv blv) = klEntry x wmu bmu wlv blv := by
  funext i
  show ((dense x wmu bmu i * dense x wmu bmu i + Ideal.exp (dense x wlv blv i))
    - broadcastInDim S100000x64 ![] bcast_S_S100000x64 (constant (F := Ideal) S_ .f32 0x3F800000#32) i)
    - dense x wlv blv i = _
  rw [scalar_apply]
  rfl

/-- Each node's divergence as the host spells it: the row sums of the terms, halved. -/
def klRows (mu lv : FVec Ideal S100000x64 .f32) : FVec Ideal S100000 .f32 :=
  mulf (broadcastInDim S100000 ![] bcast_S_S100000 (constant (F := Ideal) S_ .f32 0x3F000000#32))
    (Host.reduceAdd (klTerms mu lv) (constant (F := Ideal) S_ .f32 0x00000000#32)
      reducesTo_S100000x64_S100000_d1 h_S_)

theorem klRows_apply (x : FVec Ideal S100000x128 .f32) (wmu : FVec Ideal S128x64 .f32) (bmu : FVec Ideal S64 .f32)
    (wlv : FVec Ideal S128x64 .f32) (blv : FVec Ideal S64 .f32) (p : Fin 100000) :
    klRows (dense x wmu bmu) (dense x wlv blv) (ix1 p) = klNode x wmu bmu wlv blv p := by
  rw [klNode, ← klTerms_eq]
  show broadcastInDim S100000 ![] bcast_S_S100000 (constant (F := Ideal) S_ .f32 0x3F000000#32) (ix1 p)
    * Ideal.hostReduceAdd reducesTo_S100000x64_S100000_d1 (klTerms (dense x wmu bmu) (dense x wlv blv))
        (Ideal.ofBits .f32 0x00000000#32) (ix1 p) = _
  rw [scalar_apply,
    Ideal.hostReduceAdd_single reducesTo_S100000x64_S100000_d1 (by decide : S100000x64.Reduces [1] S100000),
    Ideal.ofBits_zero_f32, zero_add]
  refine congrArg (half * ·) (Finset.sum_congr rfl fun k _ => ?_)
  exact congrArg _ (funext fun d => Fin.ext (by match d with | ⟨0, _⟩ => rfl | ⟨1, _⟩ => rfl))

/-- The loss from the two halves' log-probabilities and the two layers' results, as the host spells it:
    −(sum of the joined halves / pair count − sum of the nodes' divergences / node count). -/
def lossTail (lpE lpN : FVec Ideal S1000000 .f32) (mu lv : FVec Ideal S100000x64 .f32) : FVec Ideal S_ .f32 :=
  Host.negf (subf
    (Host.divf
      (Host.reduceAdd
        (concatenate S2000000 0 [⟨S1000000, lpE⟩, ⟨S1000000, lpN⟩] concatenates_S1000000_S1000000_S2000000_d0)
        (constant (F := Ideal) S_ .f32 0x00000000#32) reducesTo_S2000000_S_d0 h_S_)
      (constant (F := Ideal) S_ .f32 0x49F42400#32))
    (Host.divf
      (Host.reduceAdd (klRows mu lv) (constant (F := Ideal) S_ .f32 0x00000000#32) reducesTo_S100000_S_d0 h_S_)
      (constant (F := Ideal) S_ .f32 0x47C35000#32)))

/-- A vector's index set is its one coordinate's range … -/
def idxEquiv1 {n : Nat} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The host's sum of a vector into a scalar, from a zero initial value, is the sum of the vector's entries. -/
theorem sumAll_apply {n : Nat} (v : FVec Ideal ⟨1, ![n]⟩ .f32) (h' : (⟨1, ![n]⟩ : Shape).ReducesTo [0] ⟨0, ![]⟩)
    (hu : 0 < (⟨0, ![]⟩ : Shape).numel) (j : (⟨0, ![]⟩ : Shape).Idx) :
    Host.reduceAdd v (constant (F := Ideal) ⟨0, ![]⟩ .f32 0x00000000#32) h' hu j = ∑ k : Fin n, v (ix1 k) := by
  show Ideal.hostReduceAdd h' v (Ideal.ofBits .f32 0x00000000#32) j = _
  rw [Ideal.hostReduceAdd_total h' (fun b => b.elim0), Ideal.ofBits_zero_f32, zero_add, sum_idx1]

theorem lossTail_eq (lpE lpN : FVec Ideal S1000000 .f32) (mu lv : FVec Ideal S100000x64 .f32)
    (P : Fin 2000000 → EReal) (K : Fin 100000 → EReal)
    (hE : ∀ (e : Fin 2000000) (h : e.val < 1000000), lpE (ix1 (⟨e.val, h⟩ : Fin 1000000)) = P e)
    (hN : ∀ (e : Fin 2000000) (h : ¬e.val < 1000000),
      lpN (ix1 (⟨e.val - 1000000, by have := e.isLt; omega⟩ : Fin 1000000)) = P e)
    (hK : ∀ p : Fin 100000, klRows mu lv (ix1 p) = K p) :
    lossTail lpE lpN mu lv = fun _ => -(Ideal.div (∑ e, P e) pairsW - Ideal.div (∑ p, K p) nodesW) := by
  funext j
  show -(Ideal.div (Host.reduceAdd
        (concatenate S2000000 0 [⟨S1000000, lpE⟩, ⟨S1000000, lpN⟩] concatenates_S1000000_S1000000_S2000000_d0)
        (constant (F := Ideal) S_ .f32 0x00000000#32) reducesTo_S2000000_S_d0 h_S_ j) pairsW
      - Ideal.div (Host.reduceAdd (klRows mu lv) (constant (F := Ideal) S_ .f32 0x00000000#32)
        reducesTo_S100000_S_d0 h_S_ j) nodesW) = _
  rw [sumAll_apply _ reducesTo_S2000000_S_d0 h_S_ j, sumAll_apply _ reducesTo_S100000_S_d0 h_S_ j,
    Finset.sum_congr rfl fun e _ => joined_apply lpE lpN P hE hN e, Finset.sum_congr rfl fun p _ => hK p]

/-! ## The whole reference -/

/-- The reference's result as the host spells it, from the twelve arguments. -/
def refLoss (x : FVec Ideal S100000x128 .f32) (eps : FVec Ideal S100000x64 .f32) (wmu : FVec Ideal S128x64 .f32)
    (bmu : FVec Ideal S64 .f32) (wlv : FVec Ideal S128x64 .f32) (blv : FVec Ideal S64 .f32)
    (w1 : FVec Ideal S64x128 .f32) (b1 : FVec Ideal S128 .f32) (w2 : FVec Ideal S128x1 .f32) (b2 : FVec Ideal S1 .f32)
    (edges nonEdges : IVec S2x1000000 32) : FVec Ideal S_ .f32 :=
  lossTail
    (edgeLp (encLatent (encDense x wmu bmu) (encDense x wlv blv) eps) edges w1 b1 w2 b2)
    (nonEdgeLp (encLatent (encDense x wmu bmu) (encDense x wlv blv) eps) nonEdges w1 b1 w2 b2)
    (encDense x wmu bmu) (encDense x wlv blv)

theorem refLoss_eq (x : FVec Ideal S100000x128 .f32) (eps : FVec Ideal S100000x64 .f32) (wmu : FVec Ideal S128x64 .f32)
    (bmu : FVec Ideal S64 .f32) (wlv : FVec Ideal S128x64 .f32) (blv : FVec Ideal S64 .f32)
    (w1 : FVec Ideal S64x128 .f32) (b1 : FVec Ideal S128 .f32) (w2 : FVec Ideal S128x1 .f32) (b2 : FVec Ideal S1 .f32)
    (edges nonEdges : IVec S2x1000000 32) :
    refLoss x eps wmu bmu wlv blv w1 b1 w2 b2 edges nonEdges
      = fun _ => loss x eps wmu bmu wlv blv w1 b1 w2 b2
          (fun e => edges (ix2 (0 : Fin 2) e)) (fun e => edges (ix2 (1 : Fin 2) e))
          (fun e => nonEdges (ix2 (0 : Fin 2) e)) (fun e => nonEdges (ix2 (1 : Fin 2) e)) := by
  unfold refLoss
  rw [encLatent_eq, encDense_eq, encDense_eq]
  refine lossTail_eq _ _ _ _
    (pairLp (latent x eps wmu bmu wlv blv) w1 b1 w2 b2 (fun e => edges (ix2 (0 : Fin 2) e))
      (fun e => edges (ix2 (1 : Fin 2) e)) (fun e => nonEdges (ix2 (0 : Fin 2) e))
      (fun e => nonEdges (ix2 (1 : Fin 2) e)))
    (klNode x wmu bmu wlv blv) (fun e h => ?_) (fun e h => ?_) (fun p => klRows_apply x wmu bmu wlv blv p)
  · rw [edgeLp_apply, pairLp, dif_pos h]
  · rw [nonEdgeLp_apply, pairLp, dif_neg h]

end Cert.ReferenceIdeal.RefStages

end
-- ==== Proof.RefReads.lean ====
/- What each of the reference's four stretches leaves in its result buffers, as the host's own composition of the
   buffers it reads: the two dense layers and the latent rows after the encoder; log σ of the pairs' scores (of
   their negations) after each half; the negated difference of the two means after the tail. -/
import proofs.«123637_j43757126812205_1_alg».proof.Proof.RefOps
import proofs.«123637_j43757126812205_1_alg».proof.Proof.RefStages

noncomputable section

namespace Cert.ReferenceIdeal.RefReads

open Cert.ReferenceIdeal Cert.ReferenceIdeal.Gen Idealize.ShloMosaic Idealize.ShloMosaic.TcCoe Idealize.SL.Sem Idealize.ShloMosaic.StableHlo

/-! ## The encoder -/

/-- After the encoder, `main_v3` holds the mean layer of the features. -/
theorem enc_v3 (V : Valuation τ sig (Elt Ideal)) :
    after (RefOps.opsEnc (F := Ideal)) V (main_v3 : DevRef τ sig)
      = RefStages.encDense (V main_arg0) (V main_arg2) (V main_arg3) := by
  after_results
  rfl

/-- After the encoder, `main_v7` holds the log-variance layer of the features. -/
theorem enc_v7 (V : Valuation τ sig (Elt Ideal)) :
    after (RefOps.opsEnc (F := Ideal)) V (main_v7 : DevRef τ sig)
      = RefStages.encDense (V main_arg0) (V main_arg4) (V main_arg5) := by
  after_results
  rfl

/-- After the encoder, `main_v12` holds the latent rows: mean + noise · exp (½ · log-variance). -/
theorem enc_v12 (V : Valuation τ sig (Elt Ideal)) :
    after (RefOps.opsEnc (F := Ideal)) V (main_v12 : DevRef τ sig)
      = RefStages.encLatent (RefStages.encDense (V main_arg0) (V main_arg2) (V main_arg3))
          (RefStages.encDense (V main_arg0) (V main_arg4) (V main_arg5)) (V main_arg1) := by
  after_results
  rfl

/-! ## The two halves -/

-- the gather's body is a search over the operand's rows: kept folded while the chain of results is opened
attribute [local irreducible] Host.gather in
set_option maxHeartbeats 4000000 in
set_option maxRecDepth 8192 in
/-- After the edges' half, `main_v42` holds log σ of the edges' scores, from the latent rows in `main_v12`, the edge
    words and the decoder's weights. -/
theorem pos_v42 (V : Valuation τ sig (Elt Ideal)) :
    after (RefOps.opsPos (F := Ideal)) V (main_v42 : DevRef τ sig)
      = RefStages.edgeLp (V main_v12) (V main_arg10) (V main_arg6) (V main_arg7) (V main_arg8) (V main_arg9) := by
  after_results_simp
  rfl

attribute [local irreducible] Host.gather in
set_option maxHeartbeats 4000000 in
set_option maxRecDepth 8192 in
/-- After the non-edges' half, `main_v73` holds log σ of the negated scores of the non-edges. -/
theorem neg_v73 (V : Valuation τ sig (Elt Ideal)) :
    after (RefOps.opsNeg (F := Ideal)) V (main_v73 : DevRef τ sig)
      = RefStages.nonEdgeLp (V main_v12) (V main_arg11) (V main_arg6) (V main_arg7) (V main_arg8) (V main_arg9) := by
  after_results_simp
  rfl

/-! ## The tail -/

set_option maxHeartbeats 4000000 in
set_option maxRecDepth 8192 in
/-- After the tail, `main_v89` holds the loss, from the two halves' log-probabilities and the two layers' results. -/
theorem tail_v89 (V : Valuation τ sig (Elt Ideal)) :
    after (RefOps.opsTail (F := Ideal)) V (main_v89 : DevRef τ sig)
      = RefStages.lossTail (V main_v42) (V main_v73) (V main_v3) (V main_v7) := by
  after_results
  rfl

end Cert.ReferenceIdeal.RefReads

end
-- ==== Proof.RefValue.lean ====
/-
  The reference program's value: its last buffer holds the loss of the common specification.

  The program is four stretches run one after the other. Each stretch's results are the stage functions of the
  buffers it reads; a buffer a stretch does not write passes through it unchanged; so the last buffer is the whole
  composition of the stage functions applied to the twelve arguments, which is the specification's loss.
-/
import proofs.«123637_j43757126812205_1_alg».proof.Proof.Spec
import proofs.«123637_j43757126812205_1_alg».proof.Proof.RefOps
import proofs.«123637_j43757126812205_1_alg».proof.Proof.RefStages
import proofs.«123637_j43757126812205_1_alg».proof.Proof.RefReads
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx Cert.ReferenceIdeal.RefOps Cert.ReferenceIdeal.RefStages
open Cert.ReferenceIdeal.RefReads

/-- The four stretches composed: the last buffer is the whole composition of the stage functions applied to the
    twelve arguments. Each stretch's result is read off at the buffers the stretch before it left; a buffer a stretch
    does not write is carried through it. -/
theorem v89_eq_refLoss (V : Valuation τ sig (Elt Ideal)) :
    after (RefOps.ops (F := Ideal)) V (main_v89 : DevRef τ sig)
      = refLoss (V main_arg0) (V main_arg1) (V main_arg2) (V main_arg3) (V main_arg4) (V main_arg5) (V main_arg6)
          (V main_arg7) (V main_arg8) (V main_arg9) (V main_arg10) (V main_arg11) := by
  rw [show (ops : List (HloOp τ sig (Elt Ideal))) = opsEnc ++ opsPos ++ opsNeg ++ opsTail from rfl,
    after_append, after_append, after_append, tail_v89,
    neg_v73, opsNeg_keep _ main_v42 (by decide), opsNeg_keep _ main_v3 (by decide), opsNeg_keep _ main_v7 (by decide),
    pos_v42, opsPos_keep _ main_v12 (by decide), opsPos_keep _ main_arg11 (by decide),
    opsPos_keep _ main_arg6 (by decide), opsPos_keep _ main_arg7 (by decide), opsPos_keep _ main_arg8 (by decide),
    opsPos_keep _ main_arg9 (by decide), opsPos_keep _ main_v3 (by decide), opsPos_keep _ main_v7 (by decide),
    enc_v12, enc_v3, enc_v7, opsEnc_keep _ main_arg10 (by decide), opsEnc_keep _ main_arg11 (by decide),
    opsEnc_keep _ main_arg6 (by decide), opsEnc_keep _ main_arg7 (by decide), opsEnc_keep _ main_arg8 (by decide),
    opsEnc_keep _ main_arg9 (by decide)]
  rfl

/-- The reference's last buffer holds the specification's loss of the twelve arguments: the features, the noise, the
    two encoder layers, the two decoder layers, and the two rows of each of the two word arrays. -/
theorem loss_eq (V : Valuation τ sig (Elt Ideal)) :
    after (RefOps.ops (F := Ideal)) V (main_v89 : DevRef τ sig)
      = fun _ => Cert.Vae.loss (V main_arg0) (V main_arg1) (V main_arg2) (V main_arg3) (V main_arg4) (V main_arg5)
          (V main_arg6) (V main_arg7) (V main_arg8) (V main_arg9)
          (fun e => V main_arg10 (ix2 (0 : Fin 2) e)) (fun e => V main_arg10 (ix2 (1 : Fin 2) e))
          (fun e => V main_arg11 (ix2 (0 : Fin 2) e)) (fun e => V main_arg11 (ix2 (1 : Fin 2) e)) :=
  (v89_eq_refLoss V).trans (refLoss_eq _ _ _ _ _ _ _ _ _ _ _ _)

end Cert.ReferenceIdeal.RefValue

end
-- ==== Proof.RefClaims.lean ====
/- The reference's two claims: from any memory with zero counters @main runs to the end with its twelve argument
   buffers unchanged (at any float values), and at the extended reals its result buffer then holds the loss of
   the common specification, computed from the arguments' launch contents. -/
import proofs.«123637_j43757126812205_1_alg».proof.Proof.RefRun
import proofs.«123637_j43757126812205_1_alg».proof.Proof.RefValue

noncomputable section

namespace Cert.ReferenceIdeal.RefClaims

open Cert.ReferenceIdeal Cert.ReferenceIdeal.Gen Idealize.ShloMosaic Idealize.ShloMosaic.TcCoe Idealize.SL.Sem Idealize.ShloMosaic.StableHlo
open Idealize.ShloMosaic.ValueIdx

/-- At any float values, from any memory with zero counters: every weakly fair execution of @main terminates and
    leaves each of the twelve argument buffers at its launch contents. -/
theorem frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
      ⟨(h c main_arg0).trans (RefOps.arg0_kept _),
        (h c main_arg1).trans (RefOps.arg1_kept _),
        (h c main_arg2).trans (RefOps.arg2_kept _),
        (h c main_arg3).trans (RefOps.arg3_kept _),
        (h c main_arg4).trans (RefOps.arg4_kept _),
        (h c main_arg5).trans (RefOps.arg5_kept _),
        (h c main_arg6).trans (RefOps.arg6_kept _),
        (h c main_arg7).trans (RefOps.arg7_kept _),
        (h c main_arg8).trans (RefOps.arg8_kept _),
        (h c main_arg9).trans (RefOps.arg9_kept _),
        (h c main_arg10).trans (RefOps.arg10_kept _),
        (h c main_arg11).trans (RefOps.arg11_kept _)⟩)
    (RefRun.run_main m ρ)

/-- At the extended reals, from any memory with zero counters: every weakly fair execution of @main terminates with the
    result buffer at the specification's loss of the arguments' launch contents, and the arguments unchanged. -/
theorem run_loss (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v89)
          = (fun _ => Cert.Vae.loss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
            (fun e => m ((c.tc : Thread nD τ).loc main_arg10) (ix2 (0 : Fin 2) e)) (fun e => m ((c.tc : Thread nD τ).loc main_arg10) (ix2 (1 : Fin 2) e))
            (fun e => m ((c.tc : Thread nD τ).loc main_arg11) (ix2 (0 : Fin 2) e)) (fun e => m ((c.tc : Thread nD τ).loc main_arg11) (ix2 (1 : Fin 2) e)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
      ⟨(h c main_v89).trans (RefValue.loss_eq (launchContents m c)),
        (h c main_arg0).trans (RefOps.arg0_kept _),
        (h c main_arg1).trans (RefOps.arg1_kept _),
        (h c main_arg2).trans (RefOps.arg2_kept _),
        (h c main_arg3).trans (RefOps.arg3_kept _),
        (h c main_arg4).trans (RefOps.arg4_kept _),
        (h c main_arg5).trans (RefOps.arg5_kept _),
        (h c main_arg6).trans (RefOps.arg6_kept _),
        (h c main_arg7).trans (RefOps.arg7_kept _),
        (h c main_arg8).trans (RefOps.arg8_kept _),
        (h c main_arg9).trans (RefOps.arg9_kept _),
        (h c main_arg10).trans (RefOps.arg10_kept _),
        (h c main_arg11).trans (RefOps.arg11_kept _)⟩)
    (RefRun.run_main m ρ)

end Cert.ReferenceIdeal.RefClaims

end
-- ==== Proof.lean ====
/-
  The certificate of a graph variational auto-encoder's loss: a program of two kernel regions — an encoder over the
  100000 nodes in blocks of 5000 rows and a perceptron decoder over 2000000 node pairs in blocks of 8000, with the
  host gathering the pairs' latent rows in between and taking the two means — against the plain array program.

  At the exact instance both end with −(mean pair log-probability − mean node divergence) of the same arguments
  (Proof/Spec.lean, Cert.Vae.loss): the kernel side is read off its run through the two regions
  (Proof/KernelClaims.lean), the reference side off its run of host operations (Proof/RefClaims.lean), and the
  two runs start from memories that agree on the twelve argument arrays. No law that fails at an infinity is used —
  a product with the sign +1 or −1, a difference from zero, and the order of a finite sum — so the precondition
  is never opened. The three frames are the runs with the result forgotten; the idealization rewrote nothing.
-/
import proofs.«123637_j43757126812205_1_alg».proof.Defs
import proofs.«123637_j43757126812205_1_alg».proof.Proof.Gen.Kernel
import proofs.«123637_j43757126812205_1_alg».proof.Proof.Gen.Kernel.Skeleton
import proofs.«123637_j43757126812205_1_alg».proof.Proof.Gen.Kernel.Launch
import proofs.«123637_j43757126812205_1_alg».proof.Proof.Gen.Kernel.Points
import proofs.«123637_j43757126812205_1_alg».proof.Proof.Gen.Kernel.Frame
import proofs.«123637_j43757126812205_1_alg».proof.Proof.Gen.KernelIdeal
import proofs.«123637_j43757126812205_1_alg».proof.Proof.Gen.KernelIdeal.Skeleton
import proofs.«123637_j43757126812205_1_alg».proof.Proof.Gen.KernelIdeal.Launch
import proofs.«123637_j43757126812205_1_alg».proof.Proof.Gen.KernelIdeal.Points
import proofs.«123637_j43757126812205_1_alg».proof.Proof.Gen.KernelIdeal.Frame
import proofs.«123637_j43757126812205_1_alg».proof.Proof.Gen.ReferenceIdeal
import proofs.«123637_j43757126812205_1_alg».proof.Proof.Gen.Pre_finite_inputs
import proofs.«123637_j43757126812205_1_alg».proof.Proof.KernelClaims
import proofs.«123637_j43757126812205_1_alg».proof.Proof.RefClaims
import Idealize.ShloMosaic.Adequacy
import Idealize.ShloMosaic.Init

noncomputable section

namespace Cert.Proof

open Idealize.ShloMosaic Idealize.SL.Sem

/-- The word-level kernel program's frame. -/
theorem frame_p : Cert.frame_Kernel := fun m ρ _ => Cert.Kernel.Gen.frame m ρ

/-- The idealized kernel program's frame. -/
theorem frame_pi : Cert.frame_KernelIdeal := fun m ρ _ => Cert.KernelIdeal.Gen.frame m ρ

/-- The reference's frame: its run with the result forgotten. -/
theorem frame_ri : Cert.frame_ReferenceIdeal := fun m ρ _ => Cert.ReferenceIdeal.RefClaims.frame m ρ

/-- The idealization rewrote no operation. -/
theorem preserves : Cert.preserves_Kernel_KernelIdeal := trivial

/-- Both programs end with the loss of their arguments, and the arguments agree. -/
theorem algebraic : Cert.algebraic_KernelIdeal_ReferenceIdeal := by
  intro m g m' g' _ hagree
  refine ⟨_, Cert.KernelIdeal.Claims.run_loss m g, ?_⟩
  refine (θ_run Cert.ReferenceIdeal.defs _ _).mono (fun r h c => ⟨(h c).1.trans ?_, (h c).2⟩)
    (Cert.ReferenceIdeal.RefClaims.run_loss m' g')
  obtain ⟨h0, h1, h2, h3, h4, h5, h6, h7, h8, h9, h10, h11⟩ := hagree c
  rw [h0, h1, h2, h3, h4, h5, h6, h7, h8, h9, h10, h11]
  rfl

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
